-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S1 : Shape := ⟨1, ![1]⟩
abbrev S_ : Shape := ⟨0, ![]⟩

abbrev nBuf : Space → Nat
  | .hbm => 23
  | .vmem => 11
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x1, .f32⟩
  | .hbm, ⟨3, _⟩ => ⟨S8192x1, .f32⟩
  | .hbm, ⟨4, _⟩ => ⟨S1x8192, .f32⟩
  | .hbm, ⟨5, _⟩ => ⟨S1x8192, .f32⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .i1⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S512x1, .f32⟩
  | .local _ .vmem, ⟨3, _⟩ => ⟨S512x1, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let arg1 : BitVec 32 := BitVec.ofNat 32 (i 1).val
  let c0_i32_29 : BitVec 32 := 0#32
  let v63 : BitVec 1 := Scalar.cmpi .eq arg1 c0_i32_29
  let v64 : BitVec 32 := Scalar.extui v63
  let c0_i32_30 : BitVec 32 := 0#32
  let v65 : BitVec 1 := Scalar.cmpi .ne v64 c0_i32_30
  v65

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

class Facts₀ : Prop where
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  reduces_S512x1_S1 : S512x1.Reduces [0] S1
  shapeCasts_S1_S1x1 : S1.ShapeCasts S1x1
  natLt_1_32 : 1 < 32
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .f32 = 32 ∨ (Rect.block (s := S8192x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond1 i == 1#1) && !(k0_cond2 i == 1#1) | 5 => fun _ => false | 6 => fun _ => false | ⟨_ + 7, h⟩ => absurd h (Nat.not_lt.2 (Nat.le_add_left _ _))

class Facts : Prop extends Facts₀ where

variable [Facts]
-- ==== ReferenceIdeal.lean ====
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 69
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x1, .f32⟩
  | .hbm, ⟨14, _⟩ => ⟨S1x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .i1⟩
  | .hbm, ⟨36, _⟩ => ⟨S8192x8192, .i1⟩
  | .hbm, ⟨37, _⟩ => ⟨S8192x8192, .i32⟩
  | .hbm, ⟨38, _⟩ => ⟨S_, .i32⟩
  | .hbm, ⟨39, _⟩ => ⟨S8192x8192, .i32⟩
  | .hbm, ⟨40, _⟩ => ⟨S8192x8192, .i32⟩
  | .hbm, ⟨41, _⟩ => ⟨S8192x8192, .i32⟩
  | .hbm, ⟨42, _⟩ => ⟨S8192x8192, .i1⟩
  | .hbm, ⟨43, _⟩ => ⟨S_, .i1⟩
  | .hbm, ⟨44, _⟩ => ⟨S8192x8192, .i1⟩
  | .hbm, ⟨45, _⟩ => ⟨S8192x8192, .i1⟩
  | .hbm, ⟨46, _⟩ => ⟨S_, .f32⟩
  | .hbm, ⟨47, _⟩ => ⟨S8192x8192, .f32⟩
  | .hbm, ⟨48, _⟩ => ⟨S8192x8192, .i1⟩
  | .hbm, ⟨49, _⟩ => ⟨S8192x8192, .i1⟩
  | .hbm, ⟨50, _⟩ => ⟨S8192x8192, .i32⟩
  | .hbm, ⟨51, _⟩ => ⟨S_, .i32⟩
  | .hbm, ⟨52, _⟩ => ⟨S_, .i32⟩
  | .hbm, ⟨53, _⟩ => ⟨S_, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S_, .f32⟩
  | .hbm, ⟨59, _⟩ => ⟨S_, .i32⟩
  | .hbm, ⟨60, _⟩ => ⟨S_, .i32⟩
  | .hbm, ⟨61, _⟩ => ⟨S_, .f32⟩
  | .hbm, ⟨62, _⟩ => ⟨S_, .f32⟩
  | .hbm, ⟨63, _⟩ => ⟨S_, .i32⟩
  | .hbm, ⟨64, _⟩ => ⟨S_, .i1⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_0 : Ref sig .tc := ⟨.hbm, 43, rfl⟩
abbrev main_call1_v5 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_7 : Ref sig .tc := ⟨.hbm, 51, rfl⟩
abbrev main_v30 : Ref sig .tc := ⟨.hbm, 52, rfl⟩
abbrev main_cst_8 : Ref sig .tc := ⟨.hbm, 53, rfl⟩
abbrev main_call2_v0 : Ref sig .tc := ⟨.hbm, 54, rfl⟩
abbrev main_call2_v1 : Ref sig .tc := ⟨.hbm, 55, rfl⟩
abbrev main_v31 : Ref sig .tc := ⟨.hbm, 56, rfl⟩
abbrev main_cst_9 : Ref sig .tc := ⟨.hbm, 57, rfl⟩
abbrev main_v32 : Ref sig .tc := ⟨.hbm, 58, rfl⟩
abbrev main_c_10 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_11 : Ref sig .tc := ⟨.hbm, 63, rfl⟩
abbrev main_v36 : Ref sig .tc := ⟨.hbm, 64, rfl⟩
abbrev main_cst_12 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩

abbrev nD : Nat := 1
abbrev τ : Topo := Topo.v7x

variable {F : FTy → Type} [FloatOps F]

class Facts₀ : Prop where
  reducesTo_S8192_S_d0 : S8192.ReducesTo [0] S_
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  natLt_1_32 : 1 < 32
  reducesTo_S8192x8192_S_d0_1 : S8192x8192.ReducesTo [0, 1] S_

variable [Facts₀]

class Facts : Prop extends Facts₀ where

variable [Facts]
-- ==== Proof.KRunsB.lean ====
/-
  The kernel body of the pairwise ranking loss run symbolically, in each of its three control cases, on whole staging
  memrefs: at a grid point the body loads a block of 512 predictions and targets as a column and another as a row, forms
  the 512 × 512 tile of pairwise differences, masks and sums it into two one-element accumulators (hinges, valid pairs),
  and — in the first block column only — adds the block's squared errors into a third; at the very first point all three
  are reset first. What each case leaves in the accumulators' memrefs is recorded as the list of pieces its stores wrote.
  Stated for any float instance.
-/
import proofs.«164654_j7060926235084_1_alg».proof.Proof.Gen.Kernel.Launch
import proofs.«164654_j7060926235084_1_alg».proof.Proof.Gen.Kernel.Skeleton
import proofs.«164654_j7060926235084_1_alg».proof.Proof.Gen.Kernel.Points
import proofs.«164654_j7060926235084_1_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the body's two conditionals hold

The grid is 16 × 16, walked row-major: point `t` is block row `t / 16`, block column `t % 16`. The first conditional
(reset the three accumulators) holds at the first point only; the second (add this block row's squared errors) at the
first column of every block row. -/

theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val % 16 = 0 :=
  (by decide +kernel : ∀ t : Fin grid0.N, k0_cond2 (grid0.coords t) = 1#1 ↔ t.val % 16 = 0)

/-- The squared-error accumulator's buffer is untouched exactly where neither conditional holds; the other two outputs
    are stored at every point. -/
theorem idle4 : ∀ t : Fin cfg0.N, ¬t.val % 16 = 0 → cfg0.idle 4 (grid0.coords t) = true :=
  (by decide +kernel : ∀ t : Fin grid0.N, ¬t.val % 16 = 0 → idle0 4 (grid0.coords t) = true)
theorem live4 : ∀ t : Fin cfg0.N, t.val % 16 = 0 → cfg0.idle 4 (grid0.coords t) = false :=
  (by decide +kernel : ∀ t : Fin grid0.N, t.val % 16 = 0 → idle0 4 (grid0.coords t) = false)
theorem live0 : ∀ i, cfg0.idle 0 i = false := fun _ => rfl
theorem live1 : ∀ i, cfg0.idle 1 i = false := fun _ => rfl
theorem live2 : ∀ i, cfg0.idle 2 i = false := fun _ => rfl
theorem live3 : ∀ i, cfg0.idle 3 i = false := fun _ => rfl
theorem live5 : ∀ i, cfg0.idle 5 i = false := fun _ => rfl
theorem live6 : ∀ i, cfg0.idle 6 i = false := fun _ => rfl

/-- One staging buffer of each output window, through which its contents are stated (the choice does not matter). -/
abbrev VO4 : View sig .tc .vmem S1x1 .f32 := (Memref.whole cc0_stg4_0 : Memref sig .tc .vmem S1x1 .f32).view
abbrev VO5 : View sig .tc .vmem S1x1 .f32 := (Memref.whole cc0_stg5_0 : Memref sig .tc .vmem S1x1 .f32).view
abbrev VO6 : View sig .tc .vmem S1x1 .f32 := (Memref.whole cc0_stg6_0 : Memref sig .tc .vmem S1x1 .f32).view

/-- Each window's current staging memref at point `t`, as the pipeline passes it, and its wholeness. -/
abbrev ms0 (t : Fin cfg0.N) : Memref sig .tc .vmem S512x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)

/-! ## The body, case by case

Each case: the body run on whole staging memrefs, the four inputs at given contents, and what its stores leave in
each output's memref as a list of written pieces (the last store first), found by the run itself. -/

set_option maxHeartbeats 4000000 in
/-- The first point (both conditionals hold): the three accumulators are reset, then all three are added to. The outputs'
    memrefs may hold anything beforehand. -/
noncomputable def kernelRun_A (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : k0_cond1 i = 1#1) (hc2 : k0_cond2 i = 1#1)
    (x0 x1 : Vec F S512x1 .f32) (x2 x3 : Vec F S1x512 .f32) :
    Σ' (L4 : List (View.Piece (Elt F) S1x1 .f32)) (L5 : List (View.Piece (Elt F) S1x1 .f32)), { L6 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__pairwise_kernel i arg2 harg2 arg3 harg3 arg4 harg4 arg5 harg5 arg6 harg6 arg7 harg7 arg8 harg8) K } := by
  refine ⟨?_, ?_, ?_, fun E K => ?run⟩
  case run =>
    simp only [cc0__pairwise_kernel_eq_skeleton]; unfold cc0__pairwise_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

set_option maxHeartbeats 4000000 in
/-- A point off the first block column (neither conditional holds): the hinge and count accumulators, found at `xo5`,
    `xo6`, are added to; the squared-error accumulator's memref is not touched (it is not among the resources). -/
noncomputable def kernelRun_B (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : ¬k0_cond2 i = 1#1)
    (x0 x1 : Vec F S512x1 .f32) (x2 x3 : Vec F S1x512 .f32) (xo5 xo6 : Vec F S1x1 .f32) :
    Σ' (L5 : List (View.Piece (Elt F) S1x1 .f32)), { L6 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__pairwise_kernel i arg2 harg2 arg3 harg3 arg4 harg4 arg5 harg5 arg6 harg6 arg7 harg7 arg8 harg8) K } := by
  refine ⟨?_, ?_, fun E K => ?run⟩
  case run =>
    simp only [cc0__pairwise_kernel_eq_skeleton]; unfold cc0__pairwise_kernel_skel
    unfold owns
    iintro ⟨⟨%f0, %hf0, H0⟩, ⟨%f1, %hf1, H1⟩, ⟨%f2, %hf2, H2⟩, ⟨%f3, %hf3, H3⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hf6
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H5]; · iexists _; iexact H5
    iexists _; iexact H6

set_option maxHeartbeats 4000000 in
/-- The first block column of a later block row (only the second conditional holds): all three accumulators, found at
    `xo4`, `xo5`, `xo6`, are added to. -/
noncomputable def kernelRun_C (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : k0_cond2 i = 1#1)
    (x0 x1 : Vec F S512x1 .f32) (x2 x3 : Vec F S1x512 .f32) (xo4 xo5 xo6 : Vec F S1x1 .f32) :
    Σ' (L4 : List (View.Piece (Elt F) S1x1 .f32)) (L5 : List (View.Piece (Elt F) S1x1 .f32)), { L6 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__pairwise_kernel i arg2 harg2 arg3 harg3 arg4 harg4 arg5 harg5 arg6 harg6 arg7 harg7 arg8 harg8) K } := by
  refine ⟨?_, ?_, ?_, fun E K => ?run⟩
  case run =>
    simp only [cc0__pairwise_kernel_eq_skeleton]; unfold cc0__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

end Cert.Kernel.Hand

end
-- ==== Proof.KBodyB.lean ====
/-
  The launch side of the pairwise ranking loss kernel, written over the generated launch modules: what the three one-element
  accumulators hold after every grid point (by recursion on the point, through the body's three control cases), the proof
  data of the pipeline, that every window's staging buffer holds at each point what the proof data says — the inputs their
  blocks, the hinge and count accumulators what the point before left, the squared-error accumulator its running value
  through the points that do not touch it —, the body obligation, the run of @main with the host lines after the region,
  and the frame. Stated for any float instance.
-/
import proofs.«164654_j7060926235084_1_alg».proof.Proof.KRunsB
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each accumulator

Every store of the body writes a whole one-element block, so the pieces of a case cover the block and their read-back is
a function of the case's inputs alone. -/

theorem coverA4 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : k0_cond1 i = 1#1) (hc2 : k0_cond2 i = 1#1) (x0 x1 : Vec F S512x1 .f32) (x2 x3 : Vec F S1x512 .f32) (y : S1x1.Idx) :
    ∃ pc ∈ (kernelRun_A c i arg2 harg2 arg3 harg3 arg4 harg4 arg5 harg5 arg6 harg6 arg7 harg7 arg8 harg8 hc1 hc2 x0 x1 x2 x3).1, y ∈ pc.1.set :=
  View.cover_of_tiledL (kernelRun_A c i arg2 harg2 arg3 harg3 arg4 harg4 arg5 harg5 arg6 harg6 arg7 harg7 arg8 harg8 hc1 hc2 x0 x1 x2 x3).1 S1x1.size (by sl_kernel_rfl) y
/-- What case A leaves in accumulator 4's staging buffer: its pieces read back. -/
def outA4 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : k0_cond1 i = 1#1) (hc2 : k0_cond2 i = 1#1) (x0 x1 : Vec F S512x1 .f32) (x2 x3 : Vec F S1x512 .f32) : Vec F S1x1 .f32 :=
  VO4.read (Elt F) (VO4.writes (Elt F) VO4.junk (kernelRun_A c i arg2 harg2 arg3 harg3 arg4 harg4 arg5 harg5 arg6 harg6 arg7 harg7 arg8 harg8 hc1 hc2 x0 x1 x2 x3).1)

theorem coverA5 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : k0_cond1 i = 1#1) (hc2 : k0_cond2 i = 1#1) (x0 x1 : Vec F S512x1 .f32) (x2 x3 : Vec F S1x512 .f32) (y : S1x1.Idx) :
    ∃ pc ∈ (kernelRun_A c i arg2 harg2 arg3 harg3 arg4 harg4 arg5 harg5 arg6 harg6 arg7 harg7 arg8 harg8 hc1 hc2 x0 x1 x2 x3).2.1, y ∈ pc.1.set :=
  View.cover_of_tiledL (kernelRun_A c i arg2 harg2 arg3 harg3 arg4 harg4 arg5 harg5 arg6 harg6 arg7 harg7 arg8 harg8 hc1 hc2 x0 x1 x2 x3).2.1 S1x1.size (by sl_kernel_rfl) y
/-- What case A leaves in accumulator 5's staging buffer: its pieces read back. -/
def outA5 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : k0_cond1 i = 1#1) (hc2 : k0_cond2 i = 1#1) (x0 x1 : Vec F S512x1 .f32) (x2 x3 : Vec F S1x512 .f32) : Vec F S1x1 .f32 :=
  VO5.read (Elt F) (VO5.writes (Elt F) VO5.junk (kernelRun_A c i arg2 harg2 arg3 harg3 arg4 harg4 arg5 harg5 arg6 harg6 arg7 harg7 arg8 harg8 hc1 hc2 x0 x1 x2 x3).2.1)

theorem coverA6 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : k0_cond1 i = 1#1) (hc2 : k0_cond2 i = 1#1) (x0 x1 : Vec F S512x1 .f32) (x2 x3 : Vec F S1x512 .f32) (y : S1x1.Idx) :
    ∃ pc ∈ (kernelRun_A c i arg2 harg2 arg3 harg3 arg4 harg4 arg5 harg5 arg6 harg6 arg7 harg7 arg8 harg8 hc1 hc2 x0 x1 x2 x3).2.2.1, y ∈ pc.1.set :=
  View.cover_of_tiledL (kernelRun_A c i arg2 harg2 arg3 harg3 arg4 harg4 arg5 harg5 arg6 harg6 arg7 harg7 arg8 harg8 hc1 hc2 x0 x1 x2 x3).2.2.1 S1x1.size (by sl_kernel_rfl) y
/-- What case A leaves in accumulator 6's staging buffer: its pieces read back. -/
def outA6 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : k0_cond1 i = 1#1) (hc2 : k0_cond2 i = 1#1) (x0 x1 : Vec F S512x1 .f32) (x2 x3 : Vec F S1x512 .f32) : Vec F S1x1 .f32 :=
  VO6.read (Elt F) (VO6.writes (Elt F) VO6.junk (kernelRun_A c i arg2 harg2 arg3 harg3 arg4 harg4 arg5 harg5 arg6 harg6 arg7 harg7 arg8 harg8 hc1 hc2 x0 x1 x2 x3).2.2.1)

theorem coverB5 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : ¬k0_cond2 i = 1#1) (x0 x1 : Vec F S512x1 .f32) (x2 x3 : Vec F S1x512 .f32) (xo5 xo6 : Vec F S1x1 .f32) (y : S1x1.Idx) :
    ∃ pc ∈ (kernelRun_B c i arg2 harg2 arg3 harg3 arg4 harg4 arg5 harg5 arg6 harg6 arg7 harg7 arg8 harg8 hc1 hc2 x0 x1 x2 x3 xo5 xo6).1, y ∈ pc.1.set :=
  View.cover_of_tiledL (kernelRun_B c i arg2 harg2 arg3 harg3 arg4 harg4 arg5 harg5 arg6 harg6 arg7 harg7 arg8 harg8 hc1 hc2 x0 x1 x2 x3 xo5 xo6).1 S1x1.size (by sl_kernel_rfl) y
/-- What case B leaves in accumulator 5's staging buffer: its pieces read back. -/
def outB5 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : ¬k0_cond2 i = 1#1) (x0 x1 : Vec F S512x1 .f32) (x2 x3 : Vec F S1x512 .f32) (xo5 xo6 : Vec F S1x1 .f32) : Vec F S1x1 .f32 :=
  VO5.read (Elt F) (VO5.writes (Elt F) VO5.junk (kernelRun_B c i arg2 harg2 arg3 harg3 arg4 harg4 arg5 harg5 arg6 harg6 arg7 harg7 arg8 harg8 hc1 hc2 x0 x1 x2 x3 xo5 xo6).1)

theorem coverB6 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : ¬k0_cond2 i = 1#1) (x0 x1 : Vec F S512x1 .f32) (x2 x3 : Vec F S1x512 .f32) (xo5 xo6 : Vec F S1x1 .f32) (y : S1x1.Idx) :
    ∃ pc ∈ (kernelRun_B c i arg2 harg2 arg3 harg3 arg4 harg4 arg5 harg5 arg6 harg6 arg7 harg7 arg8 harg8 hc1 hc2 x0 x1 x2 x3 xo5 xo6).2.1, y ∈ pc.1.set :=
  View.cover_of_tiledL (kernelRun_B c i arg2 harg2 arg3 harg3 arg4 harg4 arg5 harg5 arg6 harg6 arg7 harg7 arg8 harg8 hc1 hc2 x0 x1 x2 x3 xo5 xo6).2.1 S1x1.size (by sl_kernel_rfl) y
/-- What case B leaves in accumulator 6's staging buffer: its pieces read back. -/
def outB6 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : ¬k0_cond2 i = 1#1) (x0 x1 : Vec F S512x1 .f32) (x2 x3 : Vec F S1x512 .f32) (xo5 xo6 : Vec F S1x1 .f32) : Vec F S1x1 .f32 :=
  VO6.read (Elt F) (VO6.writes (Elt F) VO6.junk (kernelRun_B c i arg2 harg2 arg3 harg3 arg4 harg4 arg5 harg5 arg6 harg6 arg7 harg7 arg8 harg8 hc1 hc2 x0 x1 x2 x3 xo5 xo6).2.1)

theorem coverC4 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : k0_cond2 i = 1#1) (x0 x1 : Vec F S512x1 .f32) (x2 x3 : Vec F S1x512 .f32) (xo4 xo5 xo6 : Vec F S1x1 .f32) (y : S1x1.Idx) :
    ∃ pc ∈ (kernelRun_C c i arg2 harg2 arg3 harg3 arg4 harg4 arg5 harg5 arg6 harg6 arg7 harg7 arg8 harg8 hc1 hc2 x0 x1 x2 x3 xo4 xo5 xo6).1, y ∈ pc.1.set :=
  View.cover_of_tiledL (kernelRun_C c i arg2 harg2 arg3 harg3 arg4 harg4 arg5 harg5 arg6 harg6 arg7 harg7 arg8 harg8 hc1 hc2 x0 x1 x2 x3 xo4 xo5 xo6).1 S1x1.size (by sl_kernel_rfl) y
/-- What case C leaves in accumulator 4's staging buffer: its pieces read back. -/
def outC4 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : k0_cond2 i = 1#1) (x0 x1 : Vec F S512x1 .f32) (x2 x3 : Vec F S1x512 .f32) (xo4 xo5 xo6 : Vec F S1x1 .f32) : Vec F S1x1 .f32 :=
  VO4.read (Elt F) (VO4.writes (Elt F) VO4.junk (kernelRun_C c i arg2 harg2 arg3 harg3 arg4 harg4 arg5 harg5 arg6 harg6 arg7 harg7 arg8 harg8 hc1 hc2 x0 x1 x2 x3 xo4 xo5 xo6).1)

theorem coverC5 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : k0_cond2 i = 1#1) (x0 x1 : Vec F S512x1 .f32) (x2 x3 : Vec F S1x512 .f32) (xo4 xo5 xo6 : Vec F S1x1 .f32) (y : S1x1.Idx) :
    ∃ pc ∈ (kernelRun_C c i arg2 harg2 arg3 harg3 arg4 harg4 arg5 harg5 arg6 harg6 arg7 harg7 arg8 harg8 hc1 hc2 x0 x1 x2 x3 xo4 xo5 xo6).2.1, y ∈ pc.1.set :=
  View.cover_of_tiledL (kernelRun_C c i arg2 harg2 arg3 harg3 arg4 harg4 arg5 harg5 arg6 harg6 arg7 harg7 arg8 harg8 hc1 hc2 x0 x1 x2 x3 xo4 xo5 xo6).2.1 S1x1.size (by sl_kernel_rfl) y
/-- What case C leaves in accumulator 5's staging buffer: its pieces read back. -/
def outC5 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : k0_cond2 i = 1#1) (x0 x1 : Vec F S512x1 .f32) (x2 x3 : Vec F S1x512 .f32) (xo4 xo5 xo6 : Vec F S1x1 .f32) : Vec F S1x1 .f32 :=
  VO5.read (Elt F) (VO5.writes (Elt F) VO5.junk (kernelRun_C c i arg2 harg2 arg3 harg3 arg4 harg4 arg5 harg5 arg6 harg6 arg7 harg7 arg8 harg8 hc1 hc2 x0 x1 x2 x3 xo4 xo5 xo6).2.1)

theorem coverC6 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : k0_cond2 i = 1#1) (x0 x1 : Vec F S512x1 .f32) (x2 x3 : Vec F S1x512 .f32) (xo4 xo5 xo6 : Vec F S1x1 .f32) (y : S1x1.Idx) :
    ∃ pc ∈ (kernelRun_C c i arg2 harg2 arg3 harg3 arg4 harg4 arg5 harg5 arg6 harg6 arg7 harg7 arg8 harg8 hc1 hc2 x0 x1 x2 x3 xo4 xo5 xo6).2.2.1, y ∈ pc.1.set :=
  View.cover_of_tiledL (kernelRun_C c i arg2 harg2 arg3 harg3 arg4 harg4 arg5 harg5 arg6 harg6 arg7 harg7 arg8 harg8 hc1 hc2 x0 x1 x2 x3 xo4 xo5 xo6).2.2.1 S1x1.size (by sl_kernel_rfl) y
/-- What case C leaves in accumulator 6's staging buffer: its pieces read back. -/
def outC6 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : k0_cond2 i = 1#1) (x0 x1 : Vec F S512x1 .f32) (x2 x3 : Vec F S1x512 .f32) (xo4 xo5 xo6 : Vec F S1x1 .f32) : Vec F S1x1 .f32 :=
  VO6.read (Elt F) (VO6.writes (Elt F) VO6.junk (kernelRun_C c i arg2 harg2 arg3 harg3 arg4 harg4 arg5 harg5 arg6 harg6 arg7 harg7 arg8 harg8 hc1 hc2 x0 x1 x2 x3 xo4 xo5 xo6).2.2.1)

/-- The same at point `t`, on the memrefs and blocks the pipeline calls the body with there. -/
abbrev atA4 (c : Dev nD) (t : Fin cfg0.N) (h1 : t.val = 0) (h2 : t.val % 16 = 0) : Vec F S1x1 .f32 :=
  outA4 c (grid0.coords t) (ms0 t) (hs0 t) (ms1 t) (hs1 t) (ms2 t) (hs2 t) (ms3 t) (hs3 t) (ms4 t) (hs4 t) (ms5 t) (hs5 t) (ms6 t) (hs6 t) ((hcond1 t).mpr h1) ((hcond2 t).mpr h2) (iblk m c 0 t) (iblk m c 1 t) (iblk m c 2 t) (iblk m c 3 t)
abbrev atA5 (c : Dev nD) (t : Fin cfg0.N) (h1 : t.val = 0) (h2 : t.val % 16 = 0) : Vec F S1x1 .f32 :=
  outA5 c (grid0.coords t) (ms0 t) (hs0 t) (ms1 t) (hs1 t) (ms2 t) (hs2 t) (ms3 t) (hs3 t) (ms4 t) (hs4 t) (ms5 t) (hs5 t) (ms6 t) (hs6 t) ((hcond1 t).mpr h1) ((hcond2 t).mpr h2) (iblk m c 0 t) (iblk m c 1 t) (iblk m c 2 t) (iblk m c 3 t)
abbrev atA6 (c : Dev nD) (t : Fin cfg0.N) (h1 : t.val = 0) (h2 : t.val % 16 = 0) : Vec F S1x1 .f32 :=
  outA6 c (grid0.coords t) (ms0 t) (hs0 t) (ms1 t) (hs1 t) (ms2 t) (hs2 t) (ms3 t) (hs3 t) (ms4 t) (hs4 t) (ms5 t) (hs5 t) (ms6 t) (hs6 t) ((hcond1 t).mpr h1) ((hcond2 t).mpr h2) (iblk m c 0 t) (iblk m c 1 t) (iblk m c 2 t) (iblk m c 3 t)
abbrev atB5 (c : Dev nD) (t : Fin cfg0.N) (h1 : t.val ≠ 0) (h2 : ¬t.val % 16 = 0) (xo5 xo6 : Vec F S1x1 .f32) : Vec F S1x1 .f32 :=
  outB5 c (grid0.coords t) (ms0 t) (hs0 t) (ms1 t) (hs1 t) (ms2 t) (hs2 t) (ms3 t) (hs3 t) (ms4 t) (hs4 t) (ms5 t) (hs5 t) (ms6 t) (hs6 t) (fun h => h1 ((hcond1 t).mp h)) (fun h => h2 ((hcond2 t).mp h)) (iblk m c 0 t) (iblk m c 1 t) (iblk m c 2 t) (iblk m c 3 t) xo5 xo6
abbrev atB6 (c : Dev nD) (t : Fin cfg0.N) (h1 : t.val ≠ 0) (h2 : ¬t.val % 16 = 0) (xo5 xo6 : Vec F S1x1 .f32) : Vec F S1x1 .f32 :=
  outB6 c (grid0.coords t) (ms0 t) (hs0 t) (ms1 t) (hs1 t) (ms2 t) (hs2 t) (ms3 t) (hs3 t) (ms4 t) (hs4 t) (ms5 t) (hs5 t) (ms6 t) (hs6 t) (fun h => h1 ((hcond1 t).mp h)) (fun h => h2 ((hcond2 t).mp h)) (iblk m c 0 t) (iblk m c 1 t) (iblk m c 2 t) (iblk m c 3 t) xo5 xo6
abbrev atC4 (c : Dev nD) (t : Fin cfg0.N) (h1 : t.val ≠ 0) (h2 : t.val % 16 = 0) (xo4 xo5 xo6 : Vec F S1x1 .f32) : Vec F S1x1 .f32 :=
  outC4 c (grid0.coords t) (ms0 t) (hs0 t) (ms1 t) (hs1 t) (ms2 t) (hs2 t) (ms3 t) (hs3 t) (ms4 t) (hs4 t) (ms5 t) (hs5 t) (ms6 t) (hs6 t) (fun h => h1 ((hcond1 t).mp h)) ((hcond2 t).mpr h2) (iblk m c 0 t) (iblk m c 1 t) (iblk m c 2 t) (iblk m c 3 t) xo4 xo5 xo6
abbrev atC5 (c : Dev nD) (t : Fin cfg0.N) (h1 : t.val ≠ 0) (h2 : t.val % 16 = 0) (xo4 xo5 xo6 : Vec F S1x1 .f32) : Vec F S1x1 .f32 :=
  outC5 c (grid0.coords t) (ms0 t) (hs0 t) (ms1 t) (hs1 t) (ms2 t) (hs2 t) (ms3 t) (hs3 t) (ms4 t) (hs4 t) (ms5 t) (hs5 t) (ms6 t) (hs6 t) (fun h => h1 ((hcond1 t).mp h)) ((hcond2 t).mpr h2) (iblk m c 0 t) (iblk m c 1 t) (iblk m c 2 t) (iblk m c 3 t) xo4 xo5 xo6
abbrev atC6 (c : Dev nD) (t : Fin cfg0.N) (h1 : t.val ≠ 0) (h2 : t.val % 16 = 0) (xo4 xo5 xo6 : Vec F S1x1 .f32) : Vec F S1x1 .f32 :=
  outC6 c (grid0.coords t) (ms0 t) (hs0 t) (ms1 t) (hs1 t) (ms2 t) (hs2 t) (ms3 t) (hs3 t) (ms4 t) (hs4 t) (ms5 t) (hs5 t) (ms6 t) (hs6 t) (fun h => h1 ((hcond1 t).mp h)) ((hcond2 t).mpr h2) (iblk m c 0 t) (iblk m c 1 t) (iblk m c 2 t) (iblk m c 3 t) xo4 xo5 xo6

/-! ## The accumulation -/

/-- What the three accumulators (squared errors, hinges, valid pairs) hold after the body at position `n`: the first point
    resets and adds; a later point in the first block column adds to all three of what the point before left; any other
    point adds to the last two and leaves the first as it was. -/
def outsAt (c : Dev nD) : (n : ℕ) → n < cfg0.N → Vec F S1x1 .f32 × Vec F S1x1 .f32 × Vec F S1x1 .f32
  | 0, hn => (atA4 m c ⟨0, hn⟩ rfl (Nat.zero_mod _), atA5 m c ⟨0, hn⟩ rfl (Nat.zero_mod _), atA6 m c ⟨0, hn⟩ rfl (Nat.zero_mod _))
  | n + 1, hn =>
    if h : (n + 1) % 16 = 0 then
      (atC4 m c ⟨n + 1, hn⟩ (Nat.succ_ne_zero n) h (outsAt c n (Nat.lt_of_succ_lt hn)).1 (outsAt c n (Nat.lt_of_succ_lt hn)).2.1 (outsAt c n (Nat.lt_of_succ_lt hn)).2.2,
       atC5 m c ⟨n + 1, hn⟩ (Nat.succ_ne_zero n) h (outsAt c n (Nat.lt_of_succ_lt hn)).1 (outsAt c n (Nat.lt_of_succ_lt hn)).2.1 (outsAt c n (Nat.lt_of_succ_lt hn)).2.2,
       atC6 m c ⟨n + 1, hn⟩ (Nat.succ_ne_zero n) h (outsAt c n (Nat.lt_of_succ_lt hn)).1 (outsAt c n (Nat.lt_of_succ_lt hn)).2.1 (outsAt c n (Nat.lt_of_succ_lt hn)).2.2)
    else
      ((outsAt c n (Nat.lt_of_succ_lt hn)).1,
       atB5 m c ⟨n + 1, hn⟩ (Nat.succ_ne_zero n) h (outsAt c n (Nat.lt_of_succ_lt hn)).2.1 (outsAt c n (Nat.lt_of_succ_lt hn)).2.2,
       atB6 m c ⟨n + 1, hn⟩ (Nat.succ_ne_zero n) h (outsAt c n (Nat.lt_of_succ_lt hn)).2.1 (outsAt c n (Nat.lt_of_succ_lt hn)).2.2)

/-- What the point before `t` left. -/
abbrev prevAt (c : Dev nD) (t : Fin cfg0.N) : Vec F S1x1 .f32 × Vec F S1x1 .f32 × Vec F S1x1 .f32 :=
  outsAt m c (t.val - 1) (Nat.lt_of_le_of_lt (Nat.sub_le _ _) t.isLt)

theorem outsAt_A (c : Dev nD) (t : Fin cfg0.N) (h1 : t.val = 0) (h2 : t.val % 16 = 0) :
    outsAt m c t.val t.isLt = (atA4 m c t h1 h2, atA5 m c t h1 h2, atA6 m c t h1 h2) := by
  obtain ⟨n, hn⟩ := t
  cases n with
  | zero => rfl
  | succ n => exact absurd h1 (Nat.succ_ne_zero n)

theorem outsAt_B (c : Dev nD) (t : Fin cfg0.N) (h1 : t.val ≠ 0) (h2 : ¬t.val % 16 = 0) :
    outsAt m c t.val t.isLt = ((prevAt m c t).1, atB5 m c t h1 h2 (prevAt m c t).2.1 (prevAt m c t).2.2, atB6 m c t h1 h2 (prevAt m c t).2.1 (prevAt m c t).2.2) := by
  obtain ⟨n, hn⟩ := t
  cases n with
  | zero => exact absurd rfl h1
  | succ n => exact (dif_neg h2).trans rfl

theorem outsAt_C (c : Dev nD) (t : Fin cfg0.N) (h1 : t.val ≠ 0) (h2 : t.val % 16 = 0) :
    outsAt m c t.val t.isLt = (atC4 m c t h1 h2 (prevAt m c t).1 (prevAt m c t).2.1 (prevAt m c t).2.2, atC5 m c t h1 h2 (prevAt m c t).1 (prevAt m c t).2.1 (prevAt m c t).2.2, atC6 m c t h1 h2 (prevAt m c t).1 (prevAt m c t).2.1 (prevAt m c t).2.2) := by
  obtain ⟨n, hn⟩ := t
  cases n with
  | zero => exact absurd rfl h1
  | succ n => exact (dif_pos h2).trans rfl

/-! ## The pipeline's proof data -/

/-- The arrays as the region finds them; after the body at point `t` each input's buffer at its block and the three
    accumulators' at `outsAt`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
    | ⟨6, _⟩ => (outsAt m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]
theorem after5 (c : Dev nD) (t : Fin cfg0.N) : (dats m 0 c).after 5 t = (outsAt m c t.val t.isLt).2.1 := by dsimp only [dats]
theorem after6 (c : Dev nD) (t : Fin cfg0.N) : (dats m 0 c).after 6 t = (outsAt m c t.val t.isLt).2.2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- After the first point the hinge accumulator's buffer holds what the point before left: it is stored at every point and
    written back only after the last. -/
theorem before5 (c : Dev nD) (t : Fin cfg0.N) (hz : t.val ≠ 0) (d) : (dats m 0 c).before 5 t d = (prevAt m c t).2.1 := by
  have hN : t.val < 256 := lt_of_lt_of_eq t.isLt (show cfg0.N = 256 from N_0)
  rw [Dat.before_out_kept _ 5 rfl t hz (Bool.eq_false_iff.mpr fun h => by have := (flush0_5 _).mp h; dsimp only at this; omega)
    live5 (fun _ _ => rfl)]
  dsimp only [dats]
/-- The same for the count accumulator. -/
theorem before6 (c : Dev nD) (t : Fin cfg0.N) (hz : t.val ≠ 0) (d) : (dats m 0 c).before 6 t d = (prevAt m c t).2.2 := by
  have hN : t.val < 256 := lt_of_lt_of_eq t.isLt (show cfg0.N = 256 from N_0)
  rw [Dat.before_out_kept _ 6 rfl t hz (Bool.eq_false_iff.mpr fun h => by have := (flush0_6 _).mp h; dsimp only at this; omega)
    live6 (fun _ _ => rfl)]
  dsimp only [dats]

/-- The squared-error accumulator's window is uncut: what a live point leaves is what the next finds. -/
theorem kept4 (c : Dev nD) (t : Fin cfg0.N) (d) : (dats m 0 c).kept 4 t d = (dats m 0 c).after 4 t := by
  unfold Dat.kept
  rw [Pipeline.fill_of_clip_none (cfg := cfg0) 4 _ (fun _ => rfl) d ((dats m 0 c).after 4 t), Window.fill_cut]

/-- One step back for the squared-error accumulator's buffer: after a point that stored into it, what that point left; -/
theorem before4_live (c : Dev nD) (t t' : Fin cfg0.N) (ht : t'.val + 1 = t.val) (hi : cfg0.idle 4 (cfg0.grid.coords t') = false) (d) :
    (dats m 0 c).before 4 t d = (dats m 0 c).after 4 t' := by
  have hN : t.val < 256 := lt_of_lt_of_eq t.isLt (show cfg0.N = 256 from N_0)
  obtain rfl : t' = ⟨t.val - 1, Nat.lt_of_le_of_lt (Nat.sub_le _ _) t.isLt⟩ := Fin.ext (by dsimp only; omega)
  dsimp only at ht
  rw [Dat.before_of_pos _ 4 t (by omega) ((cfg0.win 4).fetch_out rfl t),
    if_neg (fun h => by have := (flush0_4 _).mp h; dsimp only at this; omega)]
  unfold Dat.left; rw [hi]
  exact kept4 m c _ d
/-- after a point that did not, what that point found. -/
theorem before4_idle (c : Dev nD) (t t' : Fin cfg0.N) (ht : t'.val + 1 = t.val) (hi : cfg0.idle 4 (cfg0.grid.coords t') = true) (d) :
    (dats m 0 c).before 4 t d = (dats m 0 c).before 4 t' d := by
  have hN : t.val < 256 := lt_of_lt_of_eq t.isLt (show cfg0.N = 256 from N_0)
  obtain rfl : t' = ⟨t.val - 1, Nat.lt_of_le_of_lt (Nat.sub_le _ _) t.isLt⟩ := Fin.ext (by dsimp only; omega)
  dsimp only at ht
  rw [Dat.before_of_pos _ 4 t (by omega) ((cfg0.win 4).fetch_out rfl t),
    if_neg (fun h => by have := (flush0_4 _).mp h; dsimp only at this; omega)]
  unfold Dat.left; rw [hi]

/-- So after the first point it holds the running value the point before left, through the points that do not touch it. -/
theorem before4 (c : Dev nD) (t : Fin cfg0.N) (hz : t.val ≠ 0) (d) : (dats m 0 c).before 4 t d = (prevAt m c t).1 := by
  obtain ⟨k, hk⟩ := t
  induction k with
  | zero => exact absurd rfl hz
  | succ n ih =>
    have hn : n < cfg0.N := Nat.lt_of_succ_lt hk
    by_cases h : n % 16 = 0
    · rw [before4_live m c ⟨n + 1, hk⟩ ⟨n, hn⟩ rfl (live4 ⟨n, hn⟩ h) d, after4]; rfl
    · have hn0 : n ≠ 0 := fun e => h (by rw [e])
      rw [before4_idle m c ⟨n + 1, hk⟩ ⟨n, hn⟩ rfl (idle4 ⟨n, hn⟩ h) d, ih hn hn0]
      exact (congrArg Prod.fst (outsAt_B m c ⟨n, hn⟩ hn0 h)).symm

end Cert.Kernel.Hand

end
-- ==== Proof.KFrameB.lean ====
/-
  The body obligation of the pairwise ranking loss kernel's pipeline — at every grid point the body, handed each window's
  staging buffer at what the proof data says it holds, leaves each at what the proof data says it leaves: by the control
  case the point is in —, the run of @main with the host lines after the region, and the frame (the argument arrays end as
  launched). The squared-error accumulator's window is the delicate one: at most points the body does not touch its buffer,
  which is handed back as found, and the last point writes the block back although the body stores nothing there — what it
  writes is the running value the last storing point left. Stated for any float instance.
-/
import proofs.«164654_j7060926235084_1_alg».proof.Proof.KBodyB
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body obligation asks of each window's buffer after the body -/

theorem le0 (c : Dev nD) (t : Fin cfg0.N) : (dats m 0 c).leavesExact 0 t = owns (c : Thread nD τ) (ms0 t) fullShare (iblk m c 0 t) := by
  unfold Dat.leavesExact; rw [live0, after0]
theorem le1 (c : Dev nD) (t : Fin cfg0.N) : (dats m 0 c).leavesExact 1 t = owns (c : Thread nD τ) (ms1 t) fullShare (iblk m c 1 t) := by
  unfold Dat.leavesExact; rw [live1, after1]
theorem le2 (c : Dev nD) (t : Fin cfg0.N) : (dats m 0 c).leavesExact 2 t = owns (c : Thread nD τ) (ms2 t) fullShare (iblk m c 2 t) := by
  unfold Dat.leavesExact; rw [live2, after2]
theorem le3 (c : Dev nD) (t : Fin cfg0.N) : (dats m 0 c).leavesExact 3 t = owns (c : Thread nD τ) (ms3 t) fullShare (iblk m c 3 t) := by
  unfold Dat.leavesExact; rw [live3, after3]
theorem le5 (c : Dev nD) (t : Fin cfg0.N) : (dats m 0 c).leavesExact 5 t = owns (c : Thread nD τ) (ms5 t) fullShare (outsAt m c t.val t.isLt).2.1 := by
  unfold Dat.leavesExact; rw [live5, after5]
theorem le6 (c : Dev nD) (t : Fin cfg0.N) : (dats m 0 c).leavesExact 6 t = owns (c : Thread nD τ) (ms6 t) fullShare (outsAt m c t.val t.isLt).2.2 := by
  unfold Dat.leavesExact; rw [live6, after6]
/-- The squared-error accumulator: stated contents at a point of the first block column, -/
theorem le4_live (c : Dev nD) (t : Fin cfg0.N) (h2 : t.val % 16 = 0) :
    (dats m 0 c).leavesExact 4 t = owns (c : Thread nD τ) (ms4 t) fullShare (outsAt m c t.val t.isLt).1 := by
  unfold Dat.leavesExact; rw [live4 t h2, after4]
/-- and at the last point, which writes the block back although the body stores nothing there; -/
theorem le4_last (c : Dev nD) (t : Fin cfg0.N) (h2 : ¬t.val % 16 = 0) (hl : t.val = 255) :
    (dats m 0 c).leavesExact 4 t = owns (c : Thread nD τ) (ms4 t) fullShare (outsAt m c t.val t.isLt).1 := by
  unfold Dat.leavesExact; rw [idle4 t h2, (flush0_4 t).mpr (by rw [hl]), after4]
/-- at every other point the buffer as the body found it. -/
theorem le4_idle (c : Dev nD) (t : Fin cfg0.N) (h2 : ¬t.val % 16 = 0) (hl : t.val ≠ 255) :
    (dats m 0 c).leavesExact 4 t = iprop(∃ d, owns (c : Thread nD τ) (ms4 t) fullShare ((dats m 0 c).before 4 t d)) := by
  have hN : t.val < 256 := lt_of_lt_of_eq t.isLt (show cfg0.N = 256 from N_0)
  exact Dat.leavesExact_idle (dats m 0 c) 4 t (idle4 t h2) (Bool.eq_false_iff.mpr fun h => by have := (flush0_4 _).mp h; omega)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point: the inputs' memrefs hold their blocks; the closed forms of the two conditions say which case the
    point is in; an accumulator the case adds to holds what the point before left; so that case's run applies, and what it
    leaves is the accumulation's next value. The invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    le0, le1, le2, le3, le5, le6]
  have hN : t.val < 256 := lt_of_lt_of_eq t.isLt (show cfg0.N = 256 from N_0)
  by_cases hz : t.val = 0
  · have h2 : t.val % 16 = 0 := by rw [hz]
    rw [le4_live m c t h2, outsAt_A m c t hz h2]
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun_A c (grid0.coords t) (ms0 t) (hs0 t) (ms1 t) (hs1 t) (ms2 t) (hs2 t) (ms3 t) (hs3 t) (ms4 t) (hs4 t) (ms5 t) (hs5 t) (ms6 t) (hs6 t) ((hcond1 t).mpr hz) ((hcond2 t).mpr h2) (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA4 c (grid0.coords t) (ms0 t) (hs0 t) (ms1 t) (hs1 t) (ms2 t) (hs2 t) (ms3 t) (hs3 t) (ms4 t) (hs4 t) (ms5 t) (hs5 t) (ms6 t) (hs6 t) ((hcond1 t).mpr hz) ((hcond2 t).mpr h2) (iblk m c 0 t) (iblk m c 1 t) (iblk m c 2 t) (iblk m c 3 t))
    isplitl [H5]
    · unfold owns; iexists _; isplitr
      swap; · iexact H5
      ipureintro; exact View.read_writes_of_cover _ _ _ _ _ (coverA5 c (grid0.coords t) (ms0 t) (hs0 t) (ms1 t) (hs1 t) (ms2 t) (hs2 t) (ms3 t) (hs3 t) (ms4 t) (hs4 t) (ms5 t) (hs5 t) (ms6 t) (hs6 t) ((hcond1 t).mpr hz) ((hcond2 t).mpr h2) (iblk m c 0 t) (iblk m c 1 t) (iblk m c 2 t) (iblk m c 3 t))
    unfold owns; iexists _; isplitr
    swap; · iexact H6
    ipureintro; exact View.read_writes_of_cover _ _ _ _ _ (coverA6 c (grid0.coords t) (ms0 t) (hs0 t) (ms1 t) (hs1 t) (ms2 t) (hs2 t) (ms3 t) (hs3 t) (ms4 t) (hs4 t) (ms5 t) (hs5 t) (ms6 t) (hs6 t) ((hcond1 t).mpr hz) ((hcond2 t).mpr h2) (iblk m c 0 t) (iblk m c 1 t) (iblk m c 2 t) (iblk m c 3 t))
  · by_cases h2 : t.val % 16 = 0
    · rw [le4_live m c t h2, outsAt_C m c t hz h2]
      simp only [before4 m c t hz, before5 m c t hz, before6 m c t hz]
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun_C c (grid0.coords t) (ms0 t) (hs0 t) (ms1 t) (hs1 t) (ms2 t) (hs2 t) (ms3 t) (hs3 t) (ms4 t) (hs4 t) (ms5 t) (hs5 t) (ms6 t) (hs6 t) (fun h => hz ((hcond1 t).mp h)) ((hcond2 t).mpr h2) (iblk m c 0 t) (iblk m c 1 t) (iblk m c 2 t) (iblk m c 3 t) (prevAt m c t).1 (prevAt m c t).2.1 (prevAt m c t).2.2).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, ⟨%e4, H4⟩, ⟨%e5, H5⟩, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC4 c (grid0.coords t) (ms0 t) (hs0 t) (ms1 t) (hs1 t) (ms2 t) (hs2 t) (ms3 t) (hs3 t) (ms4 t) (hs4 t) (ms5 t) (hs5 t) (ms6 t) (hs6 t) (fun h => hz ((hcond1 t).mp h)) ((hcond2 t).mpr h2) (iblk m c 0 t) (iblk m c 1 t) (iblk m c 2 t) (iblk m c 3 t) (prevAt m c t).1 (prevAt m c t).2.1 (prevAt m c t).2.2)
      isplitl [H5]
      · unfold owns; iexists _; isplitr
        swap; · iexact H5
        ipureintro; exact View.read_writes_of_cover _ _ _ _ _ (coverC5 c (grid0.coords t) (ms0 t) (hs0 t) (ms1 t) (hs1 t) (ms2 t) (hs2 t) (ms3 t) (hs3 t) (ms4 t) (hs4 t) (ms5 t) (hs5 t) (ms6 t) (hs6 t) (fun h => hz ((hcond1 t).mp h)) ((hcond2 t).mpr h2) (iblk m c 0 t) (iblk m c 1 t) (iblk m c 2 t) (iblk m c 3 t) (prevAt m c t).1 (prevAt m c t).2.1 (prevAt m c t).2.2)
      unfold owns; iexists _; isplitr
      swap; · iexact H6
      ipureintro; exact View.read_writes_of_cover _ _ _ _ _ (coverC6 c (grid0.coords t) (ms0 t) (hs0 t) (ms1 t) (hs1 t) (ms2 t) (hs2 t) (ms3 t) (hs3 t) (ms4 t) (hs4 t) (ms5 t) (hs5 t) (ms6 t) (hs6 t) (fun h => hz ((hcond1 t).mp h)) ((hcond2 t).mpr h2) (iblk m c 0 t) (iblk m c 1 t) (iblk m c 2 t) (iblk m c 3 t) (prevAt m c t).1 (prevAt m c t).2.1 (prevAt m c t).2.2)
    · by_cases hl : t.val = 255
      · rw [le4_last m c t h2 hl, outsAt_B m c t hz h2]
        simp only [before4 m c t hz, before5 m c t hz, before6 m c t hz]
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun_B c (grid0.coords t) (ms0 t) (hs0 t) (ms1 t) (hs1 t) (ms2 t) (hs2 t) (ms3 t) (hs3 t) (ms4 t) (hs4 t) (ms5 t) (hs5 t) (ms6 t) (hs6 t) (fun h => hz ((hcond1 t).mp h)) (fun h => h2 ((hcond2 t).mp h)) (iblk m c 0 t) (iblk m c 1 t) (iblk m c 2 t) (iblk m c 3 t) (prevAt m c t).2.1 (prevAt m c t).2.2).2.2 Set.univ _)
        isplitl [H0]; · iexact H0
        isplitl [H1]; · iexact H1
        isplitl [H2]; · iexact H2
        isplitl [H3]; · iexact H3
        isplitl [H5]; · iexact H5
        isplitl [H6]; · iexact H6
        iintro ⟨H0, H1, H2, H3, ⟨%e5, H5⟩, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (coverB5 c (grid0.coords t) (ms0 t) (hs0 t) (ms1 t) (hs1 t) (ms2 t) (hs2 t) (ms3 t) (hs3 t) (ms4 t) (hs4 t) (ms5 t) (hs5 t) (ms6 t) (hs6 t) (fun h => hz ((hcond1 t).mp h)) (fun h => h2 ((hcond2 t).mp h)) (iblk m c 0 t) (iblk m c 1 t) (iblk m c 2 t) (iblk m c 3 t) (prevAt m c t).2.1 (prevAt m c t).2.2)
        unfold owns; iexists _; isplitr
        swap; · iexact H6
        ipureintro; exact View.read_writes_of_cover _ _ _ _ _ (coverB6 c (grid0.coords t) (ms0 t) (hs0 t) (ms1 t) (hs1 t) (ms2 t) (hs2 t) (ms3 t) (hs3 t) (ms4 t) (hs4 t) (ms5 t) (hs5 t) (ms6 t) (hs6 t) (fun h => hz ((hcond1 t).mp h)) (fun h => h2 ((hcond2 t).mp h)) (iblk m c 0 t) (iblk m c 1 t) (iblk m c 2 t) (iblk m c 3 t) (prevAt m c t).2.1 (prevAt m c t).2.2)
      · rw [le4_idle m c t h2 hl, outsAt_B m c t hz h2]
        simp only [before5 m c t hz, before6 m c t hz]
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun_B c (grid0.coords t) (ms0 t) (hs0 t) (ms1 t) (hs1 t) (ms2 t) (hs2 t) (ms3 t) (hs3 t) (ms4 t) (hs4 t) (ms5 t) (hs5 t) (ms6 t) (hs6 t) (fun h => hz ((hcond1 t).mp h)) (fun h => h2 ((hcond2 t).mp h)) (iblk m c 0 t) (iblk m c 1 t) (iblk m c 2 t) (iblk m c 3 t) (prevAt m c t).2.1 (prevAt m c t).2.2).2.2 Set.univ _)
        isplitl [H0]; · iexact H0
        isplitl [H1]; · iexact H1
        isplitl [H2]; · iexact H2
        isplitl [H3]; · iexact H3
        isplitl [H5]; · iexact H5
        isplitl [H6]; · iexact H6
        iintro ⟨H0, H1, H2, H3, ⟨%e5, H5⟩, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexists d4; iexact H4
        isplitl [H5]
        · unfold owns; iexists _; isplitr
          swap; · iexact H5
          ipureintro; exact View.read_writes_of_cover _ _ _ _ _ (coverB5 c (grid0.coords t) (ms0 t) (hs0 t) (ms1 t) (hs1 t) (ms2 t) (hs2 t) (ms3 t) (hs3 t) (ms4 t) (hs4 t) (ms5 t) (hs5 t) (ms6 t) (hs6 t) (fun h => hz ((hcond1 t).mp h)) (fun h => h2 ((hcond2 t).mp h)) (iblk m c 0 t) (iblk m c 1 t) (iblk m c 2 t) (iblk m c 3 t) (prevAt m c t).2.1 (prevAt m c t).2.2)
        unfold owns; iexists _; isplitr
        swap; · iexact H6
        ipureintro; exact View.read_writes_of_cover _ _ _ _ _ (coverB6 c (grid0.coords t) (ms0 t) (hs0 t) (ms1 t) (hs1 t) (ms2 t) (hs2 t) (ms3 t) (hs3 t) (ms4 t) (hs4 t) (ms5 t) (hs5 t) (ms6 t) (hs6 t) (fun h => hz ((hcond1 t).mp h)) (fun h => h2 ((hcond2 t).mp h)) (iblk m c 0 t) (iblk m c 1 t) (iblk m c 2 t) (iblk m c 3 t) (prevAt m c t).2.1 (prevAt m c t).2.2)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    library computes from the proof data and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- The frame: @main runs and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KRunsI.lean ====
/-
  The kernel body of the pairwise ranking loss run symbolically, in each of its three control cases, on whole staging
  memrefs: at a grid point the body loads a block of 512 predictions and targets as a column and another as a row, forms
  the 512 × 512 tile of pairwise differences, masks and sums it into two one-element accumulators (hinges, valid pairs),
  and — in the first block column only — adds the block's squared errors into a third; at the very first point all three
  are reset first. What each case leaves in the accumulators' memrefs is recorded as the list of pieces its stores wrote.
  Stated for any float instance.
-/
import proofs.«164654_j7060926235084_1_alg».proof.Proof.Gen.KernelIdeal.Launch
import proofs.«164654_j7060926235084_1_alg».proof.Proof.Gen.KernelIdeal.Skeleton
import proofs.«164654_j7060926235084_1_alg».proof.Proof.Gen.KernelIdeal.Points
import proofs.«164654_j7060926235084_1_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the body's two conditionals hold

The grid is 16 × 16, walked row-major: point `t` is block row `t / 16`, block column `t % 16`. The first conditional
(reset the three accumulators) holds at the first point only; the second (add this block row's squared errors) at the
first column of every block row. -/

theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val % 16 = 0 :=
  (by decide +kernel : ∀ t : Fin grid0.N, k0_cond2 (grid0.coords t) = 1#1 ↔ t.val % 16 = 0)

/-- The squared-error accumulator's buffer is untouched exactly where neither conditional holds; the other two outputs
    are stored at every point. -/
theorem idle4 : ∀ t : Fin cfg0.N, ¬t.val % 16 = 0 → cfg0.idle 4 (grid0.coords t) = true :=
  (by decide +kernel : ∀ t : Fin grid0.N, ¬t.val % 16 = 0 → idle0 4 (grid0.coords t) = true)
theorem live4 : ∀ t : Fin cfg0.N, t.val % 16 = 0 → cfg0.idle 4 (grid0.coords t) = false :=
  (by decide +kernel : ∀ t : Fin grid0.N, t.val % 16 = 0 → idle0 4 (grid0.coords t) = false)
theorem live0 : ∀ i, cfg0.idle 0 i = false := fun _ => rfl
theorem live1 : ∀ i, cfg0.idle 1 i = false := fun _ => rfl
theorem live2 : ∀ i, cfg0.idle 2 i = false := fun _ => rfl
theorem live3 : ∀ i, cfg0.idle 3 i = false := fun _ => rfl
theorem live5 : ∀ i, cfg0.idle 5 i = false := fun _ => rfl
theorem live6 : ∀ i, cfg0.idle 6 i = false := fun _ => rfl

/-- One staging buffer of each output window, through which its contents are stated (the choice does not matter). -/
abbrev VO4 : View sig .tc .vmem S1x1 .f32 := (Memref.whole cc0_stg4_0 : Memref sig .tc .vmem S1x1 .f32).view
abbrev VO5 : View sig .tc .vmem S1x1 .f32 := (Memref.whole cc0_stg5_0 : Memref sig .tc .vmem S1x1 .f32).view
abbrev VO6 : View sig .tc .vmem S1x1 .f32 := (Memref.whole cc0_stg6_0 : Memref sig .tc .vmem S1x1 .f32).view

/-- Each window's current staging memref at point `t`, as the pipeline passes it, and its wholeness. -/
abbrev ms0 (t : Fin cfg0.N) : Memref sig .tc .vmem S512x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)

/-! ## The body, case by case

Each case: the body run on whole staging memrefs, the four inputs at given contents, and what its stores leave in
each output's memref as a list of written pieces (the last store first), found by the run itself. -/

set_option maxHeartbeats 4000000 in
/-- The first point (both conditionals hold): the three accumulators are reset, then all three are added to. The outputs'
    memrefs may hold anything beforehand. -/
noncomputable def kernelRun_A (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : k0_cond1 i = 1#1) (hc2 : k0_cond2 i = 1#1)
    (x0 x1 : Vec F S512x1 .f32) (x2 x3 : Vec F S1x512 .f32) :
    Σ' (L4 : List (View.Piece (Elt F) S1x1 .f32)) (L5 : List (View.Piece (Elt F) S1x1 .f32)), { L6 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__pairwise_kernel i arg2 harg2 arg3 harg3 arg4 harg4 arg5 harg5 arg6 harg6 arg7 harg7 arg8 harg8) K } := by
  refine ⟨?_, ?_, ?_, fun E K => ?run⟩
  case run =>
    simp only [cc0__pairwise_kernel_eq_skeleton]; unfold cc0__pairwise_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

set_option maxHeartbeats 4000000 in
/-- A point off the first block column (neither conditional holds): the hinge and count accumulators, found at `xo5`,
    `xo6`, are added to; the squared-error accumulator's memref is not touched (it is not among the resources). -/
noncomputable def kernelRun_B (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : ¬k0_cond2 i = 1#1)
    (x0 x1 : Vec F S512x1 .f32) (x2 x3 : Vec F S1x512 .f32) (xo5 xo6 : Vec F S1x1 .f32) :
    Σ' (L5 : List (View.Piece (Elt F) S1x1 .f32)), { L6 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__pairwise_kernel i arg2 harg2 arg3 harg3 arg4 harg4 arg5 harg5 arg6 harg6 arg7 harg7 arg8 harg8) K } := by
  refine ⟨?_, ?_, fun E K => ?run⟩
  case run =>
    simp only [cc0__pairwise_kernel_eq_skeleton]; unfold cc0__pairwise_kernel_skel
    unfold owns
    iintro ⟨⟨%f0, %hf0, H0⟩, ⟨%f1, %hf1, H1⟩, ⟨%f2, %hf2, H2⟩, ⟨%f3, %hf3, H3⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hf6
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H5]; · iexists _; iexact H5
    iexists _; iexact H6

set_option maxHeartbeats 4000000 in
/-- The first block column of a later block row (only the second conditional holds): all three accumulators, found at
    `xo4`, `xo5`, `xo6`, are added to. -/
noncomputable def kernelRun_C (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : k0_cond2 i = 1#1)
    (x0 x1 : Vec F S512x1 .f32) (x2 x3 : Vec F S1x512 .f32) (xo4 xo5 xo6 : Vec F S1x1 .f32) :
    Σ' (L4 : List (View.Piece (Elt F) S1x1 .f32)) (L5 : List (View.Piece (Elt F) S1x1 .f32)), { L6 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__pairwise_kernel i arg2 harg2 arg3 harg3 arg4 harg4 arg5 harg5 arg6 harg6 arg7 harg7 arg8 harg8) K } := by
  refine ⟨?_, ?_, ?_, fun E K => ?run⟩
  case run =>
    simp only [cc0__pairwise_kernel_eq_skeleton]; unfold cc0__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

end Cert.KernelIdeal.Hand

end
-- ==== Proof.KBodyI.lean ====
/-
  The launch side of the pairwise ranking loss kernel, written over the generated launch modules: what the three one-element
  accumulators hold after every grid point (by recursion on the point, through the body's three control cases), the proof
  data of the pipeline, that every window's staging buffer holds at each point what the proof data says — the inputs their
  blocks, the hinge and count accumulators what the point before left, the squared-error accumulator its running value
  through the points that do not touch it —, the body obligation, the run of @main with the host lines after the region,
  and the frame. Stated for any float instance.
-/
import proofs.«164654_j7060926235084_1_alg».proof.Proof.KRunsI
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each accumulator

Every store of the body writes a whole one-element block, so the pieces of a case cover the block and their read-back is
a function of the case's inputs alone. -/

theorem coverA4 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : k0_cond1 i = 1#1) (hc2 : k0_cond2 i = 1#1) (x0 x1 : Vec F S512x1 .f32) (x2 x3 : Vec F S1x512 .f32) (y : S1x1.Idx) :
    ∃ pc ∈ (kernelRun_A c i arg2 harg2 arg3 harg3 arg4 harg4 arg5 harg5 arg6 harg6 arg7 harg7 arg8 harg8 hc1 hc2 x0 x1 x2 x3).1, y ∈ pc.1.set :=
  View.cover_of_tiledL (kernelRun_A c i arg2 harg2 arg3 harg3 arg4 harg4 arg5 harg5 arg6 harg6 arg7 harg7 arg8 harg8 hc1 hc2 x0 x1 x2 x3).1 S1x1.size (by sl_kernel_rfl) y
/-- What case A leaves in accumulator 4's staging buffer: its pieces read back. -/
def outA4 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : k0_cond1 i = 1#1) (hc2 : k0_cond2 i = 1#1) (x0 x1 : Vec F S512x1 .f32) (x2 x3 : Vec F S1x512 .f32) : Vec F S1x1 .f32 :=
  VO4.read (Elt F) (VO4.writes (Elt F) VO4.junk (kernelRun_A c i arg2 harg2 arg3 harg3 arg4 harg4 arg5 harg5 arg6 harg6 arg7 harg7 arg8 harg8 hc1 hc2 x0 x1 x2 x3).1)

theorem coverA5 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : k0_cond1 i = 1#1) (hc2 : k0_cond2 i = 1#1) (x0 x1 : Vec F S512x1 .f32) (x2 x3 : Vec F S1x512 .f32) (y : S1x1.Idx) :
    ∃ pc ∈ (kernelRun_A c i arg2 harg2 arg3 harg3 arg4 harg4 arg5 harg5 arg6 harg6 arg7 harg7 arg8 harg8 hc1 hc2 x0 x1 x2 x3).2.1, y ∈ pc.1.set :=
  View.cover_of_tiledL (kernelRun_A c i arg2 harg2 arg3 harg3 arg4 harg4 arg5 harg5 arg6 harg6 arg7 harg7 arg8 harg8 hc1 hc2 x0 x1 x2 x3).2.1 S1x1.size (by sl_kernel_rfl) y
/-- What case A leaves in accumulator 5's staging buffer: its pieces read back. -/
def outA5 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : k0_cond1 i = 1#1) (hc2 : k0_cond2 i = 1#1) (x0 x1 : Vec F S512x1 .f32) (x2 x3 : Vec F S1x512 .f32) : Vec F S1x1 .f32 :=
  VO5.read (Elt F) (VO5.writes (Elt F) VO5.junk (kernelRun_A c i arg2 harg2 arg3 harg3 arg4 harg4 arg5 harg5 arg6 harg6 arg7 harg7 arg8 harg8 hc1 hc2 x0 x1 x2 x3).2.1)

theorem coverA6 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : k0_cond1 i = 1#1) (hc2 : k0_cond2 i = 1#1) (x0 x1 : Vec F S512x1 .f32) (x2 x3 : Vec F S1x512 .f32) (y : S1x1.Idx) :
    ∃ pc ∈ (kernelRun_A c i arg2 harg2 arg3 harg3 arg4 harg4 arg5 harg5 arg6 harg6 arg7 harg7 arg8 harg8 hc1 hc2 x0 x1 x2 x3).2.2.1, y ∈ pc.1.set :=
  View.cover_of_tiledL (kernelRun_A c i arg2 harg2 arg3 harg3 arg4 harg4 arg5 harg5 arg6 harg6 arg7 harg7 arg8 harg8 hc1 hc2 x0 x1 x2 x3).2.2.1 S1x1.size (by sl_kernel_rfl) y
/-- What case A leaves in accumulator 6's staging buffer: its pieces read back. -/
def outA6 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : k0_cond1 i = 1#1) (hc2 : k0_cond2 i = 1#1) (x0 x1 : Vec F S512x1 .f32) (x2 x3 : Vec F S1x512 .f32) : Vec F S1x1 .f32 :=
  VO6.read (Elt F) (VO6.writes (Elt F) VO6.junk (kernelRun_A c i arg2 harg2 arg3 harg3 arg4 harg4 arg5 harg5 arg6 harg6 arg7 harg7 arg8 harg8 hc1 hc2 x0 x1 x2 x3).2.2.1)

theorem coverB5 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : ¬k0_cond2 i = 1#1) (x0 x1 : Vec F S512x1 .f32) (x2 x3 : Vec F S1x512 .f32) (xo5 xo6 : Vec F S1x1 .f32) (y : S1x1.Idx) :
    ∃ pc ∈ (kernelRun_B c i arg2 harg2 arg3 harg3 arg4 harg4 arg5 harg5 arg6 harg6 arg7 harg7 arg8 harg8 hc1 hc2 x0 x1 x2 x3 xo5 xo6).1, y ∈ pc.1.set :=
  View.cover_of_tiledL (kernelRun_B c i arg2 harg2 arg3 harg3 arg4 harg4 arg5 harg5 arg6 harg6 arg7 harg7 arg8 harg8 hc1 hc2 x0 x1 x2 x3 xo5 xo6).1 S1x1.size (by sl_kernel_rfl) y
/-- What case B leaves in accumulator 5's staging buffer: its pieces read back. -/
def outB5 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : ¬k0_cond2 i = 1#1) (x0 x1 : Vec F S512x1 .f32) (x2 x3 : Vec F S1x512 .f32) (xo5 xo6 : Vec F S1x1 .f32) : Vec F S1x1 .f32 :=
  VO5.read (Elt F) (VO5.writes (Elt F) VO5.junk (kernelRun_B c i arg2 harg2 arg3 harg3 arg4 harg4 arg5 harg5 arg6 harg6 arg7 harg7 arg8 harg8 hc1 hc2 x0 x1 x2 x3 xo5 xo6).1)

theorem coverB6 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : ¬k0_cond2 i = 1#1) (x0 x1 : Vec F S512x1 .f32) (x2 x3 : Vec F S1x512 .f32) (xo5 xo6 : Vec F S1x1 .f32) (y : S1x1.Idx) :
    ∃ pc ∈ (kernelRun_B c i arg2 harg2 arg3 harg3 arg4 harg4 arg5 harg5 arg6 harg6 arg7 harg7 arg8 harg8 hc1 hc2 x0 x1 x2 x3 xo5 xo6).2.1, y ∈ pc.1.set :=
  View.cover_of_tiledL (kernelRun_B c i arg2 harg2 arg3 harg3 arg4 harg4 arg5 harg5 arg6 harg6 arg7 harg7 arg8 harg8 hc1 hc2 x0 x1 x2 x3 xo5 xo6).2.1 S1x1.size (by sl_kernel_rfl) y
/-- What case B leaves in accumulator 6's staging buffer: its pieces read back. -/
def outB6 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : ¬k0_cond2 i = 1#1) (x0 x1 : Vec F S512x1 .f32) (x2 x3 : Vec F S1x512 .f32) (xo5 xo6 : Vec F S1x1 .f32) : Vec F S1x1 .f32 :=
  VO6.read (Elt F) (VO6.writes (Elt F) VO6.junk (kernelRun_B c i arg2 harg2 arg3 harg3 arg4 harg4 arg5 harg5 arg6 harg6 arg7 harg7 arg8 harg8 hc1 hc2 x0 x1 x2 x3 xo5 xo6).2.1)

theorem coverC4 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : k0_cond2 i = 1#1) (x0 x1 : Vec F S512x1 .f32) (x2 x3 : Vec F S1x512 .f32) (xo4 xo5 xo6 : Vec F S1x1 .f32) (y : S1x1.Idx) :
    ∃ pc ∈ (kernelRun_C c i arg2 harg2 arg3 harg3 arg4 harg4 arg5 harg5 arg6 harg6 arg7 harg7 arg8 harg8 hc1 hc2 x0 x1 x2 x3 xo4 xo5 xo6).1, y ∈ pc.1.set :=
  View.cover_of_tiledL (kernelRun_C c i arg2 harg2 arg3 harg3 arg4 harg4 arg5 harg5 arg6 harg6 arg7 harg7 arg8 harg8 hc1 hc2 x0 x1 x2 x3 xo4 xo5 xo6).1 S1x1.size (by sl_kernel_rfl) y
/-- What case C leaves in accumulator 4's staging buffer: its pieces read back. -/
def outC4 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : k0_cond2 i = 1#1) (x0 x1 : Vec F S512x1 .f32) (x2 x3 : Vec F S1x512 .f32) (xo4 xo5 xo6 : Vec F S1x1 .f32) : Vec F S1x1 .f32 :=
  VO4.read (Elt F) (VO4.writes (Elt F) VO4.junk (kernelRun_C c i arg2 harg2 arg3 harg3 arg4 harg4 arg5 harg5 arg6 harg6 arg7 harg7 arg8 harg8 hc1 hc2 x0 x1 x2 x3 xo4 xo5 xo6).1)

theorem coverC5 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : k0_cond2 i = 1#1) (x0 x1 : Vec F S512x1 .f32) (x2 x3 : Vec F S1x512 .f32) (xo4 xo5 xo6 : Vec F S1x1 .f32) (y : S1x1.Idx) :
    ∃ pc ∈ (kernelRun_C c i arg2 harg2 arg3 harg3 arg4 harg4 arg5 harg5 arg6 harg6 arg7 harg7 arg8 harg8 hc1 hc2 x0 x1 x2 x3 xo4 xo5 xo6).2.1, y ∈ pc.1.set :=
  View.cover_of_tiledL (kernelRun_C c i arg2 harg2 arg3 harg3 arg4 harg4 arg5 harg5 arg6 harg6 arg7 harg7 arg8 harg8 hc1 hc2 x0 x1 x2 x3 xo4 xo5 xo6).2.1 S1x1.size (by sl_kernel_rfl) y
/-- What case C leaves in accumulator 5's staging buffer: its pieces read back. -/
def outC5 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : k0_cond2 i = 1#1) (x0 x1 : Vec F S512x1 .f32) (x2 x3 : Vec F S1x512 .f32) (xo4 xo5 xo6 : Vec F S1x1 .f32) : Vec F S1x1 .f32 :=
  VO5.read (Elt F) (VO5.writes (Elt F) VO5.junk (kernelRun_C c i arg2 harg2 arg3 harg3 arg4 harg4 arg5 harg5 arg6 harg6 arg7 harg7 arg8 harg8 hc1 hc2 x0 x1 x2 x3 xo4 xo5 xo6).2.1)

theorem coverC6 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : k0_cond2 i = 1#1) (x0 x1 : Vec F S512x1 .f32) (x2 x3 : Vec F S1x512 .f32) (xo4 xo5 xo6 : Vec F S1x1 .f32) (y : S1x1.Idx) :
    ∃ pc ∈ (kernelRun_C c i arg2 harg2 arg3 harg3 arg4 harg4 arg5 harg5 arg6 harg6 arg7 harg7 arg8 harg8 hc1 hc2 x0 x1 x2 x3 xo4 xo5 xo6).2.2.1, y ∈ pc.1.set :=
  View.cover_of_tiledL (kernelRun_C c i arg2 harg2 arg3 harg3 arg4 harg4 arg5 harg5 arg6 harg6 arg7 harg7 arg8 harg8 hc1 hc2 x0 x1 x2 x3 xo4 xo5 xo6).2.2.1 S1x1.size (by sl_kernel_rfl) y
/-- What case C leaves in accumulator 6's staging buffer: its pieces read back. -/
def outC6 (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : k0_cond2 i = 1#1) (x0 x1 : Vec F S512x1 .f32) (x2 x3 : Vec F S1x512 .f32) (xo4 xo5 xo6 : Vec F S1x1 .f32) : Vec F S1x1 .f32 :=
  VO6.read (Elt F) (VO6.writes (Elt F) VO6.junk (kernelRun_C c i arg2 harg2 arg3 harg3 arg4 harg4 arg5 harg5 arg6 harg6 arg7 harg7 arg8 harg8 hc1 hc2 x0 x1 x2 x3 xo4 xo5 xo6).2.2.1)

/-- The same at point `t`, on the memrefs and blocks the pipeline calls the body with there. -/
abbrev atA4 (c : Dev nD) (t : Fin cfg0.N) (h1 : t.val = 0) (h2 : t.val % 16 = 0) : Vec F S1x1 .f32 :=
  outA4 c (grid0.coords t) (ms0 t) (hs0 t) (ms1 t) (hs1 t) (ms2 t) (hs2 t) (ms3 t) (hs3 t) (ms4 t) (hs4 t) (ms5 t) (hs5 t) (ms6 t) (hs6 t) ((hcond1 t).mpr h1) ((hcond2 t).mpr h2) (iblk m c 0 t) (iblk m c 1 t) (iblk m c 2 t) (iblk m c 3 t)
abbrev atA5 (c : Dev nD) (t : Fin cfg0.N) (h1 : t.val = 0) (h2 : t.val % 16 = 0) : Vec F S1x1 .f32 :=
  outA5 c (grid0.coords t) (ms0 t) (hs0 t) (ms1 t) (hs1 t) (ms2 t) (hs2 t) (ms3 t) (hs3 t) (ms4 t) (hs4 t) (ms5 t) (hs5 t) (ms6 t) (hs6 t) ((hcond1 t).mpr h1) ((hcond2 t).mpr h2) (iblk m c 0 t) (iblk m c 1 t) (iblk m c 2 t) (iblk m c 3 t)
abbrev atA6 (c : Dev nD) (t : Fin cfg0.N) (h1 : t.val = 0) (h2 : t.val % 16 = 0) : Vec F S1x1 .f32 :=
  outA6 c (grid0.coords t) (ms0 t) (hs0 t) (ms1 t) (hs1 t) (ms2 t) (hs2 t) (ms3 t) (hs3 t) (ms4 t) (hs4 t) (ms5 t) (hs5 t) (ms6 t) (hs6 t) ((hcond1 t).mpr h1) ((hcond2 t).mpr h2) (iblk m c 0 t) (iblk m c 1 t) (iblk m c 2 t) (iblk m c 3 t)
abbrev atB5 (c : Dev nD) (t : Fin cfg0.N) (h1 : t.val ≠ 0) (h2 : ¬t.val % 16 = 0) (xo5 xo6 : Vec F S1x1 .f32) : Vec F S1x1 .f32 :=
  outB5 c (grid0.coords t) (ms0 t) (hs0 t) (ms1 t) (hs1 t) (ms2 t) (hs2 t) (ms3 t) (hs3 t) (ms4 t) (hs4 t) (ms5 t) (hs5 t) (ms6 t) (hs6 t) (fun h => h1 ((hcond1 t).mp h)) (fun h => h2 ((hcond2 t).mp h)) (iblk m c 0 t) (iblk m c 1 t) (iblk m c 2 t) (iblk m c 3 t) xo5 xo6
abbrev atB6 (c : Dev nD) (t : Fin cfg0.N) (h1 : t.val ≠ 0) (h2 : ¬t.val % 16 = 0) (xo5 xo6 : Vec F S1x1 .f32) : Vec F S1x1 .f32 :=
  outB6 c (grid0.coords t) (ms0 t) (hs0 t) (ms1 t) (hs1 t) (ms2 t) (hs2 t) (ms3 t) (hs3 t) (ms4 t) (hs4 t) (ms5 t) (hs5 t) (ms6 t) (hs6 t) (fun h => h1 ((hcond1 t).mp h)) (fun h => h2 ((hcond2 t).mp h)) (iblk m c 0 t) (iblk m c 1 t) (iblk m c 2 t) (iblk m c 3 t) xo5 xo6
abbrev atC4 (c : Dev nD) (t : Fin cfg0.N) (h1 : t.val ≠ 0) (h2 : t.val % 16 = 0) (xo4 xo5 xo6 : Vec F S1x1 .f32) : Vec F S1x1 .f32 :=
  outC4 c (grid0.coords t) (ms0 t) (hs0 t) (ms1 t) (hs1 t) (ms2 t) (hs2 t) (ms3 t) (hs3 t) (ms4 t) (hs4 t) (ms5 t) (hs5 t) (ms6 t) (hs6 t) (fun h => h1 ((hcond1 t).mp h)) ((hcond2 t).mpr h2) (iblk m c 0 t) (iblk m c 1 t) (iblk m c 2 t) (iblk m c 3 t) xo4 xo5 xo6
abbrev atC5 (c : Dev nD) (t : Fin cfg0.N) (h1 : t.val ≠ 0) (h2 : t.val % 16 = 0) (xo4 xo5 xo6 : Vec F S1x1 .f32) : Vec F S1x1 .f32 :=
  outC5 c (grid0.coords t) (ms0 t) (hs0 t) (ms1 t) (hs1 t) (ms2 t) (hs2 t) (ms3 t) (hs3 t) (ms4 t) (hs4 t) (ms5 t) (hs5 t) (ms6 t) (hs6 t) (fun h => h1 ((hcond1 t).mp h)) ((hcond2 t).mpr h2) (iblk m c 0 t) (iblk m c 1 t) (iblk m c 2 t) (iblk m c 3 t) xo4 xo5 xo6
abbrev atC6 (c : Dev nD) (t : Fin cfg0.N) (h1 : t.val ≠ 0) (h2 : t.val % 16 = 0) (xo4 xo5 xo6 : Vec F S1x1 .f32) : Vec F S1x1 .f32 :=
  outC6 c (grid0.coords t) (ms0 t) (hs0 t) (ms1 t) (hs1 t) (ms2 t) (hs2 t) (ms3 t) (hs3 t) (ms4 t) (hs4 t) (ms5 t) (hs5 t) (ms6 t) (hs6 t) (fun h => h1 ((hcond1 t).mp h)) ((hcond2 t).mpr h2) (iblk m c 0 t) (iblk m c 1 t) (iblk m c 2 t) (iblk m c 3 t) xo4 xo5 xo6

/-! ## The accumulation -/

/-- What the three accumulators (squared errors, hinges, valid pairs) hold after the body at position `n`: the first point
    resets and adds; a later point in the first block column adds to all three of what the point before left; any other
    point adds to the last two and leaves the first as it was. -/
def outsAt (c : Dev nD) : (n : ℕ) → n < cfg0.N → Vec F S1x1 .f32 × Vec F S1x1 .f32 × Vec F S1x1 .f32
  | 0, hn => (atA4 m c ⟨0, hn⟩ rfl (Nat.zero_mod _), atA5 m c ⟨0, hn⟩ rfl (Nat.zero_mod _), atA6 m c ⟨0, hn⟩ rfl (Nat.zero_mod _))
  | n + 1, hn =>
    if h : (n + 1) % 16 = 0 then
      (atC4 m c ⟨n + 1, hn⟩ (Nat.succ_ne_zero n) h (outsAt c n (Nat.lt_of_succ_lt hn)).1 (outsAt c n (Nat.lt_of_succ_lt hn)).2.1 (outsAt c n (Nat.lt_of_succ_lt hn)).2.2,
       atC5 m c ⟨n + 1, hn⟩ (Nat.succ_ne_zero n) h (outsAt c n (Nat.lt_of_succ_lt hn)).1 (outsAt c n (Nat.lt_of_succ_lt hn)).2.1 (outsAt c n (Nat.lt_of_succ_lt hn)).2.2,
       atC6 m c ⟨n + 1, hn⟩ (Nat.succ_ne_zero n) h (outsAt c n (Nat.lt_of_succ_lt hn)).1 (outsAt c n (Nat.lt_of_succ_lt hn)).2.1 (outsAt c n (Nat.lt_of_succ_lt hn)).2.2)
    else
      ((outsAt c n (Nat.lt_of_succ_lt hn)).1,
       atB5 m c ⟨n + 1, hn⟩ (Nat.succ_ne_zero n) h (outsAt c n (Nat.lt_of_succ_lt hn)).2.1 (outsAt c n (Nat.lt_of_succ_lt hn)).2.2,
       atB6 m c ⟨n + 1, hn⟩ (Nat.succ_ne_zero n) h (outsAt c n (Nat.lt_of_succ_lt hn)).2.1 (outsAt c n (Nat.lt_of_succ_lt hn)).2.2)

/-- What the point before `t` left. -/
abbrev prevAt (c : Dev nD) (t : Fin cfg0.N) : Vec F S1x1 .f32 × Vec F S1x1 .f32 × Vec F S1x1 .f32 :=
  outsAt m c (t.val - 1) (Nat.lt_of_le_of_lt (Nat.sub_le _ _) t.isLt)

theorem outsAt_A (c : Dev nD) (t : Fin cfg0.N) (h1 : t.val = 0) (h2 : t.val % 16 = 0) :
    outsAt m c t.val t.isLt = (atA4 m c t h1 h2, atA5 m c t h1 h2, atA6 m c t h1 h2) := by
  obtain ⟨n, hn⟩ := t
  cases n with
  | zero => rfl
  | succ n => exact absurd h1 (Nat.succ_ne_zero n)

theorem outsAt_B (c : Dev nD) (t : Fin cfg0.N) (h1 : t.val ≠ 0) (h2 : ¬t.val % 16 = 0) :
    outsAt m c t.val t.isLt = ((prevAt m c t).1, atB5 m c t h1 h2 (prevAt m c t).2.1 (prevAt m c t).2.2, atB6 m c t h1 h2 (prevAt m c t).2.1 (prevAt m c t).2.2) := by
  obtain ⟨n, hn⟩ := t
  cases n with
  | zero => exact absurd rfl h1
  | succ n => exact (dif_neg h2).trans rfl

theorem outsAt_C (c : Dev nD) (t : Fin cfg0.N) (h1 : t.val ≠ 0) (h2 : t.val % 16 = 0) :
    outsAt m c t.val t.isLt = (atC4 m c t h1 h2 (prevAt m c t).1 (prevAt m c t).2.1 (prevAt m c t).2.2, atC5 m c t h1 h2 (prevAt m c t).1 (prevAt m c t).2.1 (prevAt m c t).2.2, atC6 m c t h1 h2 (prevAt m c t).1 (prevAt m c t).2.1 (prevAt m c t).2.2) := by
  obtain ⟨n, hn⟩ := t
  cases n with
  | zero => exact absurd rfl h1
  | succ n => exact (dif_pos h2).trans rfl

/-! ## The pipeline's proof data -/

/-- The arrays as the region finds them; after the body at point `t` each input's buffer at its block and the three
    accumulators' at `outsAt`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
    | ⟨6, _⟩ => (outsAt m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]
theorem after5 (c : Dev nD) (t : Fin cfg0.N) : (dats m 0 c).after 5 t = (outsAt m c t.val t.isLt).2.1 := by dsimp only [dats]
theorem after6 (c : Dev nD) (t : Fin cfg0.N) : (dats m 0 c).after 6 t = (outsAt m c t.val t.isLt).2.2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- After the first point the hinge accumulator's buffer holds what the point before left: it is stored at every point and
    written back only after the last. -/
theorem before5 (c : Dev nD) (t : Fin cfg0.N) (hz : t.val ≠ 0) (d) : (dats m 0 c).before 5 t d = (prevAt m c t).2.1 := by
  have hN : t.val < 256 := lt_of_lt_of_eq t.isLt (show cfg0.N = 256 from N_0)
  rw [Dat.before_out_kept _ 5 rfl t hz (Bool.eq_false_iff.mpr fun h => by have := (flush0_5 _).mp h; dsimp only at this; omega)
    live5 (fun _ _ => rfl)]
  dsimp only [dats]
/-- The same for the count accumulator. -/
theorem before6 (c : Dev nD) (t : Fin cfg0.N) (hz : t.val ≠ 0) (d) : (dats m 0 c).before 6 t d = (prevAt m c t).2.2 := by
  have hN : t.val < 256 := lt_of_lt_of_eq t.isLt (show cfg0.N = 256 from N_0)
  rw [Dat.before_out_kept _ 6 rfl t hz (Bool.eq_false_iff.mpr fun h => by have := (flush0_6 _).mp h; dsimp only at this; omega)
    live6 (fun _ _ => rfl)]
  dsimp only [dats]

/-- The squared-error accumulator's window is uncut: what a live point leaves is what the next finds. -/
theorem kept4 (c : Dev nD) (t : Fin cfg0.N) (d) : (dats m 0 c).kept 4 t d = (dats m 0 c).after 4 t := by
  unfold Dat.kept
  rw [Pipeline.fill_of_clip_none (cfg := cfg0) 4 _ (fun _ => rfl) d ((dats m 0 c).after 4 t), Window.fill_cut]

/-- One step back for the squared-error accumulator's buffer: after a point that stored into it, what that point left; -/
theorem before4_live (c : Dev nD) (t t' : Fin cfg0.N) (ht : t'.val + 1 = t.val) (hi : cfg0.idle 4 (cfg0.grid.coords t') = false) (d) :
    (dats m 0 c).before 4 t d = (dats m 0 c).after 4 t' := by
  have hN : t.val < 256 := lt_of_lt_of_eq t.isLt (show cfg0.N = 256 from N_0)
  obtain rfl : t' = ⟨t.val - 1, Nat.lt_of_le_of_lt (Nat.sub_le _ _) t.isLt⟩ := Fin.ext (by dsimp only; omega)
  dsimp only at ht
  rw [Dat.before_of_pos _ 4 t (by omega) ((cfg0.win 4).fetch_out rfl t),
    if_neg (fun h => by have := (flush0_4 _).mp h; dsimp only at this; omega)]
  unfold Dat.left; rw [hi]
  exact kept4 m c _ d
/-- after a point that did not, what that point found. -/
theorem before4_idle (c : Dev nD) (t t' : Fin cfg0.N) (ht : t'.val + 1 = t.val) (hi : cfg0.idle 4 (cfg0.grid.coords t') = true) (d) :
    (dats m 0 c).before 4 t d = (dats m 0 c).before 4 t' d := by
  have hN : t.val < 256 := lt_of_lt_of_eq t.isLt (show cfg0.N = 256 from N_0)
  obtain rfl : t' = ⟨t.val - 1, Nat.lt_of_le_of_lt (Nat.sub_le _ _) t.isLt⟩ := Fin.ext (by dsimp only; omega)
  dsimp only at ht
  rw [Dat.before_of_pos _ 4 t (by omega) ((cfg0.win 4).fetch_out rfl t),
    if_neg (fun h => by have := (flush0_4 _).mp h; dsimp only at this; omega)]
  unfold Dat.left; rw [hi]

/-- So after the first point it holds the running value the point before left, through the points that do not touch it. -/
theorem before4 (c : Dev nD) (t : Fin cfg0.N) (hz : t.val ≠ 0) (d) : (dats m 0 c).before 4 t d = (prevAt m c t).1 := by
  obtain ⟨k, hk⟩ := t
  induction k with
  | zero => exact absurd rfl hz
  | succ n ih =>
    have hn : n < cfg0.N := Nat.lt_of_succ_lt hk
    by_cases h : n % 16 = 0
    · rw [before4_live m c ⟨n + 1, hk⟩ ⟨n, hn⟩ rfl (live4 ⟨n, hn⟩ h) d, after4]; rfl
    · have hn0 : n ≠ 0 := fun e => h (by rw [e])
      rw [before4_idle m c ⟨n + 1, hk⟩ ⟨n, hn⟩ rfl (idle4 ⟨n, hn⟩ h) d, ih hn hn0]
      exact (congrArg Prod.fst (outsAt_B m c ⟨n, hn⟩ hn0 h)).symm

end Cert.KernelIdeal.Hand

end
-- ==== Proof.KPiecesI.lean ====
/-
  What each control case of the pairwise ranking loss kernel's body leaves in an accumulator's one-element staging buffer,
  read back as a value: the case's last store into that buffer writes the whole block, so the buffer ends at that store's
  value — the body's arithmetic applied to the four input blocks and to what the accumulator held before (at the first
  point: to the zero the reset had just stored, which the body reads back). Stated for any float instance.
-/
import proofs.«164654_j7060926235084_1_alg».proof.Proof.KBodyI
import Idealize.ShloMosaic.Lib.Pipeline.Value
import Idealize.ShloMosaic.Lib.StableHlo.Run
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

/-! ## What each case leaves, as the body's arithmetic

Each accumulator's last store in a case writes its whole one-element block, so what the case leaves there is that store's
value: the body's arithmetic (the printed payload) of the blocks loaded and of what the accumulator held — at the first
point, of the zero just stored. -/

section Pieces
variable {F : FTy → Type} [FloatOps F]

theorem hz : (![0, 0] : Fin 2 → Nat) = fun _ => 0 := funext fun a => by fin_cases a <;> rfl

theorem outB5_eq (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : ¬k0_cond2 i = 1#1) (x0 x1 : Vec F S512x1 .f32) (x2 x3 : Vec F S1x512 .f32) (xo5 xo6 : Vec F S1x1 .f32) :
    outB5 c i arg2 harg2 arg3 harg3 arg4 harg4 arg5 harg5 arg6 harg6 arg7 harg7 arg8 harg8 hc1 hc2 x0 x1 x2 x3 xo5 xo6 = k0_pay2 (k0_pay10 x1 x3) (k0_pay11 i) (k0_pay12 i) (k0_pay13 x0 x1 x2 x3) (k0_pay14 (F := F)) xo5 := by
  unfold outB5
  rw [View.read_writes_eq_canon _ _ _ (coverB5 c i arg2 harg2 arg3 harg3 arg4 harg4 arg5 harg5 arg6 harg6 arg7 harg7 arg8 harg8 hc1 hc2 x0 x1 x2 x3 xo5 xo6)]
  unfold kernelRun_B
  dsimp only
  sl_unfold_words
  rw [View.canon_unit_zero hz]
  simp only [View.readAt_eq_ld, harg2.read_unread, harg3.read_unread, harg4.read_unread, harg5.read_unread, harg6.read_unread, harg7.read_unread, harg8.read_unread,
    View.ld_unit_zero (S := S512x1) hz, View.ld_unit_zero (S := S1x512) hz, View.ld_unit_zero (S := S1x1) hz]

theorem outB6_eq (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : ¬k0_cond2 i = 1#1) (x0 x1 : Vec F S512x1 .f32) (x2 x3 : Vec F S1x512 .f32) (xo5 xo6 : Vec F S1x1 .f32) :
    outB6 c i arg2 harg2 arg3 harg3 arg4 harg4 arg5 harg5 arg6 harg6 arg7 harg7 arg8 harg8 hc1 hc2 x0 x1 x2 x3 xo5 xo6 = k0_pay3 (k0_pay10 x1 x3) (k0_pay11 i) (k0_pay12 i) xo6 := by
  unfold outB6
  rw [View.read_writes_eq_canon _ _ _ (coverB6 c i arg2 harg2 arg3 harg3 arg4 harg4 arg5 harg5 arg6 harg6 arg7 harg7 arg8 harg8 hc1 hc2 x0 x1 x2 x3 xo5 xo6)]
  unfold kernelRun_B
  dsimp only
  sl_unfold_words
  rw [View.canon_unit_zero hz]
  simp only [View.readAt_eq_ld, harg2.read_unread, harg3.read_unread, harg4.read_unread, harg5.read_unread, harg6.read_unread, harg7.read_unread, harg8.read_unread,
    View.ld_unit_zero (S := S512x1) hz, View.ld_unit_zero (S := S1x512) hz, View.ld_unit_zero (S := S1x1) hz]

theorem outC4_eq (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : k0_cond2 i = 1#1) (x0 x1 : Vec F S512x1 .f32) (x2 x3 : Vec F S1x512 .f32) (xo4 xo5 xo6 : Vec F S1x1 .f32) :
    outC4 c i arg2 harg2 arg3 harg3 arg4 harg4 arg5 harg5 arg6 harg6 arg7 harg7 arg8 harg8 hc1 hc2 x0 x1 x2 x3 xo4 xo5 xo6 = k0_pay4 (k0_pay8 x0) (k0_pay9 x1) xo4 := by
  unfold outC4
  rw [View.read_writes_eq_canon _ _ _ (coverC4 c i arg2 harg2 arg3 harg3 arg4 harg4 arg5 harg5 arg6 harg6 arg7 harg7 arg8 harg8 hc1 hc2 x0 x1 x2 x3 xo4 xo5 xo6)]
  unfold kernelRun_C
  dsimp only
  sl_unfold_words
  rw [View.canon_unit_zero hz]
  simp only [View.readAt_eq_ld, harg2.read_unread, harg3.read_unread, harg4.read_unread, harg5.read_unread, harg6.read_unread, harg7.read_unread, harg8.read_unread,
    View.ld_unit_zero (S := S512x1) hz, View.ld_unit_zero (S := S1x512) hz, View.ld_unit_zero (S := S1x1) hz]

theorem outC5_eq (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : k0_cond2 i = 1#1) (x0 x1 : Vec F S512x1 .f32) (x2 x3 : Vec F S1x512 .f32) (xo4 xo5 xo6 : Vec F S1x1 .f32) :
    outC5 c i arg2 harg2 arg3 harg3 arg4 harg4 arg5 harg5 arg6 harg6 arg7 harg7 arg8 harg8 hc1 hc2 x0 x1 x2 x3 xo4 xo5 xo6 = k0_pay2 (k0_pay10 x1 x3) (k0_pay11 i) (k0_pay12 i) (k0_pay13 x0 x1 x2 x3) (k0_pay14 (F := F)) xo5 := by
  unfold outC5
  rw [View.read_writes_eq_canon _ _ _ (coverC5 c i arg2 harg2 arg3 harg3 arg4 harg4 arg5 harg5 arg6 harg6 arg7 harg7 arg8 harg8 hc1 hc2 x0 x1 x2 x3 xo4 xo5 xo6)]
  unfold kernelRun_C
  dsimp only
  sl_unfold_words
  rw [View.canon_unit_zero hz]
  simp only [View.readAt_eq_ld, harg2.read_unread, harg3.read_unread, harg4.read_unread, harg5.read_unread, harg6.read_unread, harg7.read_unread, harg8.read_unread,
    View.ld_unit_zero (S := S512x1) hz, View.ld_unit_zero (S := S1x512) hz, View.ld_unit_zero (S := S1x1) hz]

theorem outC6_eq (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬k0_cond1 i = 1#1) (hc2 : k0_cond2 i = 1#1) (x0 x1 : Vec F S512x1 .f32) (x2 x3 : Vec F S1x512 .f32) (xo4 xo5 xo6 : Vec F S1x1 .f32) :
    outC6 c i arg2 harg2 arg3 harg3 arg4 harg4 arg5 harg5 arg6 harg6 arg7 harg7 arg8 harg8 hc1 hc2 x0 x1 x2 x3 xo4 xo5 xo6 = k0_pay3 (k0_pay10 x1 x3) (k0_pay11 i) (k0_pay12 i) xo6 := by
  unfold outC6
  rw [View.read_writes_eq_canon _ _ _ (coverC6 c i arg2 harg2 arg3 harg3 arg4 harg4 arg5 harg5 arg6 harg6 arg7 harg7 arg8 harg8 hc1 hc2 x0 x1 x2 x3 xo4 xo5 xo6)]
  unfold kernelRun_C
  dsimp only
  sl_unfold_words
  rw [View.canon_unit_zero hz]
  simp only [View.readAt_eq_ld, harg2.read_unread, harg3.read_unread, harg4.read_unread, harg5.read_unread, harg6.read_unread, harg7.read_unread, harg8.read_unread,
    View.ld_unit_zero (S := S512x1) hz, View.ld_unit_zero (S := S1x512) hz, View.ld_unit_zero (S := S1x1) hz]

theorem outA4_eq (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : k0_cond1 i = 1#1) (hc2 : k0_cond2 i = 1#1) (x0 x1 : Vec F S512x1 .f32) (x2 x3 : Vec F S1x512 .f32) :
    outA4 c i arg2 harg2 arg3 harg3 arg4 harg4 arg5 harg5 arg6 harg6 arg7 harg7 arg8 harg8 hc1 hc2 x0 x1 x2 x3 = k0_pay4 (k0_pay8 x0) (k0_pay9 x1) (k0_pay5 (F := F)) := by
  unfold outA4
  rw [View.read_writes_eq_canon _ _ _ (coverA4 c i arg2 harg2 arg3 harg3 arg4 harg4 arg5 harg5 arg6 harg6 arg7 harg7 arg8 harg8 hc1 hc2 x0 x1 x2 x3)]
  unfold kernelRun_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg7.read_unread, harg8.read_unread,
    View.ld_unit_zero (S := S512x1) hz, View.ld_unit_zero (S := S1x512) hz, View.ld_unit_zero (S := S1x1) hz]

theorem outA5_eq (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : k0_cond1 i = 1#1) (hc2 : k0_cond2 i = 1#1) (x0 x1 : Vec F S512x1 .f32) (x2 x3 : Vec F S1x512 .f32) :
    outA5 c i arg2 harg2 arg3 harg3 arg4 harg4 arg5 harg5 arg6 harg6 arg7 harg7 arg8 harg8 hc1 hc2 x0 x1 x2 x3 = k0_pay2 (k0_pay10 x1 x3) (k0_pay11 i) (k0_pay12 i) (k0_pay13 x0 x1 x2 x3) (k0_pay14 (F := F)) (k0_pay6 (F := F)) := by
  unfold outA5
  rw [View.read_writes_eq_canon _ _ _ (coverA5 c i arg2 harg2 arg3 harg3 arg4 harg4 arg5 harg5 arg6 harg6 arg7 harg7 arg8 harg8 hc1 hc2 x0 x1 x2 x3)]
  unfold kernelRun_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg7.read_unread, harg8.read_unread,
    View.ld_unit_zero (S := S512x1) hz, View.ld_unit_zero (S := S1x512) hz, View.ld_unit_zero (S := S1x1) hz]

theorem outA6_eq (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : k0_cond1 i = 1#1) (hc2 : k0_cond2 i = 1#1) (x0 x1 : Vec F S512x1 .f32) (x2 x3 : Vec F S1x512 .f32) :
    outA6 c i arg2 harg2 arg3 harg3 arg4 harg4 arg5 harg5 arg6 harg6 arg7 harg7 arg8 harg8 hc1 hc2 x0 x1 x2 x3 = k0_pay3 (k0_pay10 x1 x3) (k0_pay11 i) (k0_pay12 i) (k0_pay7 (F := F)) := by
  unfold outA6
  rw [View.read_writes_eq_canon _ _ _ (coverA6 c i arg2 harg2 arg3 harg3 arg4 harg4 arg5 harg5 arg6 harg6 arg7 harg7 arg8 harg8 hc1 hc2 x0 x1 x2 x3)]
  unfold kernelRun_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg7.read_unread, harg8.read_unread,
    View.ld_unit_zero (S := S512x1) hz, View.ld_unit_zero (S := S1x512) hz, View.ld_unit_zero (S := S1x1) hz]

end Pieces

end Cert.KernelIdeal.Hand

end
-- ==== Proof.PairSpec.lean ====
/-
  The pairwise ranking loss as mathematics, free of any program. For predictions `p` and targets `t` (8192 extended reals each):
  the mean squared error `(∑ k, (p k - t k)²) / 8192`; over the ordered pairs `r < c` with `t r ≠ t c` (the valid pairs) the hinge
  `max 0 (-(±1) · (p r - p c) + 0.1)`, the sign that of `t r - t c`; and the result: with no valid pair the mean squared error, else
  the mean squared error plus `0.1 ·` the hinges' sum divided by the number of valid pairs.
  The same three sums are also stated tile by tile, a 16 × 16 grid of 512 × 512 tiles: the form in which a blocked computation
  accumulates them. Sums of extended reals may be regrouped freely (addition is commutative and associative there), so the tiled
  and the whole forms agree with no finiteness assumption.
-/
import Idealize.ShloMosaic.PureOps.Ideal
import Idealize.ShloMosaic.PureOps.Ideal.Laws

noncomputable section

namespace Cert.PairSpec

open Idealize.ShloMosaic

/-- The float literals of the computation, as the extended reals their binary patterns denote: 1, -1, 0.1 (the margin and the
    ranking weight: one pattern), 8192. -/
abbrev c1 : EReal := Ideal.ofBits .f32 0x3F800000#32
abbrev cm1 : EReal := Ideal.ofBits .f32 0xBF800000#32
abbrev c01 : EReal := Ideal.ofBits .f32 0x3DCCCCCD#32
abbrev c8192 : EReal := Ideal.ofBits .f32 0x46000000#32

variable (p t : Fin 8192 → EReal)

/-- The squared error of entry `k`. -/
def sq (k : Fin 8192) : EReal := (p k - t k) * (p k - t k)

/-- The pair `(r, c)` counts: `r` before `c`, and their targets differ. -/
def valid (r c : Fin 8192) : Prop := r.val < c.val ∧ t r - t c ≠ 0

/-- `+1` where `t r > t c`, else `-1`. -/
def sgn (r c : Fin 8192) : EReal := if 0 < t r - t c then c1 else cm1

/-- The margin ranking hinge of the pair. -/
def hinge (r c : Fin 8192) : EReal := max 0 ((0 - sgn t r c) * (p r - p c) + c01)

open Classical in
/-- The hinge on the valid pairs, zero elsewhere. -/
def hm (r c : Fin 8192) : EReal := if valid t r c then hinge p t r c else 0

open Classical in
/-- One on the valid pairs, zero elsewhere. -/
def vf (r c : Fin 8192) : EReal := if valid t r c then 1 else 0

/-- The sum of the squared errors. -/
def sumSq : EReal := ∑ k, sq p t k

/-- The sum of the hinges over the valid pairs. -/
def sumRank : EReal := ∑ r, ∑ c, hm p t r c

open Classical in
/-- The number of valid pairs. -/
def count : ℕ := ∑ r : Fin 8192, ∑ c : Fin 8192, if valid t r c then 1 else 0

/-- The scalar end of the computation from the three sums `M` (squared errors), `R` (hinges), `N` (valid pairs). -/
def combine (M R N : EReal) : EReal :=
  if 0 < N then Ideal.div M c8192 + c01 * Ideal.div R (max N c1) else Ideal.div M c8192

/-- The loss. -/
def final : EReal := combine (sumSq p t) (sumRank p t) ((count t : ℝ) : EReal)

/-! ## Tile by tile -/

/-- Entry `r` of block `i` of 512 entries. -/
def at512 (i : Fin 16) (r : Fin 512) : Fin 8192 := ⟨512 * i.val + r.val, by omega⟩

/-- The squared errors of block `i`, summed. -/
def blockSq (i : Fin 16) : EReal := ∑ r : Fin 512, sq p t (at512 i r)

/-- The hinges of tile `(i, j)`, summed row by row. -/
def tileRank (i j : Fin 16) : EReal := ∑ r : Fin 512, ∑ c : Fin 512, hm p t (at512 i r) (at512 j c)

/-- The valid pairs of tile `(i, j)`, counted row by row as extended reals. -/
def tileCnt (i j : Fin 16) : EReal := ∑ r : Fin 512, ∑ c : Fin 512, vf t (at512 i r) (at512 j c)

/-- Row-major position `s` of the 16 × 16 grid: its row and its column. -/
def gi (s : Fin 256) : Fin 16 := ⟨s.val / 16, by omega⟩
def gj (s : Fin 256) : Fin 16 := ⟨s.val % 16, by omega⟩

end Cert.PairSpec

end
-- ==== Proof.PayValue.lean ====
/-
  The kernel's arithmetic read at an index. One grid point `(a, b)` of the 16 × 16 grid holds the predictions and targets of row block
  `a` as `[512, 1]` columns and those of column block `b` as `[1, 512]` rows. Read at entry `(r, c)` of the `[512, 512]` tile:
  the target difference is `t (512·a + r) - t (512·b + c)`; the two index words are `512·a + r` and `512·b + c`, both below `2^13`, so
  their signed comparison as 32-bit words is the comparison of naturals, and the mask — that comparison AND "the target difference is
  not zero" — is set exactly on the valid pairs; the masked hinge is `hm`, the mask converted to a float is `vf`. The two lane sums
  (along the columns, then along the rows), with the casts between them, add the tile's entries row by row. So the three stored values
  are what the accumulator held plus, respectively, the tile's hinges (`tileRank`), the tile's valid pairs (`tileCnt`) and the row
  block's squared errors (`blockSq`); and the three initial stores are zero.
-/
import proofs.«164654_j7060926235084_1_alg».proof.Proof.Gen.KernelIdeal.Skeleton
import proofs.«164654_j7060926235084_1_alg».proof.Proof.PairSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Idealize.ShloMosaic Idealize.ShloMosaic.ValueIdx Cert.KernelIdeal Cert.KernelIdeal.Gen
open scoped BigOperators

/-! ## Words: the index comparison and one-bit facts -/

/-- Below `2^31` the signed comparison of two 32-bit words is the comparison of the naturals they encode. -/
theorem slt_ofNat (m n : Nat) (hm : m < 2 ^ 31) (hn : n < 2 ^ 31) :
    (BitVec.ofNat 32 m).slt (BitVec.ofNat 32 n) = decide (m < n) := by
  have e : ∀ k : Nat, k < 2 ^ 31 → (BitVec.ofNat 32 k).toInt = (k : Int) := fun k hk => by
    have h1 : (BitVec.ofNat 32 k).toNat = k := by rw [BitVec.toNat_ofNat]; omega
    rw [BitVec.toInt_eq_toNat_of_lt (by rw [h1]; omega), h1]
  unfold BitVec.slt
  rw [e m hm, e n hn]
  exact decide_eq_decide.mpr (by omega)

/-- The conjunction of two decided bits. -/
theorem andi_ofBool (p q : Bool) : IntOp.andi (BitVec.ofBool p) (BitVec.ofBool q) = BitVec.ofBool (p && q) := by
  cases p <;> cases q <;> rfl

/-- A decided bit is set exactly when the decision is `true`. -/
theorem ofBool_eq_one (p : Bool) : BitVec.ofBool p = 1#1 ↔ p = true := by cases p <;> decide

/-- A select on a decided bit is the `if`. -/
theorem select_ofBool_decide {α : Type} (P : Prop) [Decidable P] (A B : α) :
    Scalar.select (BitVec.ofBool (decide P)) A B = if P then A else B := by
  by_cases h : P
  · rw [if_pos h, decide_eq_true h]; exact select_one A B
  · rw [if_neg h, decide_eq_false h]; exact select_zero A B

/-! ## Layout operations at an index -/

/-- A `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Every index of the `[1, 1]` shape is `(0, 0)`. -/
theorem idx11 (y : S1x1.Idx) : y = ix2 (0 : Fin 1) (0 : Fin 1) := by
  funext ax
  match ax with
  | ⟨0, _⟩ => exact Subsingleton.elim (α := Fin 1) _ _
  | ⟨1, _⟩ => exact Subsingleton.elim (α := Fin 1) _ _

/-! ## The lane sums -/

/-- The sum along the second axis of a `[512, 512]` vector at row `r`. -/
theorem rowSum_apply (src : FVec Ideal S512x512 .f32) (hφ : FKind.Formats .f32)
    (hacc : (0x00000000#32 : BitVec 32) = FKind.add.neutral .f32 hφ) (r : Fin 512) :
    multiReduction (F := Ideal) .add [1] S512 src 0x00000000#32 reduces_S512x512_S512 hφ hacc (ix1 r)
      = ∑ c : Fin 512, src (ix2 r c) := by
  refine (Ideal.multiReduction_add_single src _ reduces_S512x512_S512 hφ hacc (ix1 r)).trans ?_
  refine Finset.sum_congr rfl fun c _ => congrArg src ?_
  funext ax
  match ax with
  | ⟨0, _⟩ => rfl
  | ⟨1, _⟩ => rfl

/-- The sum along the first axis of a `[512, 1]` vector. -/
theorem colSum_apply (src : FVec Ideal S512x1 .f32) (hφ : FKind.Formats .f32)
    (hacc : (0x00000000#32 : BitVec 32) = FKind.add.neutral .f32 hφ) (u : Fin 1) :
    multiReduction (F := Ideal) .add [0] S1 src 0x00000000#32 reduces_S512x1_S1 hφ hacc (ix1 u)
      = ∑ r : Fin 512, src (ix2 r (0 : Fin 1)) := by
  refine (Ideal.multiReduction_add_single src _ reduces_S512x1_S1 hφ hacc (ix1 u)).trans ?_
  refine Finset.sum_congr rfl fun r _ => congrArg src ?_
  funext ax
  match ax with
  | ⟨0, _⟩ => rfl
  | ⟨1, _⟩ => exact Subsingleton.elim (α := Fin 1) _ _

/-! ## The index words and the target difference -/

/-- The row index word at `(r, c)`: 512 times the first grid coordinate plus `r`. -/
theorem pay11_apply (i : grid0.Coords) (r c : Fin 512) :
    k0_pay11 i (ix2 r c) = BitVec.ofNat 32 ((i 0).val * 512 + r.val) := by
  unfold k0_pay11
  show IntOp.addi (Scalar.muli (BitVec.ofNat 32 (i 0).val) 512#32) (iota .tc S512x512 32 [0] iota_S512x512_d0_w32 (ix2 r c)) = _
  rw [iota_single_apply]
  show BitVec.ofNat 32 (i 0).val * BitVec.ofNat 32 512 + BitVec.ofNat 32 r.val = _
  rw [BitVec.ofNat_mul_ofNat, BitVec.ofNat_add_ofNat]

/-- The column index word at `(r, c)`: 512 times the second grid coordinate plus `c`. -/
theorem pay12_apply (i : grid0.Coords) (r c : Fin 512) :
    k0_pay12 i (ix2 r c) = BitVec.ofNat 32 ((i 1).val * 512 + c.val) := by
  unfold k0_pay12
  show IntOp.addi (Scalar.muli (BitVec.ofNat 32 (i 1).val) 512#32) (iota .tc S512x512 32 [1] iota_S512x512_d1_w32 (ix2 r c)) = _
  rw [iota_single_apply]
  show BitVec.ofNat 32 (i 1).val * BitVec.ofNat 32 512 + BitVec.ofNat 32 c.val = _
  rw [BitVec.ofNat_mul_ofNat, BitVec.ofNat_add_ofNat]

/-- The difference of a column vector and a row vector, both broadcast to the tile, at `(r, c)`. -/
theorem pay10_apply (x1 : Vec Ideal S512x1 .f32) (x3 : Vec Ideal S1x512 .f32) (r c : Fin 512) :
    k0_pay10 (F := Ideal) x1 x3 (ix2 r c) = x1 (ix2 r (0 : Fin 1)) - x3 (ix2 (0 : Fin 1) c) := by
  unfold k0_pay10 k0_pay9
  show broadcastTo S512x512 (shapeCast S512x1 x1 shapeCasts_S512x1_S512x1) broadcasts_S512x1_S512x512 (ix2 r c)
      - broadcastTo S512x512 (shapeCast S1x512 x3 shapeCasts_S1x512_S1x512) broadcasts_S1x512_S512x512 (ix2 r c) = _
  rw [shapeCast_self, shapeCast_self, broadcastTo_a1_ab_apply, broadcastTo_1b_ab_apply]

/-- Both lane sums of a `[512, 512]` vector, with the two casts between and after them: the sum over the tile, row by row. -/
theorem tileSum_apply (src : FVec Ideal S512x512 .f32) (hφ hφ' : FKind.Formats .f32)
    (hacc : (0x00000000#32 : BitVec 32) = FKind.add.neutral .f32 hφ)
    (hacc' : (0x00000000#32 : BitVec 32) = FKind.add.neutral .f32 hφ') (u v : Fin 1) :
    shapeCast S1x1 (multiReduction (F := Ideal) .add [0] S1
        (shapeCast S512x1 (multiReduction (F := Ideal) .add [1] S512 src 0x00000000#32 reduces_S512x512_S512 hφ hacc)
          shapeCasts_S512_S512x1) 0x00000000#32 reduces_S512x1_S1 hφ' hacc') shapeCasts_S1_S1x1 (ix2 u v)
      = ∑ r : Fin 512, ∑ c : Fin 512, src (ix2 r c) := by
  refine (shapeCast_a_1a_apply _ shapeCasts_S1_S1x1 u v).trans ?_
  refine (colSum_apply _ hφ' hacc' v).trans ?_
  refine Finset.sum_congr rfl fun r _ => ?_
  refine (shapeCast_a_a1_apply _ shapeCasts_S512_S512x1 r (0 : Fin 1)).trans ?_
  exact rowSum_apply src hφ hacc r

section Tile

variable (p t : Fin 8192 → EReal) (a b : Fin 16) (i : grid0.Coords)
  (x0 x1 : Vec Ideal S512x1 .f32) (x2 x3 : Vec Ideal S1x512 .f32)

/-- THE MASK at `(r, c)`: set exactly on the valid pairs — the row's global index is before the column's, and the targets
    differ. The two index words are below `2^13`, so the signed comparison of words is the comparison of naturals. -/
theorem pay1_iff (hi0 : (i 0).val = a.val) (hi1 : (i 1).val = b.val)
    (h1 : ∀ r : Fin 512, x1 (ix2 r (0 : Fin 1)) = t (Cert.PairSpec.at512 a r))
    (h3 : ∀ c : Fin 512, x3 (ix2 (0 : Fin 1) c) = t (Cert.PairSpec.at512 b c)) (r c : Fin 512) :
    k0_pay1 (F := Ideal) (k0_pay10 x1 x3) (k0_pay11 i) (k0_pay12 i) (ix2 r c) = 1#1
      ↔ Cert.PairSpec.valid t (Cert.PairSpec.at512 a r) (Cert.PairSpec.at512 b c) := by
  unfold k0_pay1
  show IntOp.andi (IntOp.cmpi .slt (k0_pay11 i (ix2 r c)) (k0_pay12 i (ix2 r c)))
      (Ideal.cmp .one (k0_pay10 (F := Ideal) x1 x3 (ix2 r c)) (Ideal.ofBits .f32 0x00000000#32)) = 1#1 ↔ _
  rw [pay11_apply, pay12_apply, pay10_apply, h1, h3, Ideal.ofBits_zero_f32, hi0, hi1]
  have ha := a.isLt
  have hb := b.isLt
  have hr := r.isLt
  have hc := c.isLt
  show IntOp.andi (BitVec.ofBool ((BitVec.ofNat 32 (a.val * 512 + r.val)).slt (BitVec.ofNat 32 (b.val * 512 + c.val))))
      (BitVec.ofBool (decide (t (Cert.PairSpec.at512 a r) - t (Cert.PairSpec.at512 b c) ≠ 0))) = 1#1 ↔ _
  rw [slt_ofNat _ _ (by omega) (by omega), andi_ofBool, ofBool_eq_one, Bool.and_eq_true, decide_eq_true_iff, decide_eq_true_iff]
  show _ ↔ (512 * a.val + r.val < 512 * b.val + c.val ∧ _)
  exact ⟨fun h => ⟨by omega, h.2⟩, fun h => ⟨by omega, h.2⟩⟩

/-- The hinge's inside at `(r, c)`. -/
theorem pay13_apply
    (h0 : ∀ r : Fin 512, x0 (ix2 r (0 : Fin 1)) = p (Cert.PairSpec.at512 a r))
    (h1 : ∀ r : Fin 512, x1 (ix2 r (0 : Fin 1)) = t (Cert.PairSpec.at512 a r))
    (h2 : ∀ c : Fin 512, x2 (ix2 (0 : Fin 1) c) = p (Cert.PairSpec.at512 b c))
    (h3 : ∀ c : Fin 512, x3 (ix2 (0 : Fin 1) c) = t (Cert.PairSpec.at512 b c)) (r c : Fin 512) :
    k0_pay13 (F := Ideal) x0 x1 x2 x3 (ix2 r c)
      = (0 - Cert.PairSpec.sgn t (Cert.PairSpec.at512 a r) (Cert.PairSpec.at512 b c))
          * (p (Cert.PairSpec.at512 a r) - p (Cert.PairSpec.at512 b c)) + Cert.PairSpec.c01 := by
  unfold k0_pay13 k0_pay8
  show (Ideal.ofBits .f32 0x00000000#32
        - Scalar.select (Ideal.cmp .ogt (k0_pay10 (F := Ideal) x1 x3 (ix2 r c)) (Ideal.ofBits .f32 0x00000000#32))
            (Ideal.ofBits .f32 0x3F800000#32) (Ideal.ofBits .f32 0xBF800000#32))
      * (broadcastTo S512x512 (shapeCast S512x1 x0 shapeCasts_S512x1_S512x1) broadcasts_S512x1_S512x512 (ix2 r c)
        - broadcastTo S512x512 (shapeCast S1x512 x2 shapeCasts_S1x512_S1x512) broadcasts_S1x512_S512x512 (ix2 r c))
      + Ideal.ofBits .f32 0x3DCCCCCD#32 = _
  rw [pay10_apply, shapeCast_self, shapeCast_self, broadcastTo_a1_ab_apply, broadcastTo_1b_ab_apply, h0, h1, h2, h3,
    Ideal.ofBits_zero_f32]
  show (0 - Scalar.select (BitVec.ofBool (decide (0 < t (Cert.PairSpec.at512 a r) - t (Cert.PairSpec.at512 b c))))
      (Ideal.ofBits .f32 0x3F800000#32) (Ideal.ofBits .f32 0xBF800000#32)) * _ + _ = _
  rw [select_ofBool_decide]
  rfl

end Tile

section Main

variable (p t : Fin 8192 → EReal) (a b : Fin 16) (i : grid0.Coords)
  (x0 x1 : Vec Ideal S512x1 .f32) (x2 x3 : Vec Ideal S1x512 .f32)

/-- The masked hinge at `(r, c)`: the hinge on the valid pairs, zero elsewhere. -/
theorem rank_entry (hi0 : (i 0).val = a.val) (hi1 : (i 1).val = b.val)
    (h0 : ∀ r : Fin 512, x0 (ix2 r (0 : Fin 1)) = p (Cert.PairSpec.at512 a r))
    (h1 : ∀ r : Fin 512, x1 (ix2 r (0 : Fin 1)) = t (Cert.PairSpec.at512 a r))
    (h2 : ∀ c : Fin 512, x2 (ix2 (0 : Fin 1) c) = p (Cert.PairSpec.at512 b c))
    (h3 : ∀ c : Fin 512, x3 (ix2 (0 : Fin 1) c) = t (Cert.PairSpec.at512 b c)) (r c : Fin 512) :
    select (k0_pay1 (F := Ideal) (k0_pay10 x1 x3) (k0_pay11 i) (k0_pay12 i))
        (maximumf (k0_pay14 (F := Ideal)) (k0_pay13 (F := Ideal) x0 x1 x2 x3))
        (broadcast S512x512 (Scalar.ofBits (F := Ideal) .f32 0x00000000#32)) (ix2 r c)
      = Cert.PairSpec.hm p t (Cert.PairSpec.at512 a r) (Cert.PairSpec.at512 b c) := by
  rw [select_apply, maximumf_apply, pay13_apply p t a b x0 x1 x2 x3 h0 h1 h2 h3, broadcast_apply]
  unfold k0_pay14
  show Scalar.select _ (max (Ideal.ofBits .f32 0x00000000#32) _) (Ideal.ofBits .f32 0x00000000#32) = _
  rw [Ideal.ofBits_zero_f32]
  unfold Cert.PairSpec.hm Cert.PairSpec.hinge
  by_cases hv : Cert.PairSpec.valid t (Cert.PairSpec.at512 a r) (Cert.PairSpec.at512 b c)
  · rw [if_pos hv, (pay1_iff t a b i x1 x3 hi0 hi1 h1 h3 r c).mpr hv]
    exact select_one _ _
  · rw [if_neg hv, eq_zero_of_ne_one fun h => hv ((pay1_iff t a b i x1 x3 hi0 hi1 h1 h3 r c).mp h)]
    exact select_zero _ _

/-- The mask widened and converted at `(r, c)`: one on the valid pairs, zero elsewhere. -/
theorem cnt_entry (hi0 : (i 0).val = a.val) (hi1 : (i 1).val = b.val)
    (h1 : ∀ r : Fin 512, x1 (ix2 r (0 : Fin 1)) = t (Cert.PairSpec.at512 a r))
    (h3 : ∀ c : Fin 512, x3 (ix2 (0 : Fin 1) c) = t (Cert.PairSpec.at512 b c)) (r c : Fin 512) :
    (sitofp .f32 (extui 32 (k0_pay1 (F := Ideal) (k0_pay10 x1 x3) (k0_pay11 i) (k0_pay12 i)) natLt_1_32)
        : FVec Ideal S512x512 .f32) (ix2 r c)
      = Cert.PairSpec.vf t (Cert.PairSpec.at512 a r) (Cert.PairSpec.at512 b c) := by
  rw [sitofp_apply, extui_apply]
  show (((BitVec.setWidth 32 (k0_pay1 (F := Ideal) (k0_pay10 x1 x3) (k0_pay11 i) (k0_pay12 i) (ix2 r c))).toInt : ℝ) : EReal) = _
  unfold Cert.PairSpec.vf
  by_cases hv : Cert.PairSpec.valid t (Cert.PairSpec.at512 a r) (Cert.PairSpec.at512 b c)
  · rw [if_pos hv, (pay1_iff t a b i x1 x3 hi0 hi1 h1 h3 r c).mpr hv]
    have e : ((1#1 : BitVec 1).setWidth 32).toInt = 1 := by decide
    rw [e, Int.cast_one, EReal.coe_one]
  · rw [if_neg hv, eq_zero_of_ne_one fun h => hv ((pay1_iff t a b i x1 x3 hi0 hi1 h1 h3 r c).mp h)]
    have e : ((0#1 : BitVec 1).setWidth 32).toInt = 0 := by decide
    rw [e, Int.cast_zero, EReal.coe_zero]

/-- The ranking accumulator after tile `(a, b)`: what it held plus the tile's masked hinges. -/
theorem pay2_eq (hi0 : (i 0).val = a.val) (hi1 : (i 1).val = b.val)
    (h0 : ∀ r : Fin 512, x0 (ix2 r (0 : Fin 1)) = p (Cert.PairSpec.at512 a r))
    (h1 : ∀ r : Fin 512, x1 (ix2 r (0 : Fin 1)) = t (Cert.PairSpec.at512 a r))
    (h2 : ∀ c : Fin 512, x2 (ix2 (0 : Fin 1) c) = p (Cert.PairSpec.at512 b c))
    (h3 : ∀ c : Fin 512, x3 (ix2 (0 : Fin 1) c) = t (Cert.PairSpec.at512 b c))
    (acc : Vec Ideal S1x1 .f32) (y : S1x1.Idx) :
    k0_pay2 (F := Ideal) (k0_pay10 x1 x3) (k0_pay11 i) (k0_pay12 i) (k0_pay13 x0 x1 x2 x3) (k0_pay14 (F := Ideal)) acc y
      = acc (ix2 (0 : Fin 1) (0 : Fin 1)) + Cert.PairSpec.tileRank p t a b := by
  obtain rfl := idx11 y
  unfold k0_pay2
  show shapeCast S1x1 acc shapeCasts_S1x1_S1x1 (ix2 (0 : Fin 1) (0 : Fin 1))
      + shapeCast S1x1 (multiReduction (F := Ideal) .add [0] S1
          (shapeCast S512x1 (multiReduction (F := Ideal) .add [1] S512
              (select (k0_pay1 (F := Ideal) (k0_pay10 x1 x3) (k0_pay11 i) (k0_pay12 i))
                (maximumf (k0_pay14 (F := Ideal)) (k0_pay13 (F := Ideal) x0 x1 x2 x3))
                (broadcast S512x512 (Scalar.ofBits (F := Ideal) .f32 0x00000000#32)))
              0x00000000#32 reduces_S512x512_S512 (.inl rfl) rfl)
            shapeCasts_S512_S512x1) 0x00000000#32 reduces_S512x1_S1 (.inl rfl) rfl) shapeCasts_S1_S1x1
          (ix2 (0 : Fin 1) (0 : Fin 1)) = _
  rw [shapeCast_self]
  refine congrArg (acc (ix2 (0 : Fin 1) (0 : Fin 1)) + ·) ((tileSum_apply _ _ _ _ _ 0 0).trans ?_)
  unfold Cert.PairSpec.tileRank
  exact Finset.sum_congr rfl fun r _ => Finset.sum_congr rfl fun c _ =>
    rank_entry p t a b i x0 x1 x2 x3 hi0 hi1 h0 h1 h2 h3 r c

/-- The count accumulator after tile `(a, b)`: what it held plus the tile's valid pairs. -/
theorem pay3_eq (hi0 : (i 0).val = a.val) (hi1 : (i 1).val = b.val)
    (h1 : ∀ r : Fin 512, x1 (ix2 r (0 : Fin 1)) = t (Cert.PairSpec.at512 a r))
    (h3 : ∀ c : Fin 512, x3 (ix2 (0 : Fin 1) c) = t (Cert.PairSpec.at512 b c))
    (acc : Vec Ideal S1x1 .f32) (y : S1x1.Idx) :
    k0_pay3 (F := Ideal) (k0_pay10 x1 x3) (k0_pay11 i) (k0_pay12 i) acc y
      = acc (ix2 (0 : Fin 1) (0 : Fin 1)) + Cert.PairSpec.tileCnt t a b := by
  obtain rfl := idx11 y
  unfold k0_pay3
  show shapeCast S1x1 acc shapeCasts_S1x1_S1x1 (ix2 (0 : Fin 1) (0 : Fin 1))
      + shapeCast S1x1 (multiReduction (F := Ideal) .add [0] S1
          (shapeCast S512x1 (multiReduction (F := Ideal) .add [1] S512
              (sitofp .f32 (extui 32 (k0_pay1 (F := Ideal) (k0_pay10 x1 x3) (k0_pay11 i) (k0_pay12 i)) natLt_1_32)
                : FVec Ideal S512x512 .f32)
              0x00000000#32 reduces_S512x512_S512 (.inl rfl) rfl)
            shapeCasts_S512_S512x1) 0x00000000#32 reduces_S512x1_S1 (.inl rfl) rfl) shapeCasts_S1_S1x1
          (ix2 (0 : Fin 1) (0 : Fin 1)) = _
  rw [shapeCast_self]
  refine congrArg (acc (ix2 (0 : Fin 1) (0 : Fin 1)) + ·) ((tileSum_apply _ _ _ _ _ 0 0).trans ?_)
  unfold Cert.PairSpec.tileCnt
  exact Finset.sum_congr rfl fun r _ => Finset.sum_congr rfl fun c _ =>
    cnt_entry t a b i x1 x3 hi0 hi1 h1 h3 r c

/-- The squared-error accumulator after row block `a`: what it held plus the block's squared errors. -/
theorem pay4_eq
    (h0 : ∀ r : Fin 512, x0 (ix2 r (0 : Fin 1)) = p (Cert.PairSpec.at512 a r))
    (h1 : ∀ r : Fin 512, x1 (ix2 r (0 : Fin 1)) = t (Cert.PairSpec.at512 a r))
    (acc : Vec Ideal S1x1 .f32) (y : S1x1.Idx) :
    k0_pay4 (F := Ideal) (k0_pay8 x0) (k0_pay9 x1) acc y
      = acc (ix2 (0 : Fin 1) (0 : Fin 1)) + Cert.PairSpec.blockSq p t a := by
  obtain rfl := idx11 y
  unfold k0_pay4 k0_pay8 k0_pay9
  show shapeCast S1x1 acc shapeCasts_S1x1_S1x1 (ix2 (0 : Fin 1) (0 : Fin 1))
      + shapeCast S1x1 (multiReduction (F := Ideal) .add [0] S1
          (mulf (subf (shapeCast S512x1 x0 shapeCasts_S512x1_S512x1) (shapeCast S512x1 x1 shapeCasts_S512x1_S512x1))
            (subf (shapeCast S512x1 x0 shapeCasts_S512x1_S512x1) (shapeCast S512x1 x1 shapeCasts_S512x1_S512x1)))
          0x00000000#32 reduces_S512x1_S1 (.inl rfl) rfl) shapeCasts_S1_S1x1 (ix2 (0 : Fin 1) (0 : Fin 1)) = _
  rw [shapeCast_self, shapeCast_self, shapeCast_self]
  refine congrArg (acc (ix2 (0 : Fin 1) (0 : Fin 1)) + ·) ?_
  refine (shapeCast_a_1a_apply _ shapeCasts_S1_S1x1 0 0).trans ?_
  refine (colSum_apply _ _ _ 0).trans ?_
  unfold Cert.PairSpec.blockSq Cert.PairSpec.sq
  refine Finset.sum_congr rfl fun r _ => ?_
  show (x0 (ix2 r (0 : Fin 1)) - x1 (ix2 r (0 : Fin 1))) * (x0 (ix2 r (0 : Fin 1)) - x1 (ix2 r (0 : Fin 1))) = _
  rw [h0, h1]

/-- The three accumulators start at zero. -/
theorem pay5_eq (y : S1x1.Idx) : k0_pay5 (F := Ideal) y = 0 := Ideal.ofBits_zero_f32
theorem pay6_eq (y : S1x1.Idx) : k0_pay6 (F := Ideal) y = 0 := Ideal.ofBits_zero_f32
theorem pay7_eq (y : S1x1.Idx) : k0_pay7 (F := Ideal) y = 0 := Ideal.ofBits_zero_f32

end Main
end Cert.KernelIdeal.PayValue

end
-- ==== Proof.BlockRead.lean ====
/-
  The four input blocks of the blocked pairwise computation, read off the launch arguments. The launch reshapes the
  predictions (8192 numbers) to a column `[8192, 1]` and to a row `[1, 8192]`, and the targets likewise; the 16 × 16 grid is
  walked row-major, point `t` standing at block row `t / 16` and block column `t % 16`; there the column windows hold rows
  `512 * (t / 16) + r` and the row windows hold columns `512 * (t % 16) + q`. Hence each block entry is an entry of the
  predictions or of the targets: a block's coordinate is its block index times the block size plus the coordinate inside
  the block, and a reshape keeps the row-major position.
-/
import proofs.«164654_j7060926235084_1_alg».proof.Proof.Gen.KernelIdeal.Frame
import proofs.«164654_j7060926235084_1_alg».proof.Proof.PairSpec
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.SL.Sem

namespace Cert.KernelIdeal.BlockRead

open Cert.KernelIdeal Cert.KernelIdeal.Gen Cert.PairSpec Idealize.ShloMosaic.ValueIdx

variable {F : FTy → Type} [FloatOps F]
variable (m : (ℓ : Loc nD τ sig) → Buf (Elt F) ℓ)

/-- The windows' block indices at grid point `t`: the column windows stand at block row `t / 16`, the row windows at block
    column `t % 16`. -/
theorem idx_facts : ∀ t : Fin cfg0.N,
    win0_0.index t (0 : Fin 2) = t.val / 16 ∧ win0_0.index t (1 : Fin 2) = 0
    ∧ win0_1.index t (0 : Fin 2) = t.val / 16 ∧ win0_1.index t (1 : Fin 2) = 0
    ∧ win0_2.index t (0 : Fin 2) = 0 ∧ win0_2.index t (1 : Fin 2) = t.val % 16
    ∧ win0_3.index t (0 : Fin 2) = 0 ∧ win0_3.index t (1 : Fin 2) = t.val % 16 :=
  (by decide +kernel : ∀ t : Fin grid0.N, _)

/-- The grid is walked row-major: point `t` has coordinates `(t / 16, t % 16)`. -/
theorem coords_facts : ∀ t : Fin cfg0.N, ((grid0.coords t) 0).val = t.val / 16 ∧ ((grid0.coords t) 1).val = t.val % 16 :=
  (by decide +kernel : ∀ t : Fin grid0.N, _)

/-- Point `t`'s grid coordinates are the row and the column of row-major position `t`. -/
theorem coords_eq (t : Fin cfg0.N) (s : Fin 256) (hs : s.val = t.val) :
    ((grid0.coords t) 0).val = (gi s).val ∧ ((grid0.coords t) 1).val = (gj s).val := by
  obtain ⟨h0, h1⟩ := coords_facts t
  refine ⟨?_, ?_⟩
  · show _ = s.val / 16
    rw [h0, hs]
  · show _ = s.val % 16
    rw [h1, hs]

/-! ## The arrays the region finds: the launch's arguments reshaped -/

/-- A vector of `a` entries reshaped to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The column the region finds behind window 0 is the predictions reshaped. -/
theorem V_main_v0 (c : Dev nD) : (V m c main_v0 : S8192x1.Idx → Elt F .f32)
    = shapeCast S8192x1 (m ((c.tc : Thread nD τ).loc main_arg0)) shapeCasts_S8192_S8192x1 := by
  show StableHlo.after hostOps0 (fun b => m (c, b)) (Proc.devRef .tc main_v0) = _
  after_results
  rfl

/-- The column the region finds behind window 1 is the targets reshaped. -/
theorem V_main_v1 (c : Dev nD) : (V m c main_v1 : S8192x1.Idx → Elt F .f32)
    = shapeCast S8192x1 (m ((c.tc : Thread nD τ).loc main_arg1)) shapeCasts_S8192_S8192x1 := by
  show StableHlo.after hostOps0 (fun b => m (c, b)) (Proc.devRef .tc main_v1) = _
  after_results
  rfl

/-- The row the region finds behind window 2 is the predictions reshaped. -/
theorem V_main_v2 (c : Dev nD) : (V m c main_v2 : S1x8192.Idx → Elt F .f32)
    = shapeCast S1x8192 (m ((c.tc : Thread nD τ).loc main_arg0)) shapeCasts_S8192_S1x8192 := by
  show StableHlo.after hostOps0 (fun b => m (c, b)) (Proc.devRef .tc main_v2) = _
  after_results
  rfl

/-- The row the region finds behind window 3 is the targets reshaped. -/
theorem V_main_v3 (c : Dev nD) : (V m c main_v3 : S1x8192.Idx → Elt F .f32)
    = shapeCast S1x8192 (m ((c.tc : Thread nD τ).loc main_arg1)) shapeCasts_S8192_S1x8192 := by
  show StableHlo.after hostOps0 (fun b => m (c, b)) (Proc.devRef .tc main_v3) = _
  after_results
  rfl

/-! ## A block entry is an entry of its array: block index times block size plus the coordinate inside the block -/

/-- Window 0's block at point `t` holds rows `512 * (t / 16) + ·` of its column. -/
theorem iblk0_at (c : Dev nD) (t : Fin cfg0.N) (x : S512x1.Idx) (k : S8192x1.Idx)
    (hk0 : (k 0).val = 512 * (t.val / 16) + (x 0).val) (hk1 : (k 1).val = (x 1).val) :
    (iblk m c 0 t : Vec F S512x1 .f32) x = (V m c main_v0 : S8192x1.Idx → Elt F .f32) k := by
  obtain ⟨e0, e1, -⟩ := idx_facts t
  unfold iblk
  rw [View.read_apply]
  show V m c main_v0 _ = V m c main_v0 _
  congr 1
  funext a
  apply Fin.ext
  match a with
  | ⟨0, _⟩ => show win0_0.index t 0 * 512 + 1 * (x 0).val = (k 0).val; rw [e0, hk0]; omega
  | ⟨1, _⟩ => show win0_0.index t 1 * 1 + 1 * (x 1).val = (k 1).val; rw [e1, hk1]; omega

/-- Window 1's block at point `t` holds rows `512 * (t / 16) + ·` of its column. -/
theorem iblk1_at (c : Dev nD) (t : Fin cfg0.N) (x : S512x1.Idx) (k : S8192x1.Idx)
    (hk0 : (k 0).val = 512 * (t.val / 16) + (x 0).val) (hk1 : (k 1).val = (x 1).val) :
    (iblk m c 1 t : Vec F S512x1 .f32) x = (V m c main_v1 : S8192x1.Idx → Elt F .f32) k := by
  obtain ⟨-, -, e0, e1, -⟩ := idx_facts t
  unfold iblk
  rw [View.read_apply]
  show V m c main_v1 _ = V m c main_v1 _
  congr 1
  funext a
  apply Fin.ext
  match a with
  | ⟨0, _⟩ => show win0_1.index t 0 * 512 + 1 * (x 0).val = (k 0).val; rw [e0, hk0]; omega
  | ⟨1, _⟩ => show win0_1.index t 1 * 1 + 1 * (x 1).val = (k 1).val; rw [e1, hk1]; omega

/-- Window 2's block at point `t` holds columns `512 * (t % 16) + ·` of its row. -/
theorem iblk2_at (c : Dev nD) (t : Fin cfg0.N) (x : S1x512.Idx) (k : S1x8192.Idx)
    (hk0 : (k 0).val = (x 0).val) (hk1 : (k 1).val = 512 * (t.val % 16) + (x 1).val) :
    (iblk m c 2 t : Vec F S1x512 .f32) x = (V m c main_v2 : S1x8192.Idx → Elt F .f32) k := by
  obtain ⟨-, -, -, -, e0, e1, -⟩ := idx_facts t
  unfold iblk
  rw [View.read_apply]
  show V m c main_v2 _ = V m c main_v2 _
  congr 1
  funext a
  apply Fin.ext
  match a with
  | ⟨0, _⟩ => show win0_2.index t 0 * 1 + 1 * (x 0).val = (k 0).val; rw [e0, hk0]; omega
  | ⟨1, _⟩ => show win0_2.index t 1 * 512 + 1 * (x 1).val = (k 1).val; rw [e1, hk1]; omega

/-- Window 3's block at point `t` holds columns `512 * (t % 16) + ·` of its row. -/
theorem iblk3_at (c : Dev nD) (t : Fin cfg0.N) (x : S1x512.Idx) (k : S1x8192.Idx)
    (hk0 : (k 0).val = (x 0).val) (hk1 : (k 1).val = 512 * (t.val % 16) + (x 1).val) :
    (iblk m c 3 t : Vec F S1x512 .f32) x = (V m c main_v3 : S1x8192.Idx → Elt F .f32) k := by
  obtain ⟨-, -, -, -, -, -, e0, e1⟩ := idx_facts t
  unfold iblk
  rw [View.read_apply]
  show V m c main_v3 _ = V m c main_v3 _
  congr 1
  funext a
  apply Fin.ext
  match a with
  | ⟨0, _⟩ => show win0_3.index t 0 * 1 + 1 * (x 0).val = (k 0).val; rw [e0, hk0]; omega
  | ⟨1, _⟩ => show win0_3.index t 1 * 512 + 1 * (x 1).val = (k 1).val; rw [e1, hk1]; omega

/-! ## The blocks as entries of the predictions and of the targets -/

/-- Entry `r` of window 0's block at point `t` is prediction `512 * (t / 16) + r`. -/
theorem iblk0_apply (c : Dev nD) (t : Fin cfg0.N) (s : Fin 256) (hs : s.val = t.val) (r : Fin 512) :
    (iblk m c 0 t : Vec F S512x1 .f32) (ix2 r 0)
      = (m ((c.tc : Thread nD τ).loc main_arg0) : S8192.Idx → Elt F .f32) (ix1 (at512 (gi s) r)) := by
  refine (iblk0_at m c t (ix2 r 0) (ix2 (at512 (gi s) r) 0) ?_ rfl).trans ?_
  · show 512 * (s.val / 16) + r.val = 512 * (t.val / 16) + r.val
    rw [hs]
  · rw [V_main_v0]
    exact shapeCast_a_a1_apply _ _ _ _

/-- Entry `r` of window 1's block at point `t` is target `512 * (t / 16) + r`. -/
theorem iblk1_apply (c : Dev nD) (t : Fin cfg0.N) (s : Fin 256) (hs : s.val = t.val) (r : Fin 512) :
    (iblk m c 1 t : Vec F S512x1 .f32) (ix2 r 0)
      = (m ((c.tc : Thread nD τ).loc main_arg1) : S8192.Idx → Elt F .f32) (ix1 (at512 (gi s) r)) := by
  refine (iblk1_at m c t (ix2 r 0) (ix2 (at512 (gi s) r) 0) ?_ rfl).trans ?_
  · show 512 * (s.val / 16) + r.val = 512 * (t.val / 16) + r.val
    rw [hs]
  · rw [V_main_v1]
    exact shapeCast_a_a1_apply _ _ _ _

/-- Entry `q` of window 2's block at point `t` is prediction `512 * (t % 16) + q`. -/
theorem iblk2_apply (c : Dev nD) (t : Fin cfg0.N) (s : Fin 256) (hs : s.val = t.val) (q : Fin 512) :
    (iblk m c 2 t : Vec F S1x512 .f32) (ix2 0 q)
      = (m ((c.tc : Thread nD τ).loc main_arg0) : S8192.Idx → Elt F .f32) (ix1 (at512 (gj s) q)) := by
  refine (iblk2_at m c t (ix2 0 q) (ix2 0 (at512 (gj s) q)) rfl ?_).trans ?_
  · show 512 * (s.val % 16) + q.val = 512 * (t.val % 16) + q.val
    rw [hs]
  · rw [V_main_v2]
    exact shapeCast_a_1a_apply _ _ _ _

/-- Entry `q` of window 3's block at point `t` is target `512 * (t % 16) + q`. -/
theorem iblk3_apply (c : Dev nD) (t : Fin cfg0.N) (s : Fin 256) (hs : s.val = t.val) (q : Fin 512) :
    (iblk m c 3 t : Vec F S1x512 .f32) (ix2 0 q)
      = (m ((c.tc : Thread nD τ).loc main_arg1) : S8192.Idx → Elt F .f32) (ix1 (at512 (gj s) q)) := by
  refine (iblk3_at m c t (ix2 0 q) (ix2 0 (at512 (gj s) q)) rfl ?_).trans ?_
  · show 512 * (s.val % 16) + q.val = 512 * (t.val % 16) + q.val
    rw [hs]
  · rw [V_main_v3]
    exact shapeCast_a_1a_apply _ _ _ _

end Cert.KernelIdeal.BlockRead

end
-- ==== Proof.KClosedI.lean ====
/-
  The three accumulators of the pairwise ranking loss kernel in closed form, at the extended reals. With `p`, `t` the two
  argument arrays read as functions on 8192 entries: after grid point `n` (row-major in a 16 × 16 grid of 512 × 512 tiles)
  the squared-error accumulator holds the sum of the squared errors of the block rows met so far (one per first block
  column), and the hinge and count accumulators the sums of the tiles' hinges and valid-pair counts up to `n` — by
  induction on the point: each point's body adds its block's or tile's sum to what the accumulator held, the first point
  to zero.
-/
import proofs.«164654_j7060926235084_1_alg».proof.Proof.KPiecesI
import proofs.«164654_j7060926235084_1_alg».proof.Proof.PayValue
import proofs.«164654_j7060926235084_1_alg».proof.Proof.BlockRead
import Idealize.ShloMosaic.Lib.Pipeline.Value
import Idealize.ShloMosaic.Lib.Tactic

set_option maxRecDepth 16384

noncomputable section

namespace Cert.KernelIdeal.Hand

open Cert.KernelIdeal Cert.KernelIdeal.Gen Cert.PairSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The predictions and the targets as functions on their 8192 entries. -/
abbrev pOf (c : Dev nD) : Fin 8192 → EReal := fun k => m ((c.tc : Thread nD τ).loc main_arg0) (ix1 k)
abbrev tOf (c : Dev nD) : Fin 8192 → EReal := fun k => m ((c.tc : Thread nD τ).loc main_arg1) (ix1 k)

/-- Block row `i`'s squared errors and grid position `s`'s hinges and valid pairs, as functions of a natural number (zero
    past the grid), so that running sums are sums over ranges. -/
def bsN (c : Dev nD) (i : ℕ) : EReal := if h : i < 16 then blockSq (pOf m c) (tOf m c) ⟨i, h⟩ else 0
def trN (c : Dev nD) (s : ℕ) : EReal := if h : s < 256 then tileRank (pOf m c) (tOf m c) (gi ⟨s, h⟩) (gj ⟨s, h⟩) else 0
def tnN (c : Dev nD) (s : ℕ) : EReal := if h : s < 256 then tileCnt (tOf m c) (gi ⟨s, h⟩) (gj ⟨s, h⟩) else 0

theorem lt256 (t : Fin cfg0.N) : t.val < 256 := lt_of_lt_of_eq t.isLt (show cfg0.N = 256 from N_0)

/-! ## One point's arithmetic on the blocks the pipeline hands it -/

/-- The squared-error update at point `t`: the accumulator plus block row `t / 16`'s squared errors. -/
theorem step4 (c : Dev nD) (t : Fin cfg0.N) (acc : Vec Ideal S1x1 .f32) (y : S1x1.Idx) :
    k0_pay4 (F := Ideal) (k0_pay8 (iblk m c 0 t)) (k0_pay9 (iblk m c 1 t)) acc y = acc (ix2 (0 : Fin 1) (0 : Fin 1)) + bsN m c (t.val / 16) := by
  have hN := lt256 t
  have h16 : t.val / 16 < 16 := by omega
  rw [bsN, dif_pos h16]
  exact PayValue.pay4_eq (pOf m c) (tOf m c) (gi ⟨t.val, hN⟩) (iblk m c 0 t) (iblk m c 1 t)
    (fun r => BlockRead.iblk0_apply m c t ⟨t.val, hN⟩ rfl r) (fun r => BlockRead.iblk1_apply m c t ⟨t.val, hN⟩ rfl r) acc y

/-- The hinge update at point `t`: the accumulator plus the tile's hinges. -/
theorem step5 (c : Dev nD) (t : Fin cfg0.N) (acc : Vec Ideal S1x1 .f32) (y : S1x1.Idx) :
    k0_pay2 (F := Ideal) (k0_pay10 (iblk m c 1 t) (iblk m c 3 t)) (k0_pay11 (grid0.coords t)) (k0_pay12 (grid0.coords t))
        (k0_pay13 (iblk m c 0 t) (iblk m c 1 t) (iblk m c 2 t) (iblk m c 3 t)) (k0_pay14 (F := Ideal)) acc y
      = acc (ix2 (0 : Fin 1) (0 : Fin 1)) + trN m c t.val := by
  have hN := lt256 t
  have hc := BlockRead.coords_eq t ⟨t.val, hN⟩ rfl
  rw [trN, dif_pos hN]
  exact PayValue.pay2_eq (pOf m c) (tOf m c) (gi ⟨t.val, hN⟩) (gj ⟨t.val, hN⟩) (grid0.coords t) (iblk m c 0 t) (iblk m c 1 t) (iblk m c 2 t) (iblk m c 3 t)
    hc.1 hc.2 (fun r => BlockRead.iblk0_apply m c t ⟨t.val, hN⟩ rfl r) (fun r => BlockRead.iblk1_apply m c t ⟨t.val, hN⟩ rfl r)
    (fun q => BlockRead.iblk2_apply m c t ⟨t.val, hN⟩ rfl q) (fun q => BlockRead.iblk3_apply m c t ⟨t.val, hN⟩ rfl q) acc y

/-- The count update at point `t`: the accumulator plus the tile's valid pairs. -/
theorem step6 (c : Dev nD) (t : Fin cfg0.N) (acc : Vec Ideal S1x1 .f32) (y : S1x1.Idx) :
    k0_pay3 (F := Ideal) (k0_pay10 (iblk m c 1 t) (iblk m c 3 t)) (k0_pay11 (grid0.coords t)) (k0_pay12 (grid0.coords t)) acc y
      = acc (ix2 (0 : Fin 1) (0 : Fin 1)) + tnN m c t.val := by
  have hN := lt256 t
  have hc := BlockRead.coords_eq t ⟨t.val, hN⟩ rfl
  rw [tnN, dif_pos hN]
  exact PayValue.pay3_eq (tOf m c) (gi ⟨t.val, hN⟩) (gj ⟨t.val, hN⟩) (grid0.coords t) (iblk m c 1 t) (iblk m c 3 t)
    hc.1 hc.2 (fun r => BlockRead.iblk1_apply m c t ⟨t.val, hN⟩ rfl r) (fun q => BlockRead.iblk3_apply m c t ⟨t.val, hN⟩ rfl q) acc y

/-! ## The running sums -/

/-- After point `n`: the squared errors of block rows `0 … n / 16`, the hinges and the valid pairs of positions `0 … n`. -/
theorem outsAt_closed (c : Dev nD) : ∀ (n : ℕ) (h : n < cfg0.N),
    (∀ y, (outsAt m c n h).1 y = ∑ i ∈ Finset.range (n / 16 + 1), bsN m c i)
    ∧ (∀ y, (outsAt m c n h).2.1 y = ∑ s ∈ Finset.range (n + 1), trN m c s)
    ∧ (∀ y, (outsAt m c n h).2.2 y = ∑ s ∈ Finset.range (n + 1), tnN m c s)
  | 0, h => by
    rw [outsAt_A m c ⟨0, h⟩ rfl (Nat.zero_mod _)]
    refine ⟨fun y => ?_, fun y => ?_, fun y => ?_⟩
    · dsimp only
      unfold atA4
      rw [outA4_eq, step4 m c ⟨0, h⟩ _ y, PayValue.pay5_eq, zero_add]
      simp
    · dsimp only
      unfold atA5
      rw [outA5_eq, step5 m c ⟨0, h⟩ _ y, PayValue.pay6_eq, zero_add]
      simp
    · dsimp only
      unfold atA6
      rw [outA6_eq, step6 m c ⟨0, h⟩ _ y, PayValue.pay7_eq, zero_add]
      simp
  | n + 1, h => by
    obtain ⟨ih4, ih5, ih6⟩ := outsAt_closed c n (Nat.lt_of_succ_lt h)
    have hN : n + 1 < 256 := lt_of_lt_of_eq h (show cfg0.N = 256 from N_0)
    by_cases h2 : (n + 1) % 16 = 0
    · rw [outsAt_C m c ⟨n + 1, h⟩ (Nat.succ_ne_zero n) h2]
      refine ⟨fun y => ?_, fun y => ?_, fun y => ?_⟩
      · dsimp only
        unfold atC4
        rw [outC4_eq, step4 m c ⟨n + 1, h⟩ _ y]
        show (outsAt m c n _).1 _ + _ = _
        rw [ih4, show (n + 1) / 16 = n / 16 + 1 from by omega, Finset.sum_range_succ (n := n / 16 + 1)]
      · dsimp only
        unfold atC5
        rw [outC5_eq, step5 m c ⟨n + 1, h⟩ _ y]
        show (outsAt m c n _).2.1 _ + _ = _
        rw [ih5, Finset.sum_range_succ (n := n + 1)]
      · dsimp only
        unfold atC6
        rw [outC6_eq, step6 m c ⟨n + 1, h⟩ _ y]
        show (outsAt m c n _).2.2 _ + _ = _
        rw [ih6, Finset.sum_range_succ (n := n + 1)]
    · rw [outsAt_B m c ⟨n + 1, h⟩ (Nat.succ_ne_zero n) h2]
      refine ⟨fun y => ?_, fun y => ?_, fun y => ?_⟩
      · show (outsAt m c n _).1 y = _
        rw [ih4, show (n + 1) / 16 = n / 16 from by omega]
      · dsimp only
        unfold atB5
        rw [outB5_eq, step5 m c ⟨n + 1, h⟩ _ y]
        show (outsAt m c n _).2.1 _ + _ = _
        rw [ih5, Finset.sum_range_succ (n := n + 1)]
      · dsimp only
        unfold atB6
        rw [outB6_eq, step6 m c ⟨n + 1, h⟩ _ y]
        show (outsAt m c n _).2.2 _ + _ = _
        rw [ih6, Finset.sum_range_succ (n := n + 1)]

end Cert.KernelIdeal.Hand

end
-- ==== Proof.KFrameI.lean ====
/-
  The body obligation of the pairwise ranking loss kernel's pipeline — at every grid point the body, handed each window's
  staging buffer at what the proof data says it holds, leaves each at what the proof data says it leaves: by the control
  case the point is in —, the run of @main with the host lines after the region, and the frame (the argument arrays end as
  launched). The squared-error accumulator's window is the delicate one: at most points the body does not touch its buffer,
  which is handed back as found, and the last point writes the block back although the body stores nothing there — what it
  writes is the running value the last storing point left. Stated for any float instance.
-/
import proofs.«164654_j7060926235084_1_alg».proof.Proof.KBodyI
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body obligation asks of each window's buffer after the body -/

theorem le0 (c : Dev nD) (t : Fin cfg0.N) : (dats m 0 c).leavesExact 0 t = owns (c : Thread nD τ) (ms0 t) fullShare (iblk m c 0 t) := by
  unfold Dat.leavesExact; rw [live0, after0]
theorem le1 (c : Dev nD) (t : Fin cfg0.N) : (dats m 0 c).leavesExact 1 t = owns (c : Thread nD τ) (ms1 t) fullShare (iblk m c 1 t) := by
  unfold Dat.leavesExact; rw [live1, after1]
theorem le2 (c : Dev nD) (t : Fin cfg0.N) : (dats m 0 c).leavesExact 2 t = owns (c : Thread nD τ) (ms2 t) fullShare (iblk m c 2 t) := by
  unfold Dat.leavesExact; rw [live2, after2]
theorem le3 (c : Dev nD) (t : Fin cfg0.N) : (dats m 0 c).leavesExact 3 t = owns (c : Thread nD τ) (ms3 t) fullShare (iblk m c 3 t) := by
  unfold Dat.leavesExact; rw [live3, after3]
theorem le5 (c : Dev nD) (t : Fin cfg0.N) : (dats m 0 c).leavesExact 5 t = owns (c : Thread nD τ) (ms5 t) fullShare (outsAt m c t.val t.isLt).2.1 := by
  unfold Dat.leavesExact; rw [live5, after5]
theorem le6 (c : Dev nD) (t : Fin cfg0.N) : (dats m 0 c).leavesExact 6 t = owns (c : Thread nD τ) (ms6 t) fullShare (outsAt m c t.val t.isLt).2.2 := by
  unfold Dat.leavesExact; rw [live6, after6]
/-- The squared-error accumulator: stated contents at a point of the first block column, -/
theorem le4_live (c : Dev nD) (t : Fin cfg0.N) (h2 : t.val % 16 = 0) :
    (dats m 0 c).leavesExact 4 t = owns (c : Thread nD τ) (ms4 t) fullShare (outsAt m c t.val t.isLt).1 := by
  unfold Dat.leavesExact; rw [live4 t h2, after4]
/-- and at the last point, which writes the block back although the body stores nothing there; -/
theorem le4_last (c : Dev nD) (t : Fin cfg0.N) (h2 : ¬t.val % 16 = 0) (hl : t.val = 255) :
    (dats m 0 c).leavesExact 4 t = owns (c : Thread nD τ) (ms4 t) fullShare (outsAt m c t.val t.isLt).1 := by
  unfold Dat.leavesExact; rw [idle4 t h2, (flush0_4 t).mpr (by rw [hl]), after4]
/-- at every other point the buffer as the body found it. -/
theorem le4_idle (c : Dev nD) (t : Fin cfg0.N) (h2 : ¬t.val % 16 = 0) (hl : t.val ≠ 255) :
    (dats m 0 c).leavesExact 4 t = iprop(∃ d, owns (c : Thread nD τ) (ms4 t) fullShare ((dats m 0 c).before 4 t d)) := by
  have hN : t.val < 256 := lt_of_lt_of_eq t.isLt (show cfg0.N = 256 from N_0)
  exact Dat.leavesExact_idle (dats m 0 c) 4 t (idle4 t h2) (Bool.eq_false_iff.mpr fun h => by have := (flush0_4 _).mp h; omega)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point: the inputs' memrefs hold their blocks; the closed forms of the two conditions say which case the
    point is in; an accumulator the case adds to holds what the point before left; so that case's run applies, and what it
    leaves is the accumulation's next value. The invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    le0, le1, le2, le3, le5, le6]
  have hN : t.val < 256 := lt_of_lt_of_eq t.isLt (show cfg0.N = 256 from N_0)
  by_cases hz : t.val = 0
  · have h2 : t.val % 16 = 0 := by rw [hz]
    rw [le4_live m c t h2, outsAt_A m c t hz h2]
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun_A c (grid0.coords t) (ms0 t) (hs0 t) (ms1 t) (hs1 t) (ms2 t) (hs2 t) (ms3 t) (hs3 t) (ms4 t) (hs4 t) (ms5 t) (hs5 t) (ms6 t) (hs6 t) ((hcond1 t).mpr hz) ((hcond2 t).mpr h2) (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA4 c (grid0.coords t) (ms0 t) (hs0 t) (ms1 t) (hs1 t) (ms2 t) (hs2 t) (ms3 t) (hs3 t) (ms4 t) (hs4 t) (ms5 t) (hs5 t) (ms6 t) (hs6 t) ((hcond1 t).mpr hz) ((hcond2 t).mpr h2) (iblk m c 0 t) (iblk m c 1 t) (iblk m c 2 t) (iblk m c 3 t))
    isplitl [H5]
    · unfold owns; iexists _; isplitr
      swap; · iexact H5
      ipureintro; exact View.read_writes_of_cover _ _ _ _ _ (coverA5 c (grid0.coords t) (ms0 t) (hs0 t) (ms1 t) (hs1 t) (ms2 t) (hs2 t) (ms3 t) (hs3 t) (ms4 t) (hs4 t) (ms5 t) (hs5 t) (ms6 t) (hs6 t) ((hcond1 t).mpr hz) ((hcond2 t).mpr h2) (iblk m c 0 t) (iblk m c 1 t) (iblk m c 2 t) (iblk m c 3 t))
    unfold owns; iexists _; isplitr
    swap; · iexact H6
    ipureintro; exact View.read_writes_of_cover _ _ _ _ _ (coverA6 c (grid0.coords t) (ms0 t) (hs0 t) (ms1 t) (hs1 t) (ms2 t) (hs2 t) (ms3 t) (hs3 t) (ms4 t) (hs4 t) (ms5 t) (hs5 t) (ms6 t) (hs6 t) ((hcond1 t).mpr hz) ((hcond2 t).mpr h2) (iblk m c 0 t) (iblk m c 1 t) (iblk m c 2 t) (iblk m c 3 t))
  · by_cases h2 : t.val % 16 = 0
    · rw [le4_live m c t h2, outsAt_C m c t hz h2]
      simp only [before4 m c t hz, before5 m c t hz, before6 m c t hz]
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun_C c (grid0.coords t) (ms0 t) (hs0 t) (ms1 t) (hs1 t) (ms2 t) (hs2 t) (ms3 t) (hs3 t) (ms4 t) (hs4 t) (ms5 t) (hs5 t) (ms6 t) (hs6 t) (fun h => hz ((hcond1 t).mp h)) ((hcond2 t).mpr h2) (iblk m c 0 t) (iblk m c 1 t) (iblk m c 2 t) (iblk m c 3 t) (prevAt m c t).1 (prevAt m c t).2.1 (prevAt m c t).2.2).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, ⟨%e4, H4⟩, ⟨%e5, H5⟩, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC4 c (grid0.coords t) (ms0 t) (hs0 t) (ms1 t) (hs1 t) (ms2 t) (hs2 t) (ms3 t) (hs3 t) (ms4 t) (hs4 t) (ms5 t) (hs5 t) (ms6 t) (hs6 t) (fun h => hz ((hcond1 t).mp h)) ((hcond2 t).mpr h2) (iblk m c 0 t) (iblk m c 1 t) (iblk m c 2 t) (iblk m c 3 t) (prevAt m c t).1 (prevAt m c t).2.1 (prevAt m c t).2.2)
      isplitl [H5]
      · unfold owns; iexists _; isplitr
        swap; · iexact H5
        ipureintro; exact View.read_writes_of_cover _ _ _ _ _ (coverC5 c (grid0.coords t) (ms0 t) (hs0 t) (ms1 t) (hs1 t) (ms2 t) (hs2 t) (ms3 t) (hs3 t) (ms4 t) (hs4 t) (ms5 t) (hs5 t) (ms6 t) (hs6 t) (fun h => hz ((hcond1 t).mp h)) ((hcond2 t).mpr h2) (iblk m c 0 t) (iblk m c 1 t) (iblk m c 2 t) (iblk m c 3 t) (prevAt m c t).1 (prevAt m c t).2.1 (prevAt m c t).2.2)
      unfold owns; iexists _; isplitr
      swap; · iexact H6
      ipureintro; exact View.read_writes_of_cover _ _ _ _ _ (coverC6 c (grid0.coords t) (ms0 t) (hs0 t) (ms1 t) (hs1 t) (ms2 t) (hs2 t) (ms3 t) (hs3 t) (ms4 t) (hs4 t) (ms5 t) (hs5 t) (ms6 t) (hs6 t) (fun h => hz ((hcond1 t).mp h)) ((hcond2 t).mpr h2) (iblk m c 0 t) (iblk m c 1 t) (iblk m c 2 t) (iblk m c 3 t) (prevAt m c t).1 (prevAt m c t).2.1 (prevAt m c t).2.2)
    · by_cases hl : t.val = 255
      · rw [le4_last m c t h2 hl, outsAt_B m c t hz h2]
        simp only [before4 m c t hz, before5 m c t hz, before6 m c t hz]
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun_B c (grid0.coords t) (ms0 t) (hs0 t) (ms1 t) (hs1 t) (ms2 t) (hs2 t) (ms3 t) (hs3 t) (ms4 t) (hs4 t) (ms5 t) (hs5 t) (ms6 t) (hs6 t) (fun h => hz ((hcond1 t).mp h)) (fun h => h2 ((hcond2 t).mp h)) (iblk m c 0 t) (iblk m c 1 t) (iblk m c 2 t) (iblk m c 3 t) (prevAt m c t).2.1 (prevAt m c t).2.2).2.2 Set.univ _)
        isplitl [H0]; · iexact H0
        isplitl [H1]; · iexact H1
        isplitl [H2]; · iexact H2
        isplitl [H3]; · iexact H3
        isplitl [H5]; · iexact H5
        isplitl [H6]; · iexact H6
        iintro ⟨H0, H1, H2, H3, ⟨%e5, H5⟩, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (coverB5 c (grid0.coords t) (ms0 t) (hs0 t) (ms1 t) (hs1 t) (ms2 t) (hs2 t) (ms3 t) (hs3 t) (ms4 t) (hs4 t) (ms5 t) (hs5 t) (ms6 t) (hs6 t) (fun h => hz ((hcond1 t).mp h)) (fun h => h2 ((hcond2 t).mp h)) (iblk m c 0 t) (iblk m c 1 t) (iblk m c 2 t) (iblk m c 3 t) (prevAt m c t).2.1 (prevAt m c t).2.2)
        unfold owns; iexists _; isplitr
        swap; · iexact H6
        ipureintro; exact View.read_writes_of_cover _ _ _ _ _ (coverB6 c (grid0.coords t) (ms0 t) (hs0 t) (ms1 t) (hs1 t) (ms2 t) (hs2 t) (ms3 t) (hs3 t) (ms4 t) (hs4 t) (ms5 t) (hs5 t) (ms6 t) (hs6 t) (fun h => hz ((hcond1 t).mp h)) (fun h => h2 ((hcond2 t).mp h)) (iblk m c 0 t) (iblk m c 1 t) (iblk m c 2 t) (iblk m c 3 t) (prevAt m c t).2.1 (prevAt m c t).2.2)
      · rw [le4_idle m c t h2 hl, outsAt_B m c t hz h2]
        simp only [before5 m c t hz, before6 m c t hz]
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun_B c (grid0.coords t) (ms0 t) (hs0 t) (ms1 t) (hs1 t) (ms2 t) (hs2 t) (ms3 t) (hs3 t) (ms4 t) (hs4 t) (ms5 t) (hs5 t) (ms6 t) (hs6 t) (fun h => hz ((hcond1 t).mp h)) (fun h => h2 ((hcond2 t).mp h)) (iblk m c 0 t) (iblk m c 1 t) (iblk m c 2 t) (iblk m c 3 t) (prevAt m c t).2.1 (prevAt m c t).2.2).2.2 Set.univ _)
        isplitl [H0]; · iexact H0
        isplitl [H1]; · iexact H1
        isplitl [H2]; · iexact H2
        isplitl [H3]; · iexact H3
        isplitl [H5]; · iexact H5
        isplitl [H6]; · iexact H6
        iintro ⟨H0, H1, H2, H3, ⟨%e5, H5⟩, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexists d4; iexact H4
        isplitl [H5]
        · unfold owns; iexists _; isplitr
          swap; · iexact H5
          ipureintro; exact View.read_writes_of_cover _ _ _ _ _ (coverB5 c (grid0.coords t) (ms0 t) (hs0 t) (ms1 t) (hs1 t) (ms2 t) (hs2 t) (ms3 t) (hs3 t) (ms4 t) (hs4 t) (ms5 t) (hs5 t) (ms6 t) (hs6 t) (fun h => hz ((hcond1 t).mp h)) (fun h => h2 ((hcond2 t).mp h)) (iblk m c 0 t) (iblk m c 1 t) (iblk m c 2 t) (iblk m c 3 t) (prevAt m c t).2.1 (prevAt m c t).2.2)
        unfold owns; iexists _; isplitr
        swap; · iexact H6
        ipureintro; exact View.read_writes_of_cover _ _ _ _ _ (coverB6 c (grid0.coords t) (ms0 t) (hs0 t) (ms1 t) (hs1 t) (ms2 t) (hs2 t) (ms3 t) (hs3 t) (ms4 t) (hs4 t) (ms5 t) (hs5 t) (ms6 t) (hs6 t) (fun h => hz ((hcond1 t).mp h)) (fun h => h2 ((hcond2 t).mp h)) (iblk m c 0 t) (iblk m c 1 t) (iblk m c 2 t) (iblk m c 3 t) (prevAt m c t).2.1 (prevAt m c t).2.2)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    library computes from the proof data and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- The frame: @main runs and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KFinalArr.lean ====
/-
  The three one-element accumulators of the blocked pairwise computation as arrays after the run. Each of their windows is
  written back once, at the last of the 256 grid points, and its block (0, 0) of one element is the whole one-element
  array: so each array ends holding what its staging buffer holds after the body at the last point.
-/
import proofs.«164654_j7060926235084_1_alg».proof.Proof.KFrameI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ)

/-- Window 4's block stands at offset zero on both axes at every point, and is a whole block of one element. -/
theorem out_blk4 : ∀ t : Fin cfg0.N, win0_4.index t 0 * win0_4.size 0 = 0 ∧ win0_4.index t 1 * win0_4.size 1 = 0
    ∧ win0_4.xsize (grid0.coords t) 0 = 1 ∧ win0_4.xsize (grid0.coords t) 1 = 1 :=
  (by decide +kernel : ∀ t : Fin grid0.N, _)

/-- Window 5's block stands at offset zero on both axes at every point, and is a whole block of one element. -/
theorem out_blk5 : ∀ t : Fin cfg0.N, win0_5.index t 0 * win0_5.size 0 = 0 ∧ win0_5.index t 1 * win0_5.size 1 = 0
    ∧ win0_5.xsize (grid0.coords t) 0 = 1 ∧ win0_5.xsize (grid0.coords t) 1 = 1 :=
  (by decide +kernel : ∀ t : Fin grid0.N, _)

/-- Window 6's block stands at offset zero on both axes at every point, and is a whole block of one element. -/
theorem out_blk6 : ∀ t : Fin cfg0.N, win0_6.index t 0 * win0_6.size 0 = 0 ∧ win0_6.index t 1 * win0_6.size 1 = 0
    ∧ win0_6.xsize (grid0.coords t) 0 = 1 ∧ win0_6.xsize (grid0.coords t) 1 = 1 :=
  (by decide +kernel : ∀ t : Fin grid0.N, _)

/-! ## The squared-error accumulator -/

/-- What window 4's buffer holds after the body at position `n`, the position and its bound written apart. -/
theorem after4_at (c : Dev nD) (n : ℕ) (hn : n < cfg0.N) : (dats m 0 c).after 4 ⟨n, hn⟩ = (outsAt m c n hn).1 :=
  after4 m c ⟨n, hn⟩

/-- The one write-back of window 4, at the last point, writes the squared-error accumulator as the body leaves it there: block (0, 0) of
    the one-element array read through zero offsets is the array. -/
theorem flushed4_eq (c : Dev nD) (h : 255 < cfg0.N) (G : S1x1.Idx → Elt F .f32) (hG : (outsAt m c 255 h).1 = G)
    (t : Fin cfg0.N) (hf : (cfg0.win 4).flush t = true) :
    (dats m 0 c).flushed 4 t = ((cfg0.win 4).blk t).view.read (Elt F) G := by
  have hN : cfg0.N = 256 := N_0
  have hl : t.val = 255 := by have := (flush0_4 t).mp hf; have := t.isLt; omega
  obtain rfl : t = ⟨255, h⟩ := Fin.ext hl
  have hA : (dats m 0 c).after 4 ⟨255, h⟩ = G := (after4_at m c 255 h).trans hG
  show (cfg0.win 4).cut (grid0.coords ⟨255, h⟩) ((dats m 0 c).after 4 ⟨255, h⟩) = _
  rw [hA]
  obtain ⟨e0, e1, -, -⟩ := out_blk4 ⟨255, h⟩
  have hz' : (fun a => win0_4.index ⟨255, h⟩ a * main_v4_0.ty.shape.size a) = fun _ => 0 :=
    funext fun a => match a with | ⟨0, _⟩ => e0 | ⟨1, _⟩ => e1
  exact (Memref.read_access_unit_zero (Elt F) main_v4_0 hz' (fun a => by rw [congrFun hz' a]; simp) G).symm

/-- So window 4's array ends holding the squared-error accumulator as the body leaves it at the last point, whose block covers the
    whole array. -/
theorem final4 (c : Dev nD) (h : 255 < cfg0.N) (G : S1x1.Idx → Elt F .f32) (hG : (outsAt m c 255 h).1 = G) :
    (dats m 0 c).arrAt 4 cfg0.N = G :=
  (dats m 0 c).arrAt_eq_of_cover 4 G (flushed4_eq m c h G hG) fun i =>
    ⟨⟨255, h⟩, (flush0_4 ⟨255, h⟩).mpr rfl, by
      show i ∈ ((View.whole main_v4_0).slice (win0_4.rect ⟨255, h⟩)).set
      rw [View.set_slice_whole, Rect.mem_set_unit]
      intro a
      have h0 : (i 0 : Nat) < 1 := (i 0).isLt
      have h1 : (i 1 : Nat) < 1 := (i 1).isLt
      obtain ⟨e0, e1, x0, x1⟩ := out_blk4 ⟨255, h⟩
      match a with
      | ⟨0, _⟩ => show win0_4.index ⟨255, h⟩ 0 * win0_4.size 0 ≤ (i 0 : Nat) ∧ (i 0 : Nat) < win0_4.index ⟨255, h⟩ 0 * win0_4.size 0 + win0_4.xsize (grid0.coords ⟨255, h⟩) 0
                  rw [e0, x0]; omega
      | ⟨1, _⟩ => show win0_4.index ⟨255, h⟩ 1 * win0_4.size 1 ≤ (i 1 : Nat) ∧ (i 1 : Nat) < win0_4.index ⟨255, h⟩ 1 * win0_4.size 1 + win0_4.xsize (grid0.coords ⟨255, h⟩) 1
                  rw [e1, x1]; omega⟩

/-! ## The hinge accumulator -/

/-- What window 5's buffer holds after the body at position `n`, the position and its bound written apart. -/
theorem after5_at (c : Dev nD) (n : ℕ) (hn : n < cfg0.N) : (dats m 0 c).after 5 ⟨n, hn⟩ = (outsAt m c n hn).2.1 :=
  after5 m c ⟨n, hn⟩

/-- The one write-back of window 5, at the last point, writes the hinge accumulator as the body leaves it there: block (0, 0) of
    the one-element array read through zero offsets is the array. -/
theorem flushed5_eq (c : Dev nD) (h : 255 < cfg0.N) (G : S1x1.Idx → Elt F .f32) (hG : (outsAt m c 255 h).2.1 = G)
    (t : Fin cfg0.N) (hf : (cfg0.win 5).flush t = true) :
    (dats m 0 c).flushed 5 t = ((cfg0.win 5).blk t).view.read (Elt F) G := by
  have hN : cfg0.N = 256 := N_0
  have hl : t.val = 255 := by have := (flush0_5 t).mp hf; have := t.isLt; omega
  obtain rfl : t = ⟨255, h⟩ := Fin.ext hl
  have hA : (dats m 0 c).after 5 ⟨255, h⟩ = G := (after5_at m c 255 h).trans hG
  show (cfg0.win 5).cut (grid0.coords ⟨255, h⟩) ((dats m 0 c).after 5 ⟨255, h⟩) = _
  rw [hA]
  obtain ⟨e0, e1, -, -⟩ := out_blk5 ⟨255, h⟩
  have hz' : (fun a => win0_5.index ⟨255, h⟩ a * main_v4_1.ty.shape.size a) = fun _ => 0 :=
    funext fun a => match a with | ⟨0, _⟩ => e0 | ⟨1, _⟩ => e1
  exact (Memref.read_access_unit_zero (Elt F) main_v4_1 hz' (fun a => by rw [congrFun hz' a]; simp) G).symm

/-- So window 5's array ends holding the hinge accumulator as the body leaves it at the last point, whose block covers the
    whole array. -/
theorem final5 (c : Dev nD) (h : 255 < cfg0.N) (G : S1x1.Idx → Elt F .f32) (hG : (outsAt m c 255 h).2.1 = G) :
    (dats m 0 c).arrAt 5 cfg0.N = G :=
  (dats m 0 c).arrAt_eq_of_cover 5 G (flushed5_eq m c h G hG) fun i =>
    ⟨⟨255, h⟩, (flush0_5 ⟨255, h⟩).mpr rfl, by
      show i ∈ ((View.whole main_v4_1).slice (win0_5.rect ⟨255, h⟩)).set
      rw [View.set_slice_whole, Rect.mem_set_unit]
      intro a
      have h0 : (i 0 : Nat) < 1 := (i 0).isLt
      have h1 : (i 1 : Nat) < 1 := (i 1).isLt
      obtain ⟨e0, e1, x0, x1⟩ := out_blk5 ⟨255, h⟩
      match a with
      | ⟨0, _⟩ => show win0_5.index ⟨255, h⟩ 0 * win0_5.size 0 ≤ (i 0 : Nat) ∧ (i 0 : Nat) < win0_5.index ⟨255, h⟩ 0 * win0_5.size 0 + win0_5.xsize (grid0.coords ⟨255, h⟩) 0
                  rw [e0, x0]; omega
      | ⟨1, _⟩ => show win0_5.index ⟨255, h⟩ 1 * win0_5.size 1 ≤ (i 1 : Nat) ∧ (i 1 : Nat) < win0_5.index ⟨255, h⟩ 1 * win0_5.size 1 + win0_5.xsize (grid0.coords ⟨255, h⟩) 1
                  rw [e1, x1]; omega⟩

/-! ## The valid-pair counter -/

/-- What window 6's buffer holds after the body at position `n`, the position and its bound written apart. -/
theorem after6_at (c : Dev nD) (n : ℕ) (hn : n < cfg0.N) : (dats m 0 c).after 6 ⟨n, hn⟩ = (outsAt m c n hn).2.2 :=
  after6 m c ⟨n, hn⟩

/-- The one write-back of window 6, at the last point, writes the valid-pair counter as the body leaves it there: block (0, 0) of
    the one-element array read through zero offsets is the array. -/
theorem flushed6_eq (c : Dev nD) (h : 255 < cfg0.N) (G : S1x1.Idx → Elt F .f32) (hG : (outsAt m c 255 h).2.2 = G)
    (t : Fin cfg0.N) (hf : (cfg0.win 6).flush t = true) :
    (dats m 0 c).flushed 6 t = ((cfg0.win 6).blk t).view.read (Elt F) G := by
  have hN : cfg0.N = 256 := N_0
  have hl : t.val = 255 := by have := (flush0_6 t).mp hf; have := t.isLt; omega
  obtain rfl : t = ⟨255, h⟩ := Fin.ext hl
  have hA : (dats m 0 c).after 6 ⟨255, h⟩ = G := (after6_at m c 255 h).trans hG
  show (cfg0.win 6).cut (grid0.coords ⟨255, h⟩) ((dats m 0 c).after 6 ⟨255, h⟩) = _
  rw [hA]
  obtain ⟨e0, e1, -, -⟩ := out_blk6 ⟨255, h⟩
  have hz' : (fun a => win0_6.index ⟨255, h⟩ a * main_v4_2.ty.shape.size a) = fun _ => 0 :=
    funext fun a => match a with | ⟨0, _⟩ => e0 | ⟨1, _⟩ => e1
  exact (Memref.read_access_unit_zero (Elt F) main_v4_2 hz' (fun a => by rw [congrFun hz' a]; simp) G).symm

/-- So window 6's array ends holding the valid-pair counter as the body leaves it at the last point, whose block covers the
    whole array. -/
theorem final6 (c : Dev nD) (h : 255 < cfg0.N) (G : S1x1.Idx → Elt F .f32) (hG : (outsAt m c 255 h).2.2 = G) :
    (dats m 0 c).arrAt 6 cfg0.N = G :=
  (dats m 0 c).arrAt_eq_of_cover 6 G (flushed6_eq m c h G hG) fun i =>
    ⟨⟨255, h⟩, (flush0_6 ⟨255, h⟩).mpr rfl, by
      show i ∈ ((View.whole main_v4_2).slice (win0_6.rect ⟨255, h⟩)).set
      rw [View.set_slice_whole, Rect.mem_set_unit]
      intro a
      have h0 : (i 0 : Nat) < 1 := (i 0).isLt
      have h1 : (i 1 : Nat) < 1 := (i 1).isLt
      obtain ⟨e0, e1, x0, x1⟩ := out_blk6 ⟨255, h⟩
      match a with
      | ⟨0, _⟩ => show win0_6.index ⟨255, h⟩ 0 * win0_6.size 0 ≤ (i 0 : Nat) ∧ (i 0 : Nat) < win0_6.index ⟨255, h⟩ 0 * win0_6.size 0 + win0_6.xsize (grid0.coords ⟨255, h⟩) 0
                  rw [e0, x0]; omega
      | ⟨1, _⟩ => show win0_6.index ⟨255, h⟩ 1 * win0_6.size 1 ≤ (i 1 : Nat) ∧ (i 1 : Nat) < win0_6.index ⟨255, h⟩ 1 * win0_6.size 1 + win0_6.xsize (grid0.coords ⟨255, h⟩) 1
                  rw [e1, x1]; omega⟩

end Cert.KernelIdeal.Hand

end
-- ==== Proof.TailValue.lean ====
/-
  The scalar end of the computation. After the grid has run, three `[1, 1]` arrays hold the sum of the squared errors `M`, the sum
  of the hinges over the valid pairs `R` and the number of valid pairs `N`. Fourteen scalar operations follow: each array is
  reshaped to a scalar; `M / 8192`; `max N 1`; `R / max N 1`; the bit `0 < N`; `0.1 · (R / max N 1)`; the sum
  `M / 8192 + 0.1 · (R / max N 1)`; and the select of that sum where the bit is set, of `M / 8192` elsewhere. A reshape of a
  constant array is the constant, so read at the one scalar index the result is `combine M R N` word for word.
-/
import proofs.«164654_j7060926235084_1_alg».proof.Proof.Gen.KernelIdeal.Launch
import proofs.«164654_j7060926235084_1_alg».proof.Proof.PairSpec
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.TailValue

open Idealize.ShloMosaic Idealize.ShloMosaic.ValueIdx Idealize.ShloMosaic.StableHlo Idealize.ShloMosaic.TcCoe Idealize.SL.Sem
open Cert.KernelIdeal Cert.KernelIdeal.Gen

/-- A select on a decided bit is the `if`. -/
theorem select_ofBool_decide {α : Type} (P : Prop) [Decidable P] (A B : α) :
    Scalar.select (BitVec.ofBool (decide P)) A B = if P then A else B := by
  by_cases h : P
  · rw [if_pos h, decide_eq_true h]; exact select_one A B
  · rw [if_neg h, decide_eq_false h]; exact select_zero A B

/-- THE SCALAR END. From the three accumulated sums — the squared errors `M`, the hinges `R`, the number of valid pairs `N` —
    held as constant `[1, 1]` arrays, the host operations after the region compute `M / 8192`, `R / max N 1`, the bit `0 < N`,
    `M / 8192 + 0.1 · (R / max N 1)`, and select the last where the bit is set, `M / 8192` elsewhere: `combine M R N`. -/
theorem tail_eq (W : Valuation τ sig (Elt Ideal)) (M R N : EReal)
    (h0 : W (Proc.devRef .tc main_v4_0) = fun _ => M) (h1 : W (Proc.devRef .tc main_v4_1) = fun _ => R)
    (h2 : W (Proc.devRef .tc main_v4_2) = fun _ => N) :
    StableHlo.after (List.flatten [hostOps1 (F := Ideal), hostOps1_1]) W (Proc.devRef .tc main_v14)
      = fun _ => Cert.PairSpec.combine M R N := by
  simp only [List.flatten_cons, List.flatten_nil, List.append_nil, List.cons_append, List.nil_append, hostOps1, hostOps1_1]
  after_results
  rw [h0, h1, h2]
  funext y
  show Scalar.select (Ideal.cmp .ogt N (Ideal.ofBits .f32 0x00000000#32))
      (Ideal.div M (Ideal.ofBits .f32 0x46000000#32)
        + Ideal.ofBits .f32 0x3DCCCCCD#32 * Ideal.div R (max N (Ideal.ofBits .f32 0x3F800000#32)))
      (Ideal.div M (Ideal.ofBits .f32 0x46000000#32)) = _
  rw [Ideal.ofBits_zero_f32]
  show Scalar.select (BitVec.ofBool (decide (0 < N))) _ _ = _
  rw [select_ofBool_decide]
  rfl

/-- The same with the two lists appended. -/
theorem tail_eq_append (W : Valuation τ sig (Elt Ideal)) (M R N : EReal)
    (h0 : W (Proc.devRef .tc main_v4_0) = fun _ => M) (h1 : W (Proc.devRef .tc main_v4_1) = fun _ => R)
    (h2 : W (Proc.devRef .tc main_v4_2) = fun _ => N) :
    StableHlo.after (hostOps1 (F := Ideal) ++ hostOps1_1) W (Proc.devRef .tc main_v14)
      = fun _ => Cert.PairSpec.combine M R N := by
  have h := tail_eq W M R N h0 h1 h2
  simp only [List.flatten_cons, List.flatten_nil, List.append_nil] at h
  exact h

end Cert.KernelIdeal.TailValue

end
-- ==== Proof.PairAlgebra.lean ====
/-
  Regrouping the three sums of the pairwise ranking loss. Addition of extended reals is commutative and associative, so a
  finite sum may be taken block by block: `(i, r) ↦ 512 * i + r` is a bijection of `Fin 16 × Fin 512` with `Fin 8192`, and
  `s ↦ (s / 16, s % 16)` one of `Fin 256` with `Fin 16 × Fin 16`. Hence the blocks' squared errors add up to the whole sum,
  and the tiles' hinges and valid-pair counts add up to the whole double sums. Also: the count of valid pairs is at most
  `8192 * 8192`, and the few facts about its image in the extended reals that the scalar end of the loss uses.
-/
import proofs.«164654_j7060926235084_1_alg».proof.Proof.PairSpec

noncomputable section

namespace Cert.PairSpec

open Idealize.ShloMosaic

/-- `(i, r) ↦ 512 * i + r` is a bijection of the 16 blocks of 512 entries with the 8192 entries. -/
def blockEquiv : Fin 16 × Fin 512 ≃ Fin 8192 where
  toFun x := at512 x.1 x.2
  invFun k := (⟨k.val / 512, by omega⟩, ⟨k.val % 512, by omega⟩)
  left_inv := by
    rintro ⟨i, r⟩
    refine Prod.ext (Fin.ext ?_) (Fin.ext ?_)
    · show (512 * i.val + r.val) / 512 = i.val
      omega
    · show (512 * i.val + r.val) % 512 = r.val
      omega
  right_inv := by
    intro k
    refine Fin.ext ?_
    show 512 * (k.val / 512) + k.val % 512 = k.val
    omega

/-- `s ↦ (s / 16, s % 16)` is a bijection of the 256 row-major grid positions with the 16 × 16 grid. -/
def gridEquiv : Fin 256 ≃ Fin 16 × Fin 16 where
  toFun s := (gi s, gj s)
  invFun x := ⟨16 * x.1.val + x.2.val, by omega⟩
  left_inv := by
    intro s
    refine Fin.ext ?_
    show 16 * (s.val / 16) + s.val % 16 = s.val
    omega
  right_inv := by
    rintro ⟨i, j⟩
    refine Prod.ext (Fin.ext ?_) (Fin.ext ?_)
    · show (16 * i.val + j.val) / 16 = i.val
      omega
    · show (16 * i.val + j.val) % 16 = j.val
      omega

variable {M : Type*} [AddCommMonoid M]

/-- A sum over the 8192 entries is the sum over the blocks of the sums within each block. -/
theorem sum_at512 (f : Fin 8192 → M) : ∑ i : Fin 16, ∑ r : Fin 512, f (at512 i r) = ∑ k, f k := by
  rw [← Fintype.sum_prod_type' (f := fun i r => f (at512 i r))]
  exact Equiv.sum_comp blockEquiv f

/-- A sum over the row-major grid positions is the double sum over the grid's rows and columns. -/
theorem sum_grid (g : Fin 16 → Fin 16 → M) : ∑ s : Fin 256, g (gi s) (gj s) = ∑ i, ∑ j, g i j := by
  rw [← Fintype.sum_prod_type' (f := g)]
  exact Equiv.sum_comp gridEquiv (fun x => g x.1 x.2)

/-- A double sum over all pairs of entries is the sum over the tiles of the double sums within each tile. -/
theorem sum_tiles (F : Fin 8192 → Fin 8192 → M) :
    ∑ s : Fin 256, ∑ r : Fin 512, ∑ c : Fin 512, F (at512 (gi s) r) (at512 (gj s) c) = ∑ R, ∑ C, F R C := by
  rw [sum_grid (fun i j => ∑ r : Fin 512, ∑ c : Fin 512, F (at512 i r) (at512 j c))]
  rw [← sum_at512 (fun R => ∑ C, F R C)]
  refine Finset.sum_congr rfl fun i _ => ?_
  rw [Finset.sum_comm]
  refine Finset.sum_congr rfl fun r _ => ?_
  exact sum_at512 (fun C => F (at512 i r) C)

/-- The blocks' squared errors add up to the sum of all the squared errors. -/
theorem sum_blockSq (p t : Fin 8192 → EReal) : ∑ i : Fin 16, blockSq p t i = sumSq p t :=
  sum_at512 (sq p t)

/-- The tiles' hinge sums add up to the sum of the hinges over all valid pairs. -/
theorem sum_tileRank (p t : Fin 8192 → EReal) : ∑ s : Fin 256, tileRank p t (gi s) (gj s) = sumRank p t :=
  sum_tiles (hm p t)

/-- The cast of a natural number into the extended reals through the reals commutes with finite sums. -/
theorem coe_natCast_sum {ι : Type*} (s : Finset ι) (f : ι → ℕ) :
    (((∑ i ∈ s, f i : ℕ) : ℝ) : EReal) = ∑ i ∈ s, (((f i : ℕ) : ℝ) : EReal) := by
  classical
  induction s using Finset.induction_on with
  | empty => simp
  | insert a s ha ih => rw [Finset.sum_insert ha, Finset.sum_insert ha, Nat.cast_add, EReal.coe_add, ih]

open Classical in
/-- The tiles' valid-pair counts add up to the number of valid pairs. -/
theorem sum_tileCnt (t : Fin 8192 → EReal) :
    ∑ s : Fin 256, tileCnt t (gi s) (gj s) = (((count t : ℕ) : ℝ) : EReal) := by
  have h : ∀ r c, vf t r c = ((((if valid t r c then 1 else 0 : ℕ) : ℕ) : ℝ) : EReal) := by
    intro r c
    unfold vf
    split_ifs <;> simp
  show ∑ s : Fin 256, ∑ r : Fin 512, ∑ c : Fin 512, vf t (at512 (gi s) r) (at512 (gj s) c) = _
  rw [sum_tiles (vf t)]
  unfold count
  rw [coe_natCast_sum]
  refine Finset.sum_congr rfl fun r _ => ?_
  rw [coe_natCast_sum]
  exact Finset.sum_congr rfl fun c _ => h r c

open Classical in
/-- There are at most `8192 * 8192` valid pairs. -/
theorem count_le (t : Fin 8192 → EReal) : count t ≤ 8192 * 8192 := by
  unfold count
  calc ∑ r : Fin 8192, ∑ c : Fin 8192, (if valid t r c then 1 else 0)
      ≤ ∑ _r : Fin 8192, ∑ _c : Fin 8192, 1 := by
        refine Finset.sum_le_sum fun r _ => Finset.sum_le_sum fun c _ => ?_
        split_ifs <;> omega
    _ = 8192 * 8192 := by
        rw [Finset.sum_const, Finset.sum_const, Finset.card_univ, Fintype.card_fin, smul_eq_mul, smul_eq_mul, mul_one]

/-- The single-precision pattern `0x3F800000` denotes the number one. -/
theorem c1_eq : c1 = 1 := by
  show Ideal.ofBits .f32 0x3F800000#32 = 1
  simp [Ideal.ofBits, Ideal.ieee, -EReal.coe_mul]; norm_num

/-- The count's image in the extended reals is positive exactly when the count is. -/
theorem count_pos_iff (t : Fin 8192 → EReal) : (0 : EReal) < (((count t : ℕ) : ℝ) : EReal) ↔ 0 < count t := by
  rw [EReal.coe_pos, Nat.cast_pos]

/-- The larger of the count's image and one is the image of the larger of the count and one. -/
theorem max_count_one (t : Fin 8192 → EReal) :
    max ((((count t : ℕ) : ℝ) : EReal)) 1 = (((max (count t) 1 : ℕ) : ℝ) : EReal) := by
  rw [Nat.cast_max, Nat.cast_one, ← EReal.coe_one]
  exact (EReal.coe_strictMono.monotone.map_max).symm

end Cert.PairSpec

end
-- ==== Proof.KFinalI.lean ====
/-
  The value the pairwise ranking loss kernel's program returns, at the extended reals. After the last grid point the three
  accumulators hold the sum of ALL squared errors, the sum of the hinges over ALL valid pairs and the number of valid pairs:
  the running sums over block rows and over grid positions are the whole sums, regrouped (sums of extended reals regroup
  freely). The one write-back puts them in the three result arrays, the host lines after the region combine them, and so
  every execution of @main ends with the result buffer at the loss of the two argument arrays, which it leaves unchanged.
-/
import proofs.«164654_j7060926235084_1_alg».proof.Proof.KClosedI
import proofs.«164654_j7060926235084_1_alg».proof.Proof.KFrameI
import proofs.«164654_j7060926235084_1_alg».proof.Proof.KFinalArr
import proofs.«164654_j7060926235084_1_alg».proof.Proof.TailValue
import proofs.«164654_j7060926235084_1_alg».proof.Proof.PairAlgebra
import Idealize.ShloMosaic.Lib.Pipeline.Value
import Idealize.ShloMosaic.Lib.Pipeline.FrameSuffix

set_option maxRecDepth 16384

noncomputable section

namespace Cert.KernelIdeal.Hand

open Cert.KernelIdeal Cert.KernelIdeal.Gen Cert.PairSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem h255 : 255 < cfg0.N := by rw [show cfg0.N = 256 from N_0]; decide

/-- The block rows' squared errors summed over the 16 block rows are all the squared errors. -/
theorem sum_bsN (c : Dev nD) : ∑ i ∈ Finset.range 16, bsN m c i = sumSq (pOf m c) (tOf m c) := by
  rw [Finset.sum_range (f := bsN m c), ← sum_blockSq]
  exact Finset.sum_congr rfl fun i _ => dif_pos i.isLt
/-- The tiles' hinges summed over the 256 grid positions are all the hinges. -/
theorem sum_trN (c : Dev nD) : ∑ s ∈ Finset.range 256, trN m c s = sumRank (pOf m c) (tOf m c) := by
  rw [Finset.sum_range (f := trN m c), ← sum_tileRank]
  exact Finset.sum_congr rfl fun s _ => dif_pos s.isLt
/-- The tiles' valid pairs summed over the 256 grid positions are all the valid pairs. -/
theorem sum_tnN (c : Dev nD) : ∑ s ∈ Finset.range 256, tnN m c s = (((count (tOf m c) : ℕ) : ℝ) : EReal) := by
  rw [Finset.sum_range (f := tnN m c), ← sum_tileCnt]
  exact Finset.sum_congr rfl fun s _ => dif_pos s.isLt

/-- After the last point the three accumulators hold the three whole sums. -/
theorem acc4_final (c : Dev nD) : (outsAt m c 255 h255).1 = fun _ => sumSq (pOf m c) (tOf m c) :=
  funext fun y => ((outsAt_closed m c 255 h255).1 y).trans (sum_bsN m c)
theorem acc5_final (c : Dev nD) : (outsAt m c 255 h255).2.1 = fun _ => sumRank (pOf m c) (tOf m c) :=
  funext fun y => ((outsAt_closed m c 255 h255).2.1 y).trans (sum_trN m c)
theorem acc6_final (c : Dev nD) : (outsAt m c 255 h255).2.2 = fun _ => (((count (tOf m c) : ℕ) : ℝ) : EReal) :=
  funext fun y => ((outsAt_closed m c 255 h255).2.2 y).trans (sum_tnN m c)

/-- The result buffer after the host lines that follow the region: the loss of the argument arrays. -/
theorem result_eq (c : Dev nD) :
    Pipeline.afterTail₀ cfgs (dats m) 0 (V0 m) [hostOps1, hostOps1_1] c main_v14 = fun _ => final (pOf m c) (tOf m c) := by
  unfold Pipeline.afterTail₀
  exact TailValue.tail_eq _ _ _ _
    ((Pipeline.withArrays_arr spec0 launch0.win.arr_inj c _ _ 4).trans (final4 m c h255 _ (acc4_final m c)))
    ((Pipeline.withArrays_arr spec0 launch0.win.arr_inj c _ _ 5).trans (final5 m c h255 _ (acc5_final m c)))
    ((Pipeline.withArrays_arr spec0 launch0.win.arr_inj c _ _ 6).trans (final6 m c h255 _ (acc6_final m c)))

/-- Every weakly fair execution of @main terminates with the result buffer at the loss of the argument arrays, which end
    as launched. -/
theorem run_value : θ_run defs (onTc (τ := τ) (main (F := Ideal))) ⟨m, fun _ => 0, ρ⟩ (fun r => ∀ c : Dev nD,
      r.2.mem ((c.tc : Thread nD τ).loc main_v14) = (fun _ => final (pOf m c) (tOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v14 (Pipeline.mem_restRefs_of main_v14 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Hand

end
-- ==== Proof.RefPairs.lean ====
/-
  The reference's pairwise stages, read at one pair. For predictions `p` and targets `t` (the two arguments read at `ix1 k`) and
  a pair of entries `(r, c)`, each [8192, 8192] stage of the reference at the index `ix2 r c` is the corresponding quantity of the
  pairwise ranking loss: the targets' difference `t r - t c`, the predictions' difference `p r - p c`, the sign `±1` of the targets'
  difference, the hinge `max 0 (-(±1) · (p r - p c) + 0.1)`, the mask bit of the valid pairs (`r` before `c`, as signed 32-bit words of
  coordinates below 8192, and the targets differing), the masked hinge, and the mask bit widened to 32 bits.
-/
import proofs.«164654_j7060926235084_1_alg».proof.Proof.RefRead
import proofs.«164654_j7060926235084_1_alg».proof.Proof.PairSpec
import Idealize.ShloMosaic.Lib.ValueIdx

noncomputable section

namespace Cert.ReferenceIdeal.RefValue

open Cert.ReferenceIdeal Cert.ReferenceIdeal.Gen Cert.ReferenceIdeal.ReadP Idealize.ShloMosaic Idealize.ShloMosaic.ValueIdx Cert.PairSpec

/-- An argument of the reference as the function of its 8192 entries. -/
abbrev entries (x : (⟨S8192, .f32⟩ : BufTy).Contents (Elt Ideal)) : Fin 8192 → EReal := fun k => x (ix1 k)

variable (x0 x1 : (⟨S8192, .f32⟩ : BufTy).Contents (Elt Ideal)) (r c : Fin 8192)

/-! ## Words -/

/-- A select on a decided bit is the `if`. -/
theorem select_ofBool {α : Type} (b : Bool) (A B : α) : Scalar.select (BitVec.ofBool b) A B = if b then A else B := by
  cases b <;> rfl

/-- A coordinate below 8192, as a 32-bit word read signed, is itself. -/
theorem toInt_ofNat_coord (k : Fin 8192) : (BitVec.ofNat 32 k.val).toInt = (k.val : Int) := by
  have hk := k.isLt
  rw [BitVec.toInt_eq_toNat_cond, BitVec.toNat_ofNat]
  have h2 : (2 : Nat) ^ 32 = 4294967296 := by norm_num
  rw [h2]
  have hm : k.val % 4294967296 = k.val := Nat.mod_eq_of_lt (by omega)
  rw [hm, if_pos (by omega)]

/-! ## The index functions at a pair -/

theorem idx_v4_v6 : idx_main_v4 (idx_main_v6 (ix2 r c)) = ix1 r := by
  funext a; match a with | ⟨0, _⟩ => rfl
theorem idx_v5_v7 : idx_main_v5 (idx_main_v7 (ix2 r c)) = ix1 c := by
  funext a; match a with | ⟨0, _⟩ => rfl
theorem idx_v9_v11 : idx_main_v9 (idx_main_v11 (ix2 r c)) = ix1 r := by
  funext a; match a with | ⟨0, _⟩ => rfl
theorem idx_v10_v12 : idx_main_v10 (idx_main_v12 (ix2 r c)) = ix1 c := by
  funext a; match a with | ⟨0, _⟩ => rfl

/-! ## The stages at the pair `(r, c)` -/

/-- The targets' difference. -/
theorem v8_at : val_main_v8 (F := Ideal) x1 (ix2 r c) = entries x1 r - entries x1 c := by
  rw [val_main_v8_apply, val_main_v6_apply, val_main_v7_apply, val_main_v4_apply, val_main_v5_apply, idx_v4_v6, idx_v5_v7]
  rfl

/-- The predictions' difference. -/
theorem v13_at : val_main_v13 (F := Ideal) x0 (ix2 r c) = entries x0 r - entries x0 c := by
  rw [val_main_v13_apply, val_main_v11_apply, val_main_v12_apply, val_main_v9_apply, val_main_v10_apply, idx_v9_v11, idx_v10_v12]
  rfl

/-- The zero splats. -/
theorem v14_at (i : S8192x8192.Idx) : val_main_v14 (F := Ideal) i = 0 := by
  rw [val_main_v14_apply, val_main_cst_1_apply]; exact Ideal.ofBits_zero_f32
theorem v22_at (i : S8192x8192.Idx) : val_main_v22 (F := Ideal) i = 0 := by
  rw [val_main_v22_apply, val_main_cst_5_apply]; exact Ideal.ofBits_zero_f32
theorem v26_at (i : S8192x8192.Idx) : val_main_v26 (F := Ideal) i = 0 := by
  rw [val_main_v26_apply, val_main_cst_6_apply]; exact Ideal.ofBits_zero_f32
theorem call2_v1_at (i : S8192x8192.Idx) : val_main_call2_v1 (F := Ideal) i = 0 := by
  rw [val_main_call2_v1_apply, val_main_call2_v0_apply, val_main_cst_8_apply]; exact Ideal.ofBits_zero_f32

/-- The sign of the targets' difference. -/
theorem v16_at : val_main_v16 (F := Ideal) x1 (ix2 r c) = sgn (entries x1) r c := by
  rw [val_main_v16_apply, val_main_v15_apply, v8_at, v14_at, val_main_call0_v0_apply, val_main_call0_v1_apply,
    val_main_cst_2_apply, val_main_cst_3_apply]
  show Scalar.select (BitVec.ofBool (decide (0 < entries x1 r - entries x1 c))) c1 cm1 = _
  rw [select_ofBool]
  unfold sgn
  by_cases h : 0 < entries x1 r - entries x1 c
  · rw [if_pos h, decide_eq_true h]; rfl
  · rw [if_neg h, decide_eq_false h]; rfl

/-- The hinge. -/
theorem v23_at : val_main_v23 (F := Ideal) x0 x1 (ix2 r c) = hinge (entries x0) (entries x1) r c := by
  rw [val_main_v23_apply, v22_at, val_main_v21_apply, val_main_v19_apply, val_main_v18_apply, val_main_v17_apply, v16_at, v13_at,
    val_main_v20_apply, val_main_cst_4_apply]
  show max 0 (-(sgn (entries x1) r c) * (entries x0 r - entries x0 c) + c01) = _
  unfold hinge
  rw [sub_eq_add_neg 0, zero_add]

/-- The upper-triangle bit: one where `r` is before `c`. -/
theorem v25_at : val_main_v25 (F := Ideal) (ix2 r c) = BitVec.ofBool (decide (r.val < c.val)) := by
  rw [val_main_v25_apply, val_main_call1_v4_apply, val_main_call1_v2_apply, val_main_call1_v0_apply, val_main_call1_v1_apply,
    val_main_call1_c_apply, val_main_call1_v3_apply, val_main_call1_v5_apply, val_main_call1_c_0_apply, val_main_v24_apply,
    val_main_c_apply]
  show Scalar.select (BitVec.ofBool ((BitVec.ofNat 32 c.val).sle (BitVec.ofNat 32 r.val + 0#32))) 0#1 1#1 = _
  rw [select_ofBool, BitVec.add_zero, BitVec.sle_eq_decide, toInt_ofNat_coord, toInt_ofNat_coord]
  by_cases h : r.val < c.val
  · rw [decide_eq_true h, decide_eq_false (by omega)]; rfl
  · rw [decide_eq_false h, decide_eq_true (by omega)]; rfl

/-- The bit of the targets differing. -/
theorem v27_at : val_main_v27 (F := Ideal) x1 (ix2 r c) = BitVec.ofBool (decide (entries x1 r - entries x1 c ≠ 0)) := by
  rw [val_main_v27_apply, v8_at, v26_at]
  rfl

/-- The mask bit on a valid pair … -/
theorem v28_of_valid (h : valid (entries x1) r c) : val_main_v28 (F := Ideal) x1 (ix2 r c) = 1#1 := by
  rw [val_main_v28_apply, v25_at, v27_at, decide_eq_true h.1, decide_eq_true h.2]; rfl
/-- … and elsewhere. -/
theorem v28_of_not_valid (h : ¬ valid (entries x1) r c) : val_main_v28 (F := Ideal) x1 (ix2 r c) = 0#1 := by
  rw [val_main_v28_apply, v25_at, v27_at]
  by_cases h1 : r.val < c.val
  · have h2 : ¬ (entries x1 r - entries x1 c ≠ 0) := fun h2 => h ⟨h1, h2⟩
    rw [decide_eq_true h1, decide_eq_false h2]; rfl
  · rw [decide_eq_false h1]
    show IntOp.andi 0#1 _ = 0#1
    unfold IntOp.andi
    exact BitVec.zero_and

/-- The masked hinge. -/
theorem v31_at : val_main_v31 (F := Ideal) x0 x1 (ix2 r c) = hm (entries x0) (entries x1) r c := by
  rw [val_main_v31_apply]
  unfold hm
  by_cases h : valid (entries x1) r c
  · rw [if_pos h, v28_of_valid x1 r c h, select_one, v23_at]
  · rw [if_neg h, v28_of_not_valid x1 r c h, select_zero, call2_v1_at]

open Classical in
/-- The mask bit as a 32-bit word. -/
theorem v29_at : val_main_v29 (F := Ideal) x1 (ix2 r c) = BitVec.ofNat 32 (if valid (entries x1) r c then 1 else 0) := by
  rw [val_main_v29_apply]
  by_cases h : valid (entries x1) r c
  · rw [if_pos h, v28_of_valid x1 r c h]; rfl
  · rw [if_neg h, v28_of_not_valid x1 r c h]; rfl

end Cert.ReferenceIdeal.RefValue

end
-- ==== Proof.RefSums.lean ====
/-
  The reference's three sums. With predictions `p` and targets `t` the two arguments' entries: the mean squared error stage is the sum
  of the squared errors divided by 8192; the float sum over all pairs of the masked hinge is the sum of the hinges over the valid pairs
  (a sum over the rank-2 index set is the double sum over its coordinates, the initial value zero); and the 32-bit integer sum of the
  mask bits is the word of the number of valid pairs: a fold of word addition from the zero word over words of naturals is the word
  of the naturals' sum, since `BitVec.ofNat` is additive.
-/
import proofs.«164654_j7060926235084_1_alg».proof.Proof.RefPairs

noncomputable section

namespace Cert.ReferenceIdeal.RefValue

open Cert.ReferenceIdeal Cert.ReferenceIdeal.Gen Cert.ReferenceIdeal.ReadP Idealize.ShloMosaic Idealize.ShloMosaic.ValueIdx Cert.PairSpec

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A fold of 32-bit word addition, from the word of `a`, over the words of the naturals `g i` is the word of `a` plus their sum. -/
theorem fold_addi_ofNat {ι : Type*} (S : Finset ι) (g : ι → ℕ) (a : ℕ) :
    S.fold IntOp.addi (BitVec.ofNat 32 a) (fun i => BitVec.ofNat 32 (g i)) = BitVec.ofNat 32 (a + ∑ i ∈ S, g i) := by
  induction S using Finset.cons_induction with
  | empty => simp
  | cons b S hb ih =>
    rw [Finset.fold_cons, ih, Finset.sum_cons]
    show BitVec.ofNat 32 (g b) + BitVec.ofNat 32 (a + ∑ i ∈ S, g i) = _
    rw [← BitVec.ofNat_add]
    congr 1
    omega

variable (x0 x1 : (⟨S8192, .f32⟩ : BufTy).Contents (Elt Ideal))

/-- The mean squared error stage: the squared errors' sum over 8192. -/
theorem v3_at (i : S_.Idx) :
    val_main_v3 (F := Ideal) x0 x1 i = Ideal.div (sumSq (entries x0) (entries x1)) c8192 := by
  rw [val_main_v3_apply, val_main_v2_apply, val_main_cst_apply, val_main_cst_0_apply]
  show Ideal.div (Ideal.ofBits .f32 0x00000000#32 + ∑ j : S8192.Idx, val_main_v1 (F := Ideal) x0 x1 j) c8192 = _
  rw [Ideal.ofBits_zero_f32, zero_add, sum_idx1]
  unfold sumSq
  exact congrArg (fun s => Ideal.div s c8192) (Finset.sum_congr rfl fun k _ => rfl)

/-- The float sum over all pairs: the hinges' sum over the valid pairs. -/
theorem v32_at (i : S_.Idx) :
    val_main_v32 (F := Ideal) x0 x1 i = sumRank (entries x0) (entries x1) := by
  rw [val_main_v32_apply, val_main_cst_9_apply]
  show Ideal.ofBits .f32 0x00000000#32 + ∑ j : S8192x8192.Idx, val_main_v31 (F := Ideal) x0 x1 j = _
  rw [Ideal.ofBits_zero_f32, zero_add, sum_idx2]
  unfold sumRank
  exact Finset.sum_congr rfl fun r _ => Finset.sum_congr rfl fun c _ => v31_at x0 x1 r c

open Classical in
/-- The integer sum of the mask bits: the word of the number of valid pairs. -/
theorem v30_at (i : S_.Idx) :
    val_main_v30 (F := Ideal) x1 i = BitVec.ofNat 32 (PairSpec.count (entries x1)) := by
  unfold val_main_v30
  rw [Host.reduce_eq_fold]
  have hf : (Finset.univ.filter fun j : S8192x8192.Idx => reducesTo_S8192x8192_S_d0_1.drop j = i) = Finset.univ :=
    Finset.filter_true_of_mem fun j _ => funext fun b => b.elim0
  rw [hf]
  have hg : ∀ j ∈ (Finset.univ : Finset S8192x8192.Idx),
      val_main_v29 (F := Ideal) x1 j = BitVec.ofNat 32 (if valid (entries x1) (j 0) (j 1) then 1 else 0) := by
    intro j _
    exact (congrArg (val_main_v29 (F := Ideal) x1) (eq_ix2 j)).trans (v29_at x1 (j 0) (j 1))
  rw [Finset.fold_congr hg, val_main_c_7_apply]
  show Finset.fold IntOp.addi (BitVec.ofNat 32 0) (fun j : S8192x8192.Idx => BitVec.ofNat 32 (if valid (entries x1) (j 0) (j 1) then 1 else 0)) Finset.univ = _
  rw [fold_addi_ofNat, zero_add, sum_idx2]
  unfold PairSpec.count
  exact congrArg (BitVec.ofNat 32) (Finset.sum_congr rfl fun r _ => Finset.sum_congr rfl fun c _ => rfl)

end Cert.ReferenceIdeal.RefValue

end
-- ==== Proof.RefValue.lean ====
/-
  The reference computes the pairwise ranking loss. Its scalar end: the number of valid pairs `N` is at most `8192 * 8192`, below
  `2 ^ 31`, so the 32-bit word of `N` read signed is `N`; hence the signed compare `N > 0` is the naturals', the signed maximum with one
  is the word of `max N 1`, and its exact conversion to a float is `max N 1` as a real, which is `max N 1` taken in the extended reals.
  The final select, sum, product and quotients are then those of `PairSpec.combine` at the three sums. With the run of the reference
  this gives: every weakly fair execution terminates with the result buffer at `PairSpec.final` of the two arguments' entries, the
  arguments unchanged.
-/
import proofs.«164654_j7060926235084_1_alg».proof.Proof.RefSums
import proofs.«164654_j7060926235084_1_alg».proof.Proof.PairAlgebra

noncomputable section

namespace Cert.ReferenceIdeal.RefValue

open Cert.ReferenceIdeal Cert.ReferenceIdeal.Gen Cert.ReferenceIdeal.ReadP Idealize.ShloMosaic Idealize.ShloMosaic.ValueIdx Cert.PairSpec
open Idealize.ShloMosaic.TcCoe Idealize.SL.Sem Idealize.ShloMosaic.StableHlo

/-- A natural number below `2 ^ 31`, as a 32-bit word read signed, is itself. -/
theorem toInt_ofNat_small {n : ℕ} (h : n < 2147483648) : (BitVec.ofNat 32 n).toInt = (n : Int) := by
  rw [BitVec.toInt_eq_toNat_cond, BitVec.toNat_ofNat]
  have h2 : (2 : Nat) ^ 32 = 4294967296 := by norm_num
  rw [h2, Nat.mod_eq_of_lt (by omega), if_pos (by omega)]

variable (x0 x1 : (⟨S8192, .f32⟩ : BufTy).Contents (Elt Ideal))

/-- The signed compare of the count with zero is the naturals'. -/
theorem v36_at (i : S_.Idx) :
    val_main_v36 (F := Ideal) x1 i = BitVec.ofBool (decide (0 < PairSpec.count (entries x1))) := by
  have hN := count_le (entries x1)
  rw [val_main_v36_apply, v30_at, val_main_c_11_apply]
  show BitVec.ofBool ((0#32).slt (BitVec.ofNat 32 (PairSpec.count (entries x1)))) = _
  rw [BitVec.slt_eq_decide, BitVec.toInt_zero, toInt_ofNat_small (n := PairSpec.count (entries x1)) (by omega)]
  exact congrArg BitVec.ofBool (decide_eq_decide.mpr (by omega))

/-- The signed maximum of the count with one, converted exactly: `max N 1` as a real. -/
theorem v34_at (i : S_.Idx) :
    val_main_v34 (F := Ideal) x1 i = (((max (PairSpec.count (entries x1)) 1 : ℕ) : ℝ) : EReal) := by
  have hN := count_le (entries x1)
  rw [val_main_v34_apply, val_main_v33_apply, v30_at, val_main_c_10_apply]
  show (((IntOp.maxsi (BitVec.ofNat 32 (PairSpec.count (entries x1))) 1#32).toInt : ℝ) : EReal) = _
  have hm : IntOp.maxsi (BitVec.ofNat 32 (PairSpec.count (entries x1))) 1#32
      = BitVec.ofNat 32 (max (PairSpec.count (entries x1)) 1) := by
    unfold IntOp.maxsi
    rw [BitVec.slt_eq_decide, BitVec.toInt_one (by decide), toInt_ofNat_small (n := PairSpec.count (entries x1)) (by omega)]
    by_cases h : 1 < PairSpec.count (entries x1)
    · rw [decide_eq_true (by omega), if_pos rfl, max_eq_left (by omega)]
    · rw [decide_eq_false (by omega), if_neg (by decide), max_eq_right (by omega)]
  have hlt : max (PairSpec.count (entries x1)) 1 < 2147483648 := by
    rcases le_total (PairSpec.count (entries x1)) 1 with h | h
    · rw [max_eq_right h]; omega
    · rw [max_eq_left h]; omega
  rw [hm, toInt_ofNat_small hlt, Int.cast_natCast]

/-- The result stage is the loss. -/
theorem final_at (i : S_.Idx) :
    val_main_v39 (F := Ideal) x0 x1 i = PairSpec.final (entries x0) (entries x1) := by
  rw [val_main_v39_apply, v36_at, val_main_v38_apply, v3_at, val_main_v37_apply, val_main_cst_12_apply, val_main_v35_apply,
    v32_at, v34_at, select_ofBool]
  simp only [Ideal.mulf_def, Ideal.addf_def, Ideal.hostDivf_def, Ideal.ofBits_def, decide_eq_true_eq]
  unfold PairSpec.final combine
  by_cases h : 0 < PairSpec.count (entries x1)
  · rw [if_pos h, if_pos ((count_pos_iff _).mpr h), c1_eq, max_count_one]
  · rw [if_neg h, if_neg (fun h' => h ((count_pos_iff _).mp h'))]

/-- The run's composed term for the result buffer is the loss of the arguments' entries, at its one index. -/
theorem res_eq (m : (ℓ : Loc nD τ sig) → Buf (Elt Ideal) ℓ) (c : Dev nD) :
    Cert.ReferenceIdeal.ValueP.res_main_v39 (F := Ideal) m c
      = (fun _ => PairSpec.final (fun k => m ((c.tc : Thread nD τ).loc main_arg0) (ix1 k))
          (fun k => m ((c.tc : Thread nD τ).loc main_arg1) (ix1 k))) := by
  rw [val_main_v39_eq]
  funext i
  exact final_at _ _ i

/-- On every device, from any memory with zero counters: every weakly fair execution of the reference terminates with its result
    buffer holding the pairwise ranking loss of the two arguments' entries, and the arguments unchanged. -/
theorem run_final (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v39)
          = (fun _ => Cert.PairSpec.final (fun k => m ((c.tc : Thread nD τ).loc main_arg0) (ValueIdx.ix1 k))
              (fun k => m ((c.tc : Thread nD τ).loc main_arg1) (ValueIdx.ix1 k)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨(h c).1.trans (res_eq m c), (h c).2.1, (h c).2.2⟩)
    (Cert.ReferenceIdeal.ValueP.run (F := Ideal) m ρ)

/-- The frame alone: the reference leaves its arguments unchanged. -/
theorem run_frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => (h c).2) (run_final m ρ)

end Cert.ReferenceIdeal.RefValue

end
-- ==== Proof.lean ====
/-
  The certificate of the pairwise ranking loss kernel against its jnp reference.
  For predictions p and targets t (8192 finite floats each) both programs return
      mse                                   if no pair r < c has t r ≠ t c,
      mse + 0.1 · (Σ hinge) / #pairs        otherwise,
  where mse = (Σ_k (p k − t k)²) / 8192, the sums of the second line run over the valid pairs (r < c, t r ≠ t c), and
  hinge = max 0 (−(±1) · (p r − p c) + 0.1) with the sign of t r − t c.
  The kernel walks a 16 × 16 grid of 512 × 512 tiles and keeps three one-element accumulators (squared errors, added once
  per block row; hinges and valid pairs, added at every tile), which the host lines after the region combine; the
  reference forms the whole 8192 × 8192 arrays and sums them at once, counting the pairs in 32-bit integers. At the
  extended reals the two agree: sums regroup freely, so the tiled sums are the whole sums; the integer count cannot wrap
  (at most 8192² < 2³¹ pairs) and its conversion is exact, so it is the kernel's float count; every float literal is the
  same binary pattern on both sides. No finiteness of the inputs is used.
  The three frames: the kernel's (at both instances) from the body run in its three control cases over the generated
  launch kit, the reference's from its run with the result dropped. The idealization rewrote nothing: `preserves` is `True`.
-/
import proofs.«164654_j7060926235084_1_alg».proof.Defs
import proofs.«164654_j7060926235084_1_alg».proof.Proof.Gen.Kernel
import proofs.«164654_j7060926235084_1_alg».proof.Proof.Gen.KernelIdeal
import proofs.«164654_j7060926235084_1_alg».proof.Proof.Gen.ReferenceIdeal
import proofs.«164654_j7060926235084_1_alg».proof.Proof.Gen.Pre_finite_inputs
import proofs.«164654_j7060926235084_1_alg».proof.Proof.KFrameB
import proofs.«164654_j7060926235084_1_alg».proof.Proof.KFinalI
import proofs.«164654_j7060926235084_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its argument arrays as launched. -/
theorem frame_kernel : Cert.frame_Kernel := fun m ρ _ => Cert.Kernel.Hand.frame m ρ
/-- So does the idealized kernel. -/
theorem frame_kernelIdeal : Cert.frame_KernelIdeal := fun m ρ _ => Cert.KernelIdeal.Hand.frame m ρ
/-- So does the idealized reference: its run, the result dropped. -/
theorem frame_reference : Cert.frame_ReferenceIdeal := fun m ρ _ =>
  (θ_run Cert.ReferenceIdeal.defs _ _).mono (fun _ h c => (h c).2) (Cert.ReferenceIdeal.RefValue.run_final m ρ)
/-- The ideal pass rewrote no operation. -/
theorem preserves : Cert.preserves_Kernel_KernelIdeal := trivial
/-- From memories agreeing on the arguments both idealized programs end with the loss of the arguments in their result
    buffers: the kernel by its accumulators' closed forms and the host tail, the reference by its operations read one at a
    time. -/
theorem algebraic : Cert.algebraic_KernelIdeal_ReferenceIdeal := by
  intro m ρ m' ρ' _ hagree
  refine ⟨fun c => fun _ => Cert.PairSpec.final (Cert.KernelIdeal.Hand.pOf m c) (Cert.KernelIdeal.Hand.tOf m c),
    Cert.KernelIdeal.Hand.run_value m ρ, ?_⟩
  refine (θ_run Cert.ReferenceIdeal.defs _ _).mono (fun _ h c => ⟨(h c).1.trans ?_, (h c).2⟩)
    (Cert.ReferenceIdeal.RefValue.run_final m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
